-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v126_0)) (v1 : (c : Dev Cert.KernelIdeal.nD) → Buf (Elt Ideal) ((c.tc : Thread Cert.KernelIdeal.nD Cert.KernelIdeal.τ).loc Cert.KernelIdeal.main_v126_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126_0) = v0 c
          ∧ r.2.mem ((c.tc : Thread Cert.KernelIdeal.nD Cert.KernelIdeal.τ).loc Cert.KernelIdeal.main_v126_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v207) = v0 c
          ∧ r.2.mem ((c.tc : Thread Cert.ReferenceIdeal.nD Cert.ReferenceIdeal.τ).loc Cert.ReferenceIdeal.main_v191) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S1250000 : Shape := ⟨1, ![1250000]⟩
abbrev S7x64x64 : Shape := ⟨3, ![7, 64, 64]⟩
abbrev S64 : Shape := ⟨1, ![64]⟩
abbrev S64x64 : Shape := ⟨2, ![64, 64]⟩
abbrev S1x64 : Shape := ⟨2, ![1, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000 : S_.BroadcastsInDim S1250000 (![] : Fin 0 → Fin S1250000.rank)
  reducesTo_S1250000_S_d0 : S1250000.ReducesTo [0] S_
  bcast_S_S7x64x64 : S_.BroadcastsInDim S7x64x64 (![] : Fin 0 → Fin S7x64x64.rank)
  reducesTo_S7x64x64_S_d0_1_2 : S7x64x64.ReducesTo [0, 1, 2] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_

variable [Facts]

def fn_part6 {F : FTy → Type} [FloatOps F] (main_v98 : IVec S_ 1) (main_v101 : IVec S1x64 1) (main_c_39 : IVec S_ 1) : IVec S_ 1 :=
  let main_v102 : IVec S_ 1 := (fun x v => Host.reduce IntOp.andi x v reducesTo_S1x64_S_d0_1 h_S_) main_v101 main_c_39
  let main_v103 : IVec S_ 1 := andi main_v98 main_v102
  main_v103

def fn_part5 {F : FTy → Type} [FloatOps F] (main_arg19 : FVec F S64x64 .f32) (main_arg20 : FVec F S1x64 .f32) (main_arg21 : FVec F S1x64 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64x64 .f32 := Host.absf main_arg19
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S1x64 .f32 := Host.absf main_arg20
  let main_cst_36 : FVec F S_ .f32 := constant S_ .f32 0x7F800000#32
  let main_v95 : FVec F S1x64 .f32 := broadcastInDim S1x64 ![] bcast_S_S1x64 main_cst_36
  let main_v96 : IVec S1x64 1 := cmpf .olt main_v94 main_v95
  let main_c_37 : IVec S_ 1 := constantI S_ 1 1#1
  let main_v97 : IVec S_ 1 := (fun x v => Host.reduce IntOp.andi x v reducesTo_S1x64_S_d0_1 h_S_) main_v96 main_c_37
  let main_v98 : IVec S_ 1 := andi main_v93 main_v97
  let main_v99 : FVec F S1x64 .f32 := Host.absf main_arg21
  let main_cst_38 : FVec F S_ .f32 := constant S_ .f32 0x7F800000#32
  let main_v100 : FVec F S1x64 .f32 := broadcastInDim S1x64 ![] bcast_S_S1x64 main_cst_38
  let main_v101 : IVec S1x64 1 := cmpf .olt main_v99 main_v100
  let main_c_39 : IVec S_ 1 := constantI S_ 1 1#1
  fn_part6 (F := F) main_v98 main_v101 main_c_39

def fn_part4 {F : FTy → Type} [FloatOps F] (main_arg15 : FVec F S64x64 .f32) (main_arg16 : FVec F S64x64 .f32) (main_arg17 : FVec F S1x64 .f32) (main_arg18 : FVec F S64x64 .f32) (main_arg19 : FVec F S64x64 .f32) (main_arg20 : FVec F S1x64 .f32) (main_arg21 : FVec F S1x64 .f32) (main_v63 : IVec S_ 1) (main_v67 : IVec S_ 1) : IVec S_ 1 :=
  let main_v68 : IVec S_ 1 := andi main_v63 main_v67
  let main_v69 : FVec F S64x64 .f32 := Host.absf main_arg15
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64x64 .f32 := Host.absf main_arg16
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S1x64 .f32 := Host.absf main_arg17
  let main_cst_30 : FVec F S_ .f32 := constant S_ .f32 0x7F800000#32
  let main_v80 : FVec F S1x64 .f32 := broadcastInDim S1x64 ![] bcast_S_S1x64 main_cst_30
  let main_v81 : IVec S1x64 1 := cmpf .olt main_v79 main_v80
  let main_c_31 : IVec S_ 1 := constantI S_ 1 1#1
  let main_v82 : IVec S_ 1 := (fun x v => Host.reduce IntOp.andi x v reducesTo_S1x64_S_d0_1 h_S_) main_v81 main_c_31
  let main_v83 : IVec S_ 1 := andi main_v78 main_v82
  let main_v84 : FVec F S64x64 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S64x64 .f32) (main_arg13 : FVec F S1x64 .f32) (main_arg14 : FVec F S1x64 .f32) (main_arg15 : FVec F S64x64 .f32) (main_arg16 : FVec F S64x64 .f32) (main_arg17 : FVec F S1x64 .f32) (main_arg18 : FVec F S64x64 .f32) (main_arg19 : FVec F S64x64 .f32) (main_arg20 : FVec F S1x64 .f32) (main_arg21 : FVec F S1x64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S1x64 .f32 := Host.absf main_arg13
  let main_cst_22 : FVec F S_ .f32 := constant S_ .f32 0x7F800000#32
  let main_v60 : FVec F S1x64 .f32 := broadcastInDim S1x64 ![] bcast_S_S1x64 main_cst_22
  let main_v61 : IVec S1x64 1 := cmpf .olt main_v59 main_v60
  let main_c_23 : IVec S_ 1 := constantI S_ 1 1#1
  let main_v62 : IVec S_ 1 := (fun x v => Host.reduce IntOp.andi x v reducesTo_S1x64_S_d0_1 h_S_) main_v61 main_c_23
  let main_v63 : IVec S_ 1 := andi main_v58 main_v62
  let main_v64 : FVec F S1x64 .f32 := Host.absf main_arg14
  let main_cst_24 : FVec F S_ .f32 := constant S_ .f32 0x7F800000#32
  let main_v65 : FVec F S1x64 .f32 := broadcastInDim S1x64 ![] bcast_S_S1x64 main_cst_24
  let main_v66 : IVec S1x64 1 := cmpf .olt main_v64 main_v65
  let main_c_25 : IVec S_ 1 := constantI S_ 1 1#1
  let main_v67 : IVec S_ 1 := (fun x v => Host.reduce IntOp.andi x v reducesTo_S1x64_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S64x64 .f32) (main_arg9 : FVec F S1x64 .f32) (main_arg10 : FVec F S1x64 .f32) (main_arg11 : FVec F S64x64 .f32) (main_arg12 : FVec F S64x64 .f32) (main_arg13 : FVec F S1x64 .f32) (main_arg14 : FVec F S1x64 .f32) (main_arg15 : FVec F S64x64 .f32) (main_arg16 : FVec F S64x64 .f32) (main_arg17 : FVec F S1x64 .f32) (main_arg18 : FVec F S64x64 .f32) (main_arg19 : FVec F S64x64 .f32) (main_arg20 : FVec F S1x64 .f32) (main_arg21 : FVec F S1x64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S1x64 .f32 := Host.absf main_arg9
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S1x64 .f32 := Host.absf main_arg10
  let main_cst_16 : FVec F S_ .f32 := constant S_ .f32 0x7F800000#32
  let main_v45 : FVec F S1x64 .f32 := broadcastInDim S1x64 ![] bcast_S_S1x64 main_cst_16
  let main_v46 : IVec S1x64 1 := cmpf .olt main_v44 main_v45
  let main_c_17 : IVec S_ 1 := constantI S_ 1 1#1
  let main_v47 : IVec S_ 1 := (fun x v => Host.reduce IntOp.andi x v reducesTo_S1x64_S_d0_1 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S7x64x64 .f32) (main_arg6 : FVec F S64 .f32) (main_arg7 : FVec F S64x64 .f32) (main_arg8 : FVec F S64x64 .f32) (main_arg9 : FVec F S1x64 .f32) (main_arg10 : FVec F S1x64 .f32) (main_arg11 : FVec F S64x64 .f32) (main_arg12 : FVec F S64x64 .f32) (main_arg13 : FVec F S1x64 .f32) (main_arg14 : FVec F S1x64 .f32) (main_arg15 : FVec F S64x64 .f32) (main_arg16 : FVec F S64x64 .f32) (main_arg17 : FVec F S1x64 .f32) (main_arg18 : FVec F S64x64 .f32) (main_arg19 : FVec F S64x64 .f32) (main_arg20 : FVec F S1x64 .f32) (main_arg21 : FVec F S1x64 .f32) (main_v13 : IVec S_ 1) (main_v16 : IVec S100000x64 1) : IVec S_ 1 :=
  let main_c_5 : IVec S_ 1 := constantI S_ 1 1#1
  let main_v17 : IVec S_ 1 := (fun x v => Host.reduce IntOp.andi x v reducesTo_S100000x64_S_d0_1 h_S_) main_v16 main_c_5
  let main_v18 : IVec S_ 1 := andi main_v13 main_v17
  let main_v19 : FVec F S7x64x64 .f32 := Host.absf main_arg5
  let main_cst_6 : FVec F S_ .f32 := constant S_ .f32 0x7F800000#32
  let main_v20 : FVec F S7x64x64 .f32 := broadcastInDim S7x64x64 ![] bcast_S_S7x64x64 main_cst_6
  let main_v21 : IVec S7x64x64 1 := cmpf .olt main_v19 main_v20
  let main_c_7 : IVec S_ 1 := constantI S_ 1 1#1
  let main_v22 : IVec S_ 1 := (fun x v => Host.reduce IntOp.andi x v reducesTo_S7x64x64_S_d0_1_2 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S100000x64 .f32) (main_arg1 : IVec S2x1250000 32) (main_arg2 : FVec F S1250000 .f32) (main_arg3 : FVec F S100000x64 .f32) (main_arg4 : FVec F S100000x64 .f32) (main_arg5 : FVec F S7x64x64 .f32) (main_arg6 : FVec F S64 .f32) (main_arg7 : FVec F S64x64 .f32) (main_arg8 : FVec F S64x64 .f32) (main_arg9 : FVec F S1x64 .f32) (main_arg10 : FVec F S1x64 .f32) (main_arg11 : FVec F S64x64 .f32) (main_arg12 : FVec F S64x64 .f32) (main_arg13 : FVec F S1x64 .f32) (main_arg14 : FVec F S1x64 .f32) (main_arg15 : FVec F S64x64 .f32) (main_arg16 : FVec F S64x64 .f32) (main_arg17 : FVec F S1x64 .f32) (main_arg18 : FVec F S64x64 .f32) (main_arg19 : FVec F S64x64 .f32) (main_arg20 : FVec F S1x64 .f32) (main_arg21 : FVec F S1x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000 .f32 := Host.absf main_arg2
  let main_cst_0 : FVec F S_ .f32 := constant S_ .f32 0x7F800000#32
  let main_v5 : FVec F S1250000 .f32 := broadcastInDim S1250000 ![] bcast_S_S1250000 main_cst_0
  let main_v6 : IVec S1250000 1 := cmpf .olt main_v4 main_v5
  let main_c_1 : IVec S_ 1 := constantI S_ 1 1#1
  let main_v7 : IVec S_ 1 := (fun x v => Host.reduce IntOp.andi x v reducesTo_S1250000_S_d0 h_S_) main_v6 main_c_1
  let main_v8 : IVec S_ 1 := andi main_v3 main_v7
  let main_v9 : FVec F S100000x64 .f32 := Host.absf main_arg3
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S100000x64 .f32 := Host.absf main_arg4
  let main_cst_4 : FVec F S_ .f32 := constant S_ .f32 0x7F800000#32
  let main_v15 : FVec F S100000x64 .f32 := broadcastInDim S100000x64 ![] bcast_S_S100000x64 main_cst_4
  let main_v16 : IVec S100000x64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x64 : Shape := ⟨2, ![100000, 64]⟩
abbrev S2x1250000 : Shape := ⟨2, ![2, 1250000]⟩
abbrev S1250000 : Shape := ⟨1, ![1250000]⟩
abbrev S7x64x64 : Shape := ⟨3, ![7, 64, 64]⟩
abbrev S64 : Shape := ⟨1, ![64]⟩
abbrev S64x64 : Shape := ⟨2, ![64, 64]⟩
abbrev S1x64 : Shape := ⟨2, ![1, 64]⟩
abbrev S1x1250000 : Shape := ⟨2, ![1, 1250000]⟩
abbrev S_ : Shape := ⟨0, ![]⟩
abbrev S100000 : Shape := ⟨1, ![100000]⟩
abbrev S1250000x1 : Shape := ⟨2, ![1250000, 1]⟩
abbrev S1250000x64 : Shape := ⟨2, ![1250000, 64]⟩
abbrev S2000x64 : Shape := ⟨2, ![2000, 64]⟩
abbrev S1x64x64 : Shape := ⟨3, ![1, 64, 64]⟩

abbrev nBuf : Space → Nat
  | .hbm => 186
  | .vmem => 39
  | .smem => 0
  | _ => 0

abbrev hbmTy0_0 (i : Nat) : BufTy := match i % 128 with
  | 0 => ⟨S100000x64, .f32⟩
  | 1 => ⟨S2x1250000, .i32⟩
  | 2 => ⟨S1250000, .f32⟩
  | 3 => ⟨S100000x64, .f32⟩
  | 4 => ⟨S100000x64, .f32⟩
  | 5 => ⟨S7x64x64, .f32⟩
  | 6 => ⟨S64, .f32⟩
  | 7 => ⟨S64x64, .f32⟩
  | 8 => ⟨S64x64, .f32⟩
  | 9 => ⟨S1x64, .f32⟩
  | 10 => ⟨S1x64, .f32⟩
  | 11 => ⟨S64x64, .f32⟩
  | 12 => ⟨S64x64, .f32⟩
  | 13 => ⟨S1x64, .f32⟩
  | 14 => ⟨S1x64, .f32⟩
  | 15 => ⟨S64x64, .f32⟩
  | 16 => ⟨S64x64, .f32⟩
  | 17 => ⟨S1x64, .f32⟩
  | 18 => ⟨S64x64, .f32⟩
  | 19 => ⟨S64x64, .f32⟩
  | 20 => ⟨S1x64, .f32⟩
  | 21 => ⟨S1x64, .f32⟩
  | 22 => ⟨S1x1250000, .i32⟩
  | 23 => ⟨S1250000, .i32⟩
  | 24 => ⟨S1x1250000, .i32⟩
  | 25 => ⟨S1250000, .i32⟩
  | 26 => ⟨S1250000, .i1⟩
  | 27 => ⟨S_, .f32⟩
  | 28 => ⟨S_, .f32⟩
  | 29 => ⟨S1250000, .f32⟩
  | 30 => ⟨S1250000, .f32⟩
  | 31 => ⟨S_, .f32⟩
  | 32 => ⟨S100000, .f32⟩
  | 33 => ⟨S1250000x1, .i32⟩
  | 34 => ⟨S100000, .f32⟩
  | 35 => ⟨S_, .f32⟩
  | 36 => ⟨S100000, .f32⟩
  | 37 => ⟨S100000, .i1⟩
  | 38 => ⟨S100000, .f32⟩
  | 39 => ⟨S_, .f32⟩
  | 40 => ⟨S100000, .f32⟩
  | 41 => ⟨S100000, .f32⟩
  | 42 => ⟨S_, .f32⟩
  | 43 => ⟨S_, .f32⟩
  | 44 => ⟨S100000, .f32⟩
  | 45 => ⟨S100000, .f32⟩
  | 46 => ⟨S_, .i32⟩
  | 47 => ⟨S1250000, .i32⟩
  | 48 => ⟨S1250000, .i1⟩
  | 49 => ⟨S_, .i32⟩
  | 50 => ⟨S1250000, .i32⟩
  | 51 => ⟨S1250000, .i32⟩
  | 52 => ⟨S1250000, .i32⟩
  | 53 => ⟨S1250000x1, .i32⟩
  | 54 => ⟨S1250000, .f32⟩
  | 55 => ⟨S1250000, .f32⟩
  | 56 => ⟨S1250000, .f32⟩
  | 57 => ⟨S_, .i32⟩
  | 58 => ⟨S1250000, .i32⟩
  | 59 => ⟨S1250000, .i1⟩
  | 60 => ⟨S_, .i32⟩
  | 61 => ⟨S1250000, .i32⟩
  | 62 => ⟨S1250000, .i32⟩
  | 63 => ⟨S1250000, .i32⟩
  | 64 => ⟨S1250000x1, .i32⟩
  | 65 => ⟨S1250000, .f32⟩
  | 66 => ⟨S1250000, .f32⟩
  | 67 => ⟨S1250000x1, .f32⟩
  | 68 => ⟨S_, .i32⟩
  | 69 => ⟨S1250000, .i32⟩
  | 70 => ⟨S1250000, .i1⟩
  | 71 => ⟨S_, .i32⟩
  | 72 => ⟨S1250000, .i32⟩
  | 73 => ⟨S1250000, .i32⟩
  | 74 => ⟨S1250000, .i32⟩
  | 75 => ⟨S1250000x1, .i32⟩
  | 76 => ⟨S1250000x64, .f32⟩
  | 77 => ⟨S1250000x64, .f32⟩
  | 78 => ⟨S1250000x64, .f32⟩
  | 79 => ⟨S_, .f32⟩
  | 80 => ⟨S100000x64, .f32⟩
  | 81 => ⟨S1250000x1, .i32⟩
  | 82 => ⟨S100000x64, .f32⟩
  | 83 => ⟨S1250000x1, .f32⟩
  | 84 => ⟨S_, .i32⟩
  | 85 => ⟨S1250000, .i32⟩
  | 86 => ⟨S1250000, .i1⟩
  | 87 => ⟨S_, .i32⟩
  | 88 => ⟨S1250000, .i32⟩
  | 89 => ⟨S1250000, .i32⟩
  | 90 => ⟨S1250000, .i32⟩
  | 91 => ⟨S1250000x1, .i32⟩
  | 92 => ⟨S1250000x64, .f32⟩
  | 93 => ⟨S1250000x64, .f32⟩
  | 94 => ⟨S1250000x64, .f32⟩
  | 95 => ⟨S_, .f32⟩
  | 96 => ⟨S100000x64, .f32⟩
  | 97 => ⟨S1250000x1, .i32⟩
  | 98 => ⟨S100000x64, .f32⟩
  | 99 => ⟨S_, .f32⟩
  | 100 => ⟨S100000x64, .f32⟩
  | 101 => ⟨S100000x64, .f32⟩
  | 102 => ⟨S100000x64, .f32⟩
  | 103 => ⟨S1250000x1, .f32⟩
  | 104 => ⟨S_, .i32⟩
  | 105 => ⟨S1250000, .i32⟩
  | 106 => ⟨S1250000, .i1⟩
  | 107 => ⟨S_, .i32⟩
  | 108 => ⟨S1250000, .i32⟩
  | 109 => ⟨S1250000, .i32⟩
  | 110 => ⟨S1250000, .i32⟩
  | 111 => ⟨S1250000x1, .i32⟩
  | 112 => ⟨S1250000x64, .f32⟩
  | 113 => ⟨S1250000x64, .f32⟩
  | 114 => ⟨S1250000x64, .f32⟩
  | 115 => ⟨S_, .f32⟩
  | 116 => ⟨S100000x64, .f32⟩
  | 117 => ⟨S1250000x1, .i32⟩
  | 118 => ⟨S100000x64, .f32⟩
  | 119 => ⟨S_, .f32⟩
  | 120 => ⟨S100000x64, .f32⟩
  | 121 => ⟨S100000x64, .f32⟩
  | 122 => ⟨S100000x64, .f32⟩
  | 123 => ⟨S1250000x1, .f32⟩
  | 124 => ⟨S_, .i32⟩
  | 125 => ⟨S1250000, .i32⟩
  | 126 => ⟨S1250000, .i1⟩
  | 127 => ⟨S_, .i32⟩
  | _ => ⟨S100000x64, .f32⟩

abbrev hbmTy0_1 (i : Nat) : BufTy := match i % 128 with
  | 0 => ⟨S1250000, .i32⟩
  | 1 => ⟨S1250000, .i32⟩
  | 2 => ⟨S1250000, .i32⟩
  | 3 => ⟨S1250000x1, .i32⟩
  | 4 => ⟨S1250000x64, .f32⟩
  | 5 => ⟨S1250000x64, .f32⟩
  | 6 => ⟨S1250000x64, .f32⟩
  | 7 => ⟨S_, .f32⟩
  | 8 => ⟨S100000x64, .f32⟩
  | 9 => ⟨S1250000x1, .i32⟩
  | 10 => ⟨S100000x64, .f32⟩
  | 11 => ⟨S_, .f32⟩
  | 12 => ⟨S100000x64, .f32⟩
  | 13 => ⟨S100000x64, .f32⟩
  | 14 => ⟨S100000x64, .f32⟩
  | 15 => ⟨S1250000x1, .f32⟩
  | 16 => ⟨S_, .i32⟩
  | 17 => ⟨S1250000, .i32⟩
  | 18 => ⟨S1250000, .i1⟩
  | 19 => ⟨S_, .i32⟩
  | 20 => ⟨S1250000, .i32⟩
  | 21 => ⟨S1250000, .i32⟩
  | 22 => ⟨S1250000, .i32⟩
  | 23 => ⟨S1250000x1, .i32⟩
  | 24 => ⟨S1250000x64, .f32⟩
  | 25 => ⟨S1250000x64, .f32⟩
  | 26 => ⟨S1250000x64, .f32⟩
  | 27 => ⟨S_, .f32⟩
  | 28 => ⟨S100000x64, .f32⟩
  | 29 => ⟨S1250000x1, .i32⟩
  | 30 => ⟨S100000x64, .f32⟩
  | 31 => ⟨S_, .f32⟩
  | 32 => ⟨S100000x64, .f32⟩
  | 33 => ⟨S100000x64, .f32⟩
  | 34 => ⟨S100000x64, .f32⟩
  | 35 => ⟨S1250000x1, .f32⟩
  | 36 => ⟨S_, .i32⟩
  | 37 => ⟨S1250000, .i32⟩
  | 38 => ⟨S1250000, .i1⟩
  | 39 => ⟨S_, .i32⟩
  | 40 => ⟨S1250000, .i32⟩
  | 41 => ⟨S1250000, .i32⟩
  | 42 => ⟨S1250000, .i32⟩
  | 43 => ⟨S1250000x1, .i32⟩
  | 44 => ⟨S1250000x64, .f32⟩
  | 45 => ⟨S1250000x64, .f32⟩
  | 46 => ⟨S1250000x64, .f32⟩
  | 47 => ⟨S_, .f32⟩
  | 48 => ⟨S100000x64, .f32⟩
  | 49 => ⟨S1250000x1, .i32⟩
  | 50 => ⟨S100000x64, .f32⟩
  | 51 => ⟨S_, .f32⟩
  | 52 => ⟨S100000x64, .f32⟩
  | 53 => ⟨S100000x64, .f32⟩
  | 54 => ⟨S100000x64, .f32⟩
  | 55 => ⟨S1x64, .f32⟩
  | 56 => ⟨S100000x64, .f32⟩
  | 57 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S7x64x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S64x64, .f32⟩
  | .local _ .vmem, ⟨21, _⟩ => ⟨S64x64, .f32⟩
  | .local _ .vmem, ⟨22, _⟩ => ⟨S1x64, .f32⟩
  | .local _ .vmem, ⟨23, _⟩ => ⟨S1x64, .f32⟩
  | .local _ .vmem, ⟨24, _⟩ => ⟨S64x64, .f32⟩
  | .local _ .vmem, ⟨25, _⟩ => ⟨S64x64, .f32⟩
  | .local _ .vmem, ⟨26, _⟩ => ⟨S1x64, .f32⟩
  | .local _ .vmem, ⟨27, _⟩ => ⟨S1x64, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S64x64, .f32⟩
  | .local _ .vmem, ⟨32, _⟩ => ⟨S64x64, .f32⟩
  | .local _ .vmem, ⟨33, _⟩ => ⟨S1x64, .f32⟩
  | .local _ .vmem, ⟨34, _⟩ => ⟨S1x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_v5 : Ref sig .tc := ⟨.hbm, 30, rfl⟩
abbrev main_cst_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst_1 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_2 : Ref sig .tc := ⟨.hbm, 39, rfl⟩
abbrev main_v12 : Ref sig .tc := ⟨.hbm, 40, rfl⟩
abbrev main_v13 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_v14 : Ref sig .tc := ⟨.hbm, 45, rfl⟩
abbrev main_c : Ref sig .tc := ⟨.hbm, 46, rfl⟩
abbrev main_v15 : Ref sig .tc := ⟨.hbm, 47, rfl⟩
abbrev main_v16 : Ref sig .tc := ⟨.hbm, 48, rfl⟩
abbrev main_c_4 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_c_5 : Ref sig .tc := ⟨.hbm, 57, rfl⟩
abbrev main_v24 : Ref sig .tc := ⟨.hbm, 58, rfl⟩
abbrev main_v25 : Ref sig .tc := ⟨.hbm, 59, rfl⟩
abbrev main_c_6 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_c_7 : Ref sig .tc := ⟨.hbm, 68, rfl⟩
abbrev main_v33 : Ref sig .tc := ⟨.hbm, 69, rfl⟩
abbrev main_v34 : Ref sig .tc := ⟨.hbm, 70, rfl⟩
abbrev main_c_8 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_9 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_c_10 : Ref sig .tc := ⟨.hbm, 84, rfl⟩
abbrev main_v46 : Ref sig .tc := ⟨.hbm, 85, rfl⟩
abbrev main_v47 : Ref sig .tc := ⟨.hbm, 86, rfl⟩
abbrev main_c_11 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_12 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_13 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_c_14 : Ref sig .tc := ⟨.hbm, 104, rfl⟩
abbrev main_v62 : Ref sig .tc := ⟨.hbm, 105, rfl⟩
abbrev main_v63 : Ref sig .tc := ⟨.hbm, 106, rfl⟩
abbrev main_c_15 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_16 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_cst_17 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_c_18 : Ref sig .tc := ⟨.hbm, 124, rfl⟩
abbrev main_v78 : Ref sig .tc := ⟨.hbm, 125, rfl⟩
abbrev main_v79 : Ref sig .tc := ⟨.hbm, 126, rfl⟩
abbrev main_c_19 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_20 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_cst_21 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_c_22 : Ref sig .tc := ⟨.hbm, 144, rfl⟩
abbrev main_v94 : Ref sig .tc := ⟨.hbm, 145, rfl⟩
abbrev main_v95 : Ref sig .tc := ⟨.hbm, 146, rfl⟩
abbrev main_c_23 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_cst_24 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_cst_25 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_c_26 : Ref sig .tc := ⟨.hbm, 164, rfl⟩
abbrev main_v110 : Ref sig .tc := ⟨.hbm, 165, rfl⟩
abbrev main_v111 : Ref sig .tc := ⟨.hbm, 166, rfl⟩
abbrev main_c_27 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_cst_28 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_cst_29 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126_0 : Ref sig .tc := ⟨.hbm, 184, rfl⟩
abbrev main_v126_1 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg23_0 : Ref sig .tc := ⟨.vmem, 32, rfl⟩
abbrev cc0_stg24_0 : Ref sig .tc := ⟨.vmem, 33, rfl⟩
abbrev cc0_stg25_0 : Ref sig .tc := ⟨.vmem, 34, rfl⟩
abbrev cc0_stg26_0 : Ref sig .tc := ⟨.vmem, 35, rfl⟩
abbrev cc0_stg26_1 : Ref sig .tc := ⟨.vmem, 36, rfl⟩
abbrev cc0_stg27_0 : Ref sig .tc := ⟨.vmem, 37, rfl⟩
abbrev cc0_stg27_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem22_0 : DmaSem sig := 31
abbrev cc0_sem23_0 : DmaSem sig := 32
abbrev cc0_sem24_0 : DmaSem sig := 33
abbrev cc0_sem25_0 : DmaSem sig := 34
abbrev cc0_sem26_0 : DmaSem sig := 35
abbrev cc0_sem26_1 : DmaSem sig := 36
abbrev cc0_sem27_0 : DmaSem sig := 37
abbrev cc0_sem27_1 : DmaSem sig := 38

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S7x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S64x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S64x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S64x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S2000x64 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S2000x64 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S7x64x64_S7x64x64_0_0_0 : ∀ a, (![0, 0, 0] : Fin 3 → Nat) a + S7x64x64.size a ≤ S7x64x64.size a
  h_S7x64x64 : 0 < S7x64x64.numel
  bitsLt_bf16_f32 : FTy.bits .bf16 < FTy.bits .f32
  slices_S7x64x64_o0_0_0_S1x64x64 : S7x64x64.Slices ![0, 0, 0] S1x64x64
  shapeCasts_S1x64x64_S64x64 : S1x64x64.ShapeCasts S64x64
  slices_S7x64x64_o1_0_0_S1x64x64 : S7x64x64.Slices ![1, 0, 0] S1x64x64
  slices_S7x64x64_o2_0_0_S1x64x64 : S7x64x64.Slices ![2, 0, 0] S1x64x64
  slices_S7x64x64_o3_0_0_S1x64x64 : S7x64x64.Slices ![3, 0, 0] S1x64x64
  slices_S7x64x64_o4_0_0_S1x64x64 : S7x64x64.Slices ![4, 0, 0] S1x64x64
  slices_S7x64x64_o5_0_0_S1x64x64 : S7x64x64.Slices ![5, 0, 0] S1x64x64
  slices_S7x64x64_o6_0_0_S1x64x64 : S7x64x64.Slices ![6, 0, 0] S1x64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S100000x64.size a
  hwx0_4 : ∀ i : grid0.Coords, EltTy.bits .f32 = 32 ∨ (Rect.block (s := S100000x64) S2000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S7x64x64.size a ≤ S7x64x64.size a
  hwx0_7 : ∀ i : grid0.Coords, EltTy.bits .f32 = 32 ∨ (Rect.block (s := S7x64x64) S7x64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x64.size a ≤ S100000x64.size a
  hwx0_9 : ∀ i : grid0.Coords, EltTy.bits .f32 = 32 ∨ (Rect.block (s := S100000x64) S2000x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x64.size a ≤ S100000x64.size a
  hwx0_10 : ∀ i : grid0.Coords, EltTy.bits .f32 = 32 ∨ (Rect.block (s := S100000x64) S2000x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .f32 = 32 ∨ (Rect.block (s := S64x64) S64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x64.size a ≤ S64x64.size a
  hwx0_12 : ∀ i : grid0.Coords, EltTy.bits .f32 = 32 ∨ (Rect.block (s := S64x64) S64x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x64.size a ≤ S64x64.size a
  hwx0_15 : ∀ i : grid0.Coords, EltTy.bits .f32 = 32 ∨ (Rect.block (s := S64x64) S64x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S64x64.size a ≤ S64x64.size a
  hwx0_16 : ∀ i : grid0.Coords, EltTy.bits .f32 = 32 ∨ (Rect.block (s := S64x64) S64x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x64.size a ≤ S1x64.size a
  hwx0_17 : ∀ i : grid0.Coords, EltTy.bits .f32 = 32 ∨ (Rect.block (s := S1x64) S1x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x64.size a ≤ S1x64.size a
  hwx0_18 : ∀ i : grid0.Coords, EltTy.bits .f32 = 32 ∨ (Rect.block (s := S1x64) S1x64.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S64x64.size a ≤ S64x64.size a
  hwx0_19 : ∀ i : grid0.Coords, EltTy.bits .f32 = 32 ∨ (Rect.block (s := S64x64) S64x64.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S64x64.size a ≤ S64x64.size a
  hwx0_20 : ∀ i : grid0.Coords, EltTy.bits .f32 = 32 ∨ (Rect.block (s := S64x64) S64x64.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x64.size a ≤ S1x64.size a
  hwx0_21 : ∀ i : grid0.Coords, EltTy.bits .f32 = 32 ∨ (Rect.block (s := S1x64) S1x64.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S64x64.size a ≤ S64x64.size a
  hwx0_22 : ∀ i : grid0.Coords, EltTy.bits .f32 = 32 ∨ (Rect.block (s := S64x64) S64x64.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S64x64.size a ≤ S64x64.size a
  hwx0_23 : ∀ i : grid0.Coords, EltTy.bits .f32 = 32 ∨ (Rect.block (s := S64x64) S64x64.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x64.size a ≤ S1x64.size a
  hwx0_24 : ∀ i : grid0.Coords, EltTy.bits .f32 = 32 ∨ (Rect.block (s := S1x64) S1x64.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x64.size a ≤ S1x64.size a
  hwx0_25 : ∀ i : grid0.Coords, EltTy.bits .f32 = 32 ∨ (Rect.block (s := S1x64) S1x64.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S2000x64.size a ≤ S100000x64.size a
  hwx0_26 : ∀ i : grid0.Coords, EltTy.bits .f32 = 32 ∨ (Rect.block (s := S100000x64) S2000x64.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S2000x64.size a ≤ S100000x64.size a
  hwx0_27 : ∀ i : grid0.Coords, EltTy.bits .f32 = 32 ∨ (Rect.block (s := S100000x64) S2000x64.size (cc0_transform_27 i) (hinb0_27 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v60) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v76) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v92) S2000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v108) S2000x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v124) S2000x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S7x64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v125) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg3) S2000x64.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg4) S2000x64.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg7) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg8) S64x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg9) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg10) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg11) S64x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg12) S64x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg13) S1x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg14) S1x64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg15) S64x64.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg16) S64x64.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg17) S1x64.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg18) S64x64.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg19) S64x64.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg20) S1x64.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg21) S1x64.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v126_0) S2000x64.size cc0_transform_26 reads0_26 true false 2 stage0_26 sem0_26
    hrank0 hreads0_26 hinb0_26 nbuf0_26 (Memref.isWhole_whole _) hwx0_26 hstage0_26

abbrev win0_27 : Pipeline.Window sig grid0 :=
  Pipeline.Window.ofSpec (Memref.whole main_v126_1) S2000x64.size cc0_transform_27 reads0_27 true false 2 stage0_27 sem0_27
    hrank0 hreads0_27 hinb0_27 nbuf0_27 (Memref.isWhole_whole _) hwx0_27 hstage0_27

abbrev win0 : Fin 28 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | ⟨_ + 28, h⟩ => absurd h (Nat.not_lt.2 (Nat.le_add_left _ _))
abbrev spec0 : Fin 28 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S1250000 : Shape := ⟨1, ![1250000]⟩
abbrev S7x64x64 : Shape := ⟨3, ![7, 64, 64]⟩
abbrev S64 : Shape := ⟨1, ![64]⟩
abbrev S64x64 : Shape := ⟨2, ![64, 64]⟩
abbrev S1x64 : Shape := ⟨2, ![1, 64]⟩
abbrev S1x1250000 : Shape := ⟨2, ![1, 1250000]⟩
abbrev S_ : Shape := ⟨0, ![]⟩
abbrev S100000 : Shape := ⟨1, ![100000]⟩
abbrev S1250000x1 : Shape := ⟨2, ![1250000, 1]⟩
abbrev S1x64x64 : Shape := ⟨3, ![1, 64, 64]⟩
abbrev S1250000x64 : Shape := ⟨2, ![1250000, 64]⟩

abbrev nBuf : Space → Nat
  | .hbm => 272
  | .vmem => 0
  | .smem => 0
  | _ => 0

abbrev hbmTy0_0 (i : Nat) : BufTy := match i % 128 with
  | 0 => ⟨S100000x64, .f32⟩
  | 1 => ⟨S2x1250000, .i32⟩
  | 2 => ⟨S1250000, .f32⟩
  | 3 => ⟨S100000x64, .f32⟩
  | 4 => ⟨S100000x64, .f32⟩
  | 5 => ⟨S7x64x64, .f32⟩
  | 6 => ⟨S64, .f32⟩
  | 7 => ⟨S64x64, .f32⟩
  | 8 => ⟨S64x64, .f32⟩
  | 9 => ⟨S1x64, .f32⟩
  | 10 => ⟨S1x64, .f32⟩
  | 11 => ⟨S64x64, .f32⟩
  | 12 => ⟨S64x64, .f32⟩
  | 13 => ⟨S1x64, .f32⟩
  | 14 => ⟨S1x64, .f32⟩
  | 15 => ⟨S64x64, .f32⟩
  | 16 => ⟨S64x64, .f32⟩
  | 17 => ⟨S1x64, .f32⟩
  | 18 => ⟨S64x64, .f32⟩
  | 19 => ⟨S64x64, .f32⟩
  | 20 => ⟨S1x64, .f32⟩
  | 21 => ⟨S1x64, .f32⟩
  | 22 => ⟨S1x1250000, .i32⟩
  | 23 => ⟨S1250000, .i32⟩
  | 24 => ⟨S1x1250000, .i32⟩
  | 25 => ⟨S1250000, .i32⟩
  | 26 => ⟨S1250000, .i1⟩
  | 27 => ⟨S_, .f32⟩
  | 28 => ⟨S_, .f32⟩
  | 29 => ⟨S1250000, .f32⟩
  | 30 => ⟨S1250000, .f32⟩
  | 31 => ⟨S_, .f32⟩
  | 32 => ⟨S100000, .f32⟩
  | 33 => ⟨S1250000x1, .i32⟩
  | 34 => ⟨S100000, .f32⟩
  | 35 => ⟨S_, .f32⟩
  | 36 => ⟨S100000, .f32⟩
  | 37 => ⟨S100000, .i1⟩
  | 38 => ⟨S100000, .f32⟩
  | 39 => ⟨S_, .f32⟩
  | 40 => ⟨S100000, .f32⟩
  | 41 => ⟨S100000, .f32⟩
  | 42 => ⟨S_, .f32⟩
  | 43 => ⟨S_, .f32⟩
  | 44 => ⟨S100000, .f32⟩
  | 45 => ⟨S100000, .f32⟩
  | 46 => ⟨S_, .i32⟩
  | 47 => ⟨S1250000, .i32⟩
  | 48 => ⟨S1250000, .i1⟩
  | 49 => ⟨S_, .i32⟩
  | 50 => ⟨S1250000, .i32⟩
  | 51 => ⟨S1250000, .i32⟩
  | 52 => ⟨S1250000, .i32⟩
  | 53 => ⟨S1250000x1, .i32⟩
  | 54 => ⟨S1250000, .f32⟩
  | 55 => ⟨S1250000, .f32⟩
  | 56 => ⟨S1250000, .f32⟩
  | 57 => ⟨S_, .i32⟩
  | 58 => ⟨S1250000, .i32⟩
  | 59 => ⟨S1250000, .i1⟩
  | 60 => ⟨S_, .i32⟩
  | 61 => ⟨S1250000, .i32⟩
  | 62 => ⟨S1250000, .i32⟩
  | 63 => ⟨S1250000, .i32⟩
  | 64 => ⟨S1250000x1, .i32⟩
  | 65 => ⟨S1250000, .f32⟩
  | 66 => ⟨S1250000, .f32⟩
  | 67 => ⟨S1x64x64, .f32⟩
  | 68 => ⟨S64x64, .f32⟩
  | 69 => ⟨S100000x64, .f32⟩
  | 70 => ⟨S1250000x1, .f32⟩
  | 71 => ⟨S_, .i32⟩
  | 72 => ⟨S1250000, .i32⟩
  | 73 => ⟨S1250000, .i1⟩
  | 74 => ⟨S_, .i32⟩
  | 75 => ⟨S1250000, .i32⟩
  | 76 => ⟨S1250000, .i32⟩
  | 77 => ⟨S1250000, .i32⟩
  | 78 => ⟨S1250000x1, .i32⟩
  | 79 => ⟨S1250000x64, .f32⟩
  | 80 => ⟨S1250000x64, .f32⟩
  | 81 => ⟨S1250000x64, .f32⟩
  | 82 => ⟨S_, .f32⟩
  | 83 => ⟨S100000x64, .f32⟩
  | 84 => ⟨S1250000x1, .i32⟩
  | 85 => ⟨S100000x64, .f32⟩
  | 86 => ⟨S1x64x64, .f32⟩
  | 87 => ⟨S64x64, .f32⟩
  | 88 => ⟨S100000x64, .f32⟩
  | 89 => ⟨S100000x64, .f32⟩
  | 90 => ⟨S1250000x1, .f32⟩
  | 91 => ⟨S_, .i32⟩
  | 92 => ⟨S1250000, .i32⟩
  | 93 => ⟨S1250000, .i1⟩
  | 94 => ⟨S_, .i32⟩
  | 95 => ⟨S1250000, .i32⟩
  | 96 => ⟨S1250000, .i32⟩
  | 97 => ⟨S1250000, .i32⟩
  | 98 => ⟨S1250000x1, .i32⟩
  | 99 => ⟨S1250000x64, .f32⟩
  | 100 => ⟨S1250000x64, .f32⟩
  | 101 => ⟨S1250000x64, .f32⟩
  | 102 => ⟨S_, .f32⟩
  | 103 => ⟨S100000x64, .f32⟩
  | 104 => ⟨S1250000x1, .i32⟩
  | 105 => ⟨S100000x64, .f32⟩
  | 106 => ⟨S_, .f32⟩
  | 107 => ⟨S100000x64, .f32⟩
  | 108 => ⟨S100000x64, .f32⟩
  | 109 => ⟨S100000x64, .f32⟩
  | 110 => ⟨S1x64x64, .f32⟩
  | 111 => ⟨S64x64, .f32⟩
  | 112 => ⟨S100000x64, .f32⟩
  | 113 => ⟨S100000x64, .f32⟩
  | 114 => ⟨S1250000x1, .f32⟩
  | 115 => ⟨S_, .i32⟩
  | 116 => ⟨S1250000, .i32⟩
  | 117 => ⟨S1250000, .i1⟩
  | 118 => ⟨S_, .i32⟩
  | 119 => ⟨S1250000, .i32⟩
  | 120 => ⟨S1250000, .i32⟩
  | 121 => ⟨S1250000, .i32⟩
  | 122 => ⟨S1250000x1, .i32⟩
  | 123 => ⟨S1250000x64, .f32⟩
  | 124 => ⟨S1250000x64, .f32⟩
  | 125 => ⟨S1250000x64, .f32⟩
  | 126 => ⟨S_, .f32⟩
  | 127 => ⟨S100000x64, .f32⟩
  | _ => ⟨S100000x64, .f32⟩

abbrev hbmTy0_1 (i : Nat) : BufTy := match i % 128 with
  | 0 => ⟨S1250000x1, .i32⟩
  | 1 => ⟨S100000x64, .f32⟩
  | 2 => ⟨S_, .f32⟩
  | 3 => ⟨S100000x64, .f32⟩
  | 4 => ⟨S100000x64, .f32⟩
  | 5 => ⟨S100000x64, .f32⟩
  | 6 => ⟨S1x64x64, .f32⟩
  | 7 => ⟨S64x64, .f32⟩
  | 8 => ⟨S100000x64, .f32⟩
  | 9 => ⟨S100000x64, .f32⟩
  | 10 => ⟨S1250000x1, .f32⟩
  | 11 => ⟨S_, .i32⟩
  | 12 => ⟨S1250000, .i32⟩
  | 13 => ⟨S1250000, .i1⟩
  | 14 => ⟨S_, .i32⟩
  | 15 => ⟨S1250000, .i32⟩
  | 16 => ⟨S1250000, .i32⟩
  | 17 => ⟨S1250000, .i32⟩
  | 18 => ⟨S1250000x1, .i32⟩
  | 19 => ⟨S1250000x64, .f32⟩
  | 20 => ⟨S1250000x64, .f32⟩
  | 21 => ⟨S1250000x64, .f32⟩
  | 22 => ⟨S_, .f32⟩
  | 23 => ⟨S100000x64, .f32⟩
  | 24 => ⟨S1250000x1, .i32⟩
  | 25 => ⟨S100000x64, .f32⟩
  | 26 => ⟨S_, .f32⟩
  | 27 => ⟨S100000x64, .f32⟩
  | 28 => ⟨S100000x64, .f32⟩
  | 29 => ⟨S100000x64, .f32⟩
  | 30 => ⟨S1x64x64, .f32⟩
  | 31 => ⟨S64x64, .f32⟩
  | 32 => ⟨S100000x64, .f32⟩
  | 33 => ⟨S100000x64, .f32⟩
  | 34 => ⟨S1250000x1, .f32⟩
  | 35 => ⟨S_, .i32⟩
  | 36 => ⟨S1250000, .i32⟩
  | 37 => ⟨S1250000, .i1⟩
  | 38 => ⟨S_, .i32⟩
  | 39 => ⟨S1250000, .i32⟩
  | 40 => ⟨S1250000, .i32⟩
  | 41 => ⟨S1250000, .i32⟩
  | 42 => ⟨S1250000x1, .i32⟩
  | 43 => ⟨S1250000x64, .f32⟩
  | 44 => ⟨S1250000x64, .f32⟩
  | 45 => ⟨S1250000x64, .f32⟩
  | 46 => ⟨S_, .f32⟩
  | 47 => ⟨S100000x64, .f32⟩
  | 48 => ⟨S1250000x1, .i32⟩
  | 49 => ⟨S100000x64, .f32⟩
  | 50 => ⟨S_, .f32⟩
  | 51 => ⟨S100000x64, .f32⟩
  | 52 => ⟨S100000x64, .f32⟩
  | 53 => ⟨S100000x64, .f32⟩
  | 54 => ⟨S1x64x64, .f32⟩
  | 55 => ⟨S64x64, .f32⟩
  | 56 => ⟨S100000x64, .f32⟩
  | 57 => ⟨S100000x64, .f32⟩
  | 58 => ⟨S1250000x1, .f32⟩
  | 59 => ⟨S_, .i32⟩
  | 60 => ⟨S1250000, .i32⟩
  | 61 => ⟨S1250000, .i1⟩
  | 62 => ⟨S_, .i32⟩
  | 63 => ⟨S1250000, .i32⟩
  | 64 => ⟨S1250000, .i32⟩
  | 65 => ⟨S1250000, .i32⟩
  | 66 => ⟨S1250000x1, .i32⟩
  | 67 => ⟨S1250000x64, .f32⟩
  | 68 => ⟨S1250000x64, .f32⟩
  | 69 => ⟨S1250000x64, .f32⟩
  | 70 => ⟨S_, .f32⟩
  | 71 => ⟨S100000x64, .f32⟩
  | 72 => ⟨S1250000x1, .i32⟩
  | 73 => ⟨S100000x64, .f32⟩
  | 74 => ⟨S_, .f32⟩
  | 75 => ⟨S100000x64, .f32⟩
  | 76 => ⟨S100000x64, .f32⟩
  | 77 => ⟨S100000x64, .f32⟩
  | 78 => ⟨S1x64x64, .f32⟩
  | 79 => ⟨S64x64, .f32⟩
  | 80 => ⟨S100000x64, .f32⟩
  | 81 => ⟨S100000x64, .f32⟩
  | 82 => ⟨S1x64, .f32⟩
  | 83 => ⟨S100000x64, .f32⟩
  | 84 => ⟨S100000x64, .f32⟩
  | 85 => ⟨S100000x64, .f32⟩
  | 86 => ⟨S100000x64, .f32⟩
  | 87 => ⟨S100000x64, .f32⟩
  | 88 => ⟨S100000x64, .f32⟩
  | 89 => ⟨S100000x64, .f32⟩
  | 90 => ⟨S100000x64, .f32⟩
  | 91 => ⟨S100000x64, .f32⟩
  | 92 => ⟨S100000x64, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S_, .f32⟩
  | 99 => ⟨S100000x64, .f32⟩
  | 100 => ⟨S100000x64, .f32⟩
  | 101 => ⟨S100000x64, .f32⟩
  | 102 => ⟨S100000x64, .f32⟩
  | 103 => ⟨S100000x64, .f32⟩
  | 104 => ⟨S100000x64, .f32⟩
  | 105 => ⟨S100000x64, .f32⟩
  | 106 => ⟨S100000x64, .f32⟩
  | 107 => ⟨S100000x64, .f32⟩
  | 108 => ⟨S100000x64, .f32⟩
  | 109 => ⟨S100000x64, .f32⟩
  | 110 => ⟨S100000x64, .f32⟩
  | 111 => ⟨S_, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S100000x64, .f32⟩
  | 118 => ⟨S100000x64, .f32⟩
  | 119 => ⟨S100000x64, .f32⟩
  | 120 => ⟨S100000x64, .f32⟩
  | 121 => ⟨S100000x64, .f32⟩
  | 122 => ⟨S100000x64, .f32⟩
  | 123 => ⟨S100000x64, .f32⟩
  | 124 => ⟨S100000x64, .f32⟩
  | 125 => ⟨S100000x64, .f32⟩
  | 126 => ⟨S100000x64, .f32⟩
  | 127 => ⟨S100000x64, .f32⟩
  | _ => ⟨S100000x64, .f32⟩

abbrev hbmTy0_2 (i : Nat) : BufTy := match i % 128 with
  | 0 => ⟨S100000x64, .f32⟩
  | 1 => ⟨S100000x64, .f32⟩
  | 2 => ⟨S100000x64, .f32⟩
  | 3 => ⟨S100000x64, .f32⟩
  | 4 => ⟨S100000x64, .f32⟩
  | 5 => ⟨S100000x64, .f32⟩
  | 6 => ⟨S100000x64, .f32⟩
  | 7 => ⟨S100000x64, .f32⟩
  | 8 => ⟨S_, .f32⟩
  | 9 => ⟨S100000x64, .f32⟩
  | 10 => ⟨S100000x64, .f32⟩
  | 11 => ⟨S_, .f32⟩
  | 12 => ⟨S100000x64, .f32⟩
  | 13 => ⟨S100000x64, .f32⟩
  | 14 => ⟨S100000x64, .f32⟩
  | 15 => ⟨S100000x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_v5 : Ref sig .tc := ⟨.hbm, 30, rfl⟩
abbrev main_cst_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst_1 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_2 : Ref sig .tc := ⟨.hbm, 39, rfl⟩
abbrev main_v12 : Ref sig .tc := ⟨.hbm, 40, rfl⟩
abbrev main_v13 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_v14 : Ref sig .tc := ⟨.hbm, 45, rfl⟩
abbrev main_c : Ref sig .tc := ⟨.hbm, 46, rfl⟩
abbrev main_v15 : Ref sig .tc := ⟨.hbm, 47, rfl⟩
abbrev main_v16 : Ref sig .tc := ⟨.hbm, 48, rfl⟩
abbrev main_c_4 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_c_5 : Ref sig .tc := ⟨.hbm, 57, rfl⟩
abbrev main_v24 : Ref sig .tc := ⟨.hbm, 58, rfl⟩
abbrev main_v25 : Ref sig .tc := ⟨.hbm, 59, rfl⟩
abbrev main_c_6 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_c_7 : Ref sig .tc := ⟨.hbm, 71, rfl⟩
abbrev main_v36 : Ref sig .tc := ⟨.hbm, 72, rfl⟩
abbrev main_v37 : Ref sig .tc := ⟨.hbm, 73, rfl⟩
abbrev main_c_8 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_9 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_c_10 : Ref sig .tc := ⟨.hbm, 91, rfl⟩
abbrev main_v53 : Ref sig .tc := ⟨.hbm, 92, rfl⟩
abbrev main_v54 : Ref sig .tc := ⟨.hbm, 93, rfl⟩
abbrev main_c_11 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_12 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_13 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_c_14 : Ref sig .tc := ⟨.hbm, 115, rfl⟩
abbrev main_v73 : Ref sig .tc := ⟨.hbm, 116, rfl⟩
abbrev main_v74 : Ref sig .tc := ⟨.hbm, 117, rfl⟩
abbrev main_c_15 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_16 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_17 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_c_18 : Ref sig .tc := ⟨.hbm, 139, rfl⟩
abbrev main_v93 : Ref sig .tc := ⟨.hbm, 140, rfl⟩
abbrev main_v94 : Ref sig .tc := ⟨.hbm, 141, rfl⟩
abbrev main_c_19 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_cst_20 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_21 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_c_22 : Ref sig .tc := ⟨.hbm, 163, rfl⟩
abbrev main_v113 : Ref sig .tc := ⟨.hbm, 164, rfl⟩
abbrev main_v114 : Ref sig .tc := ⟨.hbm, 165, rfl⟩
abbrev main_c_23 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_cst_24 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_cst_25 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_c_26 : Ref sig .tc := ⟨.hbm, 187, rfl⟩
abbrev main_v133 : Ref sig .tc := ⟨.hbm, 188, rfl⟩
abbrev main_v134 : Ref sig .tc := ⟨.hbm, 189, rfl⟩
abbrev main_c_27 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_cst_28 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_cst_29 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_cst_30 : Ref sig .tc := ⟨.hbm, 223, rfl⟩
abbrev main_v165 : Ref sig .tc := ⟨.hbm, 224, rfl⟩
abbrev main_v166 : Ref sig .tc := ⟨.hbm, 225, rfl⟩
abbrev main_cst_31 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_cst_32 : Ref sig .tc := ⟨.hbm, 239, rfl⟩
abbrev main_v179 : Ref sig .tc := ⟨.hbm, 240, rfl⟩
abbrev main_v180 : Ref sig .tc := ⟨.hbm, 241, rfl⟩
abbrev main_cst_33 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_cst_34 : Ref sig .tc := ⟨.hbm, 264, rfl⟩
abbrev main_v202 : Ref sig .tc := ⟨.hbm, 265, rfl⟩
abbrev main_v203 : Ref sig .tc := ⟨.hbm, 266, rfl⟩
abbrev main_cst_35 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  slices_S7x64x64_S1x64x64_0_0_0 : S7x64x64.Slices ![0, 0, 0] S1x64x64
  shapeCasts_S1x64x64_S64x64 : S1x64x64.ShapeCasts S64x64
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  slices_S7x64x64_S1x64x64_1_0_0 : S7x64x64.Slices ![1, 0, 0] S1x64x64
  slices_S7x64x64_S1x64x64_2_0_0 : S7x64x64.Slices ![2, 0, 0] S1x64x64
  slices_S7x64x64_S1x64x64_3_0_0 : S7x64x64.Slices ![3, 0, 0] S1x64x64
  slices_S7x64x64_S1x64x64_4_0_0 : S7x64x64.Slices ![4, 0, 0] S1x64x64
  slices_S7x64x64_S1x64x64_5_0_0 : S7x64x64.Slices ![5, 0, 0] S1x64x64
  slices_S7x64x64_S1x64x64_6_0_0 : S7x64x64.Slices ![6, 0, 0] S1x64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  dot_S100000x64_S64x64_S100000x64_1_0_0_1_n_n_wf : DotDims.WF S100000x64 S64x64 S100000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.GateRows.lean ====
/-
  The mathematics both programs compute, one output row at a time.

  A node's new cell state and new hidden state depend only on that node's own rows: its row in each of the seven
  Chebyshev-propagated feature arrays T_0 … T_6, its row of the hidden state H and its row of the cell state C, and on
  the (small, shared) weight arrays. With a row x and a 64 × 64 matrix w, write x·w for the row whose entry q is the sum
  over k of x(k) · w(k, q). Then, entry by entry on the extended reals,

    X  = T_0·W_0 + T_1·W_1 + … + T_6·W_6 + b                       (the graph convolution's output row)
    I  = σ(X·wxi + H·whi + wci ∘ C + bi)        F  = σ(X·wxf + H·whf + wcf ∘ C + bf)
    T  = tanh(X·wxc + H·whc + bc)               C' = F ∘ C + I ∘ T
    O  = σ(X·wxo + H·who + wco ∘ C' + bo)       H' = O ∘ tanh(C')

  with σ the logistic function, ∘ the entrywise product and every sum associated to the left, exactly as written.
  Nothing here mentions a program: the definitions below are functions of rows and of weight arrays over literal shapes.
-/
import Idealize.ShloMosaic.PureOps.Ideal
import Idealize.ShloMosaic.Lib.ValueIdx

noncomputable section

open scoped BigOperators

namespace Cert.GateRows

open Idealize.ShloMosaic Idealize.ShloMosaic.ValueIdx

/-- A 64 × 64 weight matrix, a 1 × 64 weight row, and the stack of the seven Chebyshev weight matrices. -/
abbrev Mat : Type := (⟨2, ![64, 64]⟩ : Shape).Idx → EReal
abbrev Row1 : Type := (⟨2, ![1, 64]⟩ : Shape).Idx → EReal
abbrev Stack : Type := (⟨3, ![7, 64, 64]⟩ : Shape).Idx → EReal

/-- Row `r` of an array with 64 columns. -/
def rowOf {n : Nat} (a : (⟨2, ![n, 64]⟩ : Shape).Idx → EReal) (r : Fin n) : Fin 64 → EReal := fun k => a (ix2 r k)

/-- The row x·w: entry `q` is the sum over `k` of x(k) · w(k, q). -/
def rowMat (x : Fin 64 → EReal) (w : Mat) (q : Fin 64) : EReal := ∑ k : Fin 64, x k * w (ix2 k q)

/-- The row x·W_g for member `g` of the stack. -/
def rowStack (x : Fin 64 → EReal) (W : Stack) (g : Fin 7) (q : Fin 64) : EReal := ∑ k : Fin 64, x k * W (ix3 g k q)

/-- The graph convolution's output row X = T_0·W_0 + … + T_6·W_6 + b, summed from the left. -/
def chebRow (t0 t1 t2 t3 t4 t5 t6 : Fin 64 → EReal) (W : Stack) (b : Fin 64 → EReal) (q : Fin 64) : EReal :=
  rowStack t0 W 0 q + rowStack t1 W 1 q + rowStack t2 W 2 q + rowStack t3 W 3 q + rowStack t4 W 4 q
    + rowStack t5 W 5 q + rowStack t6 W 6 q + b q

/-- A gate with a peephole term: σ(X·wx + H·wh + wc ∘ C + b). -/
def sigGate (X H C : Fin 64 → EReal) (wx wh : Mat) (wc b : Row1) (q : Fin 64) : EReal :=
  Ideal.logistic (rowMat X wx q + rowMat H wh q + wc (ix2 0 q) * C q + b (ix2 0 q))

/-- The candidate: tanh(X·wx + H·wh + b). -/
def tanhGate (X H : Fin 64 → EReal) (wx wh : Mat) (b : Row1) (q : Fin 64) : EReal :=
  Ideal.tanh (rowMat X wx q + rowMat H wh q + b (ix2 0 q))

/-- The new cell row C' = F ∘ C + I ∘ T. -/
def cellRow (X H C : Fin 64 → EReal) (wxi whi : Mat) (wci bi : Row1) (wxf whf : Mat) (wcf bf : Row1)
    (wxc whc : Mat) (bc : Row1) (q : Fin 64) : EReal :=
  sigGate X H C wxf whf wcf bf q * C q + sigGate X H C wxi whi wci bi q * tanhGate X H wxc whc bc q

/-- The new hidden row H' = O ∘ tanh(C'), the output gate O reading the NEW cell row. -/
def hiddenRow (X H C' : Fin 64 → EReal) (wxo who : Mat) (wco bo : Row1) (q : Fin 64) : EReal :=
  sigGate X H C' wxo who wco bo q * Ideal.tanh (C' q)

/-! ## The two result arrays as functions of whole arrays with `n` rows -/

section Arrays
variable {n : Nat}

/-- The convolution's output array: row `r` is `chebRow` of the seven arrays' rows `r`. -/
def chebArr (t0 t1 t2 t3 t4 t5 t6 : (⟨2, ![n, 64]⟩ : Shape).Idx → EReal) (W : Stack) (b : Fin 64 → EReal)
    (r : Fin n) : Fin 64 → EReal :=
  chebRow (rowOf t0 r) (rowOf t1 r) (rowOf t2 r) (rowOf t3 r) (rowOf t4 r) (rowOf t5 r) (rowOf t6 r) W b

/-- The new cell state, row by row. -/
def cellArr (t0 t1 t2 t3 t4 t5 t6 : (⟨2, ![n, 64]⟩ : Shape).Idx → EReal) (W : Stack) (b : Fin 64 → EReal)
    (H C : (⟨2, ![n, 64]⟩ : Shape).Idx → EReal) (wxi whi : Mat) (wci bi : Row1) (wxf whf : Mat) (wcf bf : Row1)
    (wxc whc : Mat) (bc : Row1) (r : Fin n) : Fin 64 → EReal :=
  cellRow (chebArr t0 t1 t2 t3 t4 t5 t6 W b r) (rowOf H r) (rowOf C r) wxi whi wci bi wxf whf wcf bf wxc whc bc

/-- The new hidden state, row by row. -/
def hiddenArr (t0 t1 t2 t3 t4 t5 t6 : (⟨2, ![n, 64]⟩ : Shape).Idx → EReal) (W : Stack) (b : Fin 64 → EReal)
    (H C : (⟨2, ![n, 64]⟩ : Shape).Idx → EReal) (wxi whi : Mat) (wci bi : Row1) (wxf whf : Mat) (wcf bf : Row1)
    (wxc whc : Mat) (bc : Row1) (wxo who : Mat) (wco bo : Row1) (r : Fin n) : Fin 64 → EReal :=
  hiddenRow (chebArr t0 t1 t2 t3 t4 t5 t6 W b r) (rowOf H r)
    (cellArr t0 t1 t2 t3 t4 t5 t6 W b H C wxi whi wci bi wxf whf wcf bf wxc whc bc r) wxo who wco bo

end Arrays

/-! ## The results depend on the arrays only through the rows read -/

section Congr
variable {n n' : Nat}

/-- Two families of arrays whose rows at `r` and at `p` agree, with equal weights, give the same new cell row. -/
theorem cellArr_congr
    (t0 t1 t2 t3 t4 t5 t6 H C : (⟨2, ![n, 64]⟩ : Shape).Idx → EReal) (t0' t1' t2' t3' t4' t5' t6' H' C' : (⟨2, ![n', 64]⟩ : Shape).Idx → EReal)
    (W W' : Stack) (b b' : Fin 64 → EReal) (wxi wxi' whi whi' : Mat) (wci wci' bi bi' : Row1) (wxf wxf' whf whf' : Mat)
    (wcf wcf' bf bf' : Row1) (wxc wxc' whc whc' : Mat) (bc bc' : Row1) (r : Fin n) (p : Fin n') (q : Fin 64)
    (h0 : rowOf t0' p = rowOf t0 r) (h1 : rowOf t1' p = rowOf t1 r) (h2 : rowOf t2' p = rowOf t2 r) (h3 : rowOf t3' p = rowOf t3 r)
    (h4 : rowOf t4' p = rowOf t4 r) (h5 : rowOf t5' p = rowOf t5 r) (h6 : rowOf t6' p = rowOf t6 r)
    (hH : rowOf H' p = rowOf H r) (hC : rowOf C' p = rowOf C r) (hW : W' = W) (hb : b' = b)
    (e1 : wxi' = wxi) (e2 : whi' = whi) (e3 : wci' = wci) (e4 : bi' = bi) (e5 : wxf' = wxf) (e6 : whf' = whf) (e7 : wcf' = wcf)
    (e8 : bf' = bf) (e9 : wxc' = wxc) (e10 : whc' = whc) (e11 : bc' = bc) :
    cellArr t0' t1' t2' t3' t4' t5' t6' W' b' H' C' wxi' whi' wci' bi' wxf' whf' wcf' bf' wxc' whc' bc' p q
      = cellArr t0 t1 t2 t3 t4 t5 t6 W b H C wxi whi wci bi wxf whf wcf bf wxc whc bc r q := by
  subst hW hb e1 e2 e3 e4 e5 e6 e7 e8 e9 e10 e11
  unfold cellArr chebArr
  rw [h0, h1, h2, h3, h4, h5, h6, hH, hC]

/-- The same for the new hidden row. -/
theorem hiddenArr_congr
    (t0 t1 t2 t3 t4 t5 t6 H C : (⟨2, ![n, 64]⟩ : Shape).Idx → EReal) (t0' t1' t2' t3' t4' t5' t6' H' C' : (⟨2, ![n', 64]⟩ : Shape).Idx → EReal)
    (W W' : Stack) (b b' : Fin 64 → EReal) (wxi wxi' whi whi' : Mat) (wci wci' bi bi' : Row1) (wxf wxf' whf whf' : Mat)
    (wcf wcf' bf bf' : Row1) (wxc wxc' whc whc' : Mat) (bc bc' : Row1) (wxo wxo' who who' : Mat) (wco wco' bo bo' : Row1)
    (r : Fin n) (p : Fin n') (q : Fin 64)
    (h0 : rowOf t0' p = rowOf t0 r) (h1 : rowOf t1' p = rowOf t1 r) (h2 : rowOf t2' p = rowOf t2 r) (h3 : rowOf t3' p = rowOf t3 r)
    (h4 : rowOf t4' p = rowOf t4 r) (h5 : rowOf t5' p = rowOf t5 r) (h6 : rowOf t6' p = rowOf t6 r)
    (hH : rowOf H' p = rowOf H r) (hC : rowOf C' p = rowOf C r) (hW : W' = W) (hb : b' = b)
    (e1 : wxi' = wxi) (e2 : whi' = whi) (e3 : wci' = wci) (e4 : bi' = bi) (e5 : wxf' = wxf) (e6 : whf' = whf) (e7 : wcf' = wcf)
    (e8 : bf' = bf) (e9 : wxc' = wxc) (e10 : whc' = whc) (e11 : bc' = bc)
    (e12 : wxo' = wxo) (e13 : who' = who) (e14 : wco' = wco) (e15 : bo' = bo) :
    hiddenArr t0' t1' t2' t3' t4' t5' t6' W' b' H' C' wxi' whi' wci' bi' wxf' whf' wcf' bf' wxc' whc' bc' wxo' who' wco' bo' p q
      = hiddenArr t0 t1 t2 t3 t4 t5 t6 W b H C wxi whi wci bi wxf whf wcf bf wxc whc bc wxo who wco bo r q := by
  subst hW hb e1 e2 e3 e4 e5 e6 e7 e8 e9 e10 e11 e12 e13 e14 e15
  unfold hiddenArr cellArr chebArr
  rw [h0, h1, h2, h3, h4, h5, h6, hH, hC]

end Congr

end Cert.GateRows

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.KernelRows.lean ====
/-
  The kernel body's arithmetic, read at one entry of a 2000-row block.

  The body receives a block of 2000 rows of each of the seven propagated arrays, of H and of C, together with the whole
  weight arrays, and computes every value as a vector over the block. Read at row p and column q of the block, each of
  its matrix products (a product into the zero accumulator) is the sum over k of the left factor's row p times the
  right factor's column q; the casts to a narrower float format are the identity on the extended reals; slice g of the
  weight stack followed by dropping the unit axis reads entry (g, k, q); a one-row array spread over the block reads its
  row. So entry (p, q) of what the body stores is the row function of GateRows applied to rows p of the blocks.
-/
import proofs.«158475_j43903155699857_1_alg».proof.Proof.Gen.KernelIdeal.Skeleton
import proofs.«158475_j43903155699857_1_alg».proof.Proof.GateRows
import proofs.«158475_j43903155699857_1_alg».proof.Proof.LibMatmulAt
import Idealize.ShloMosaic.Lib.ValueIdx
import Idealize.ShloMosaic.Lib.ValueLayout
import Idealize.ShloMosaic.Lib.Pipeline.Value

noncomputable section

open scoped BigOperators

namespace Cert.KernelIdeal.Rows

open Cert.KernelIdeal Cert.KernelIdeal.Gen
open Idealize.ShloMosaic Idealize.ShloMosaic.ValueIdx Cert.GateRows

/-! ## The non-pointwise operations at an entry -/

/-- A block times a 64 × 64 matrix, accumulated into zero: entry (p, q) is the sum over k of A(p, k) · B(k, q). -/
theorem mm_apply {φ₁ φ₂ : FTy} (A : FVec Ideal S2000x64 φ₁) (B : FVec Ideal S64x64 φ₂) (p : Fin 2000) (q : Fin 64) :
    matmul dot_S2000x64_S64x64_S2000x64_1_0_0_1_n_n none A B (constant (F := Ideal) S2000x64 .f32 0x00000000#32) (ix2 p q)
      = ∑ k : Fin 64, A (ix2 p k) * B (ix2 k q) :=
  Cert.KernelIdeal.Hand.matmul_zero_plain_apply dot_S2000x64_S64x64_S2000x64_1_0_0_1_n_n rfl none A B (ix2 p q)

/-- Member `g` of the weight stack, cut out as a 1 × 64 × 64 slice at offset `o = g` and cast to 64 × 64: entry (k, q)
    is the stack's entry (g, k, q). -/
theorem wslice_apply (W : FVec Ideal S7x64x64 .f32) (o : Nat) (g : Fin 7) (hg : g.val = o)
    (h : S7x64x64.Slices ![o, 0, 0] S1x64x64) (k q : Fin 64) :
    shapeCast S64x64 (extractStridedSlice S1x64x64 ![o, 0, 0] W h) Facts₀.shapeCasts_S1x64x64_S64x64 (ix2 k q)
      = W (ix3 g k q) := by
  refine (shapeCast_1ab_ab_apply (extractStridedSlice S1x64x64 ![o, 0, 0] W h) Facts₀.shapeCasts_S1x64x64_S64x64 k q).trans ?_
  exact extractStridedSlice_apply ![o, 0, 0] W h (ix3 (0 : Fin 1) k q) (ix3 g k q) (fun a => match a with
    | ⟨0, _⟩ => by show g.val = o + 0; omega
    | ⟨1, _⟩ => by show k.val = 0 + k.val; omega
    | ⟨2, _⟩ => by show q.val = 0 + q.val; omega)

theorem wslice0 (W : FVec Ideal S7x64x64 .f32) (k q : Fin 64) :
    shapeCast S64x64 (extractStridedSlice S1x64x64 ![0, 0, 0] W Facts₀.slices_S7x64x64_o0_0_0_S1x64x64) Facts₀.shapeCasts_S1x64x64_S64x64 (ix2 k q)
      = W (ix3 (0 : Fin 7) k q) :=
  wslice_apply W 0 0 rfl Facts₀.slices_S7x64x64_o0_0_0_S1x64x64 k q

theorem wslice1 (W : FVec Ideal S7x64x64 .f32) (k q : Fin 64) :
    shapeCast S64x64 (extractStridedSlice S1x64x64 ![1, 0, 0] W Facts₀.slices_S7x64x64_o1_0_0_S1x64x64) Facts₀.shapeCasts_S1x64x64_S64x64 (ix2 k q)
      = W (ix3 (1 : Fin 7) k q) :=
  wslice_apply W 1 1 rfl Facts₀.slices_S7x64x64_o1_0_0_S1x64x64 k q

theorem wslice2 (W : FVec Ideal S7x64x64 .f32) (k q : Fin 64) :
    shapeCast S64x64 (extractStridedSlice S1x64x64 ![2, 0, 0] W Facts₀.slices_S7x64x64_o2_0_0_S1x64x64) Facts₀.shapeCasts_S1x64x64_S64x64 (ix2 k q)
      = W (ix3 (2 : Fin 7) k q) :=
  wslice_apply W 2 2 rfl Facts₀.slices_S7x64x64_o2_0_0_S1x64x64 k q

theorem wslice3 (W : FVec Ideal S7x64x64 .f32) (k q : Fin 64) :
    shapeCast S64x64 (extractStridedSlice S1x64x64 ![3, 0, 0] W Facts₀.slices_S7x64x64_o3_0_0_S1x64x64) Facts₀.shapeCasts_S1x64x64_S64x64 (ix2 k q)
      = W (ix3 (3 : Fin 7) k q) :=
  wslice_apply W 3 3 rfl Facts₀.slices_S7x64x64_o3_0_0_S1x64x64 k q

theorem wslice4 (W : FVec Ideal S7x64x64 .f32) (k q : Fin 64) :
    shapeCast S64x64 (extractStridedSlice S1x64x64 ![4, 0, 0] W Facts₀.slices_S7x64x64_o4_0_0_S1x64x64) Facts₀.shapeCasts_S1x64x64_S64x64 (ix2 k q)
      = W (ix3 (4 : Fin 7) k q) :=
  wslice_apply W 4 4 rfl Facts₀.slices_S7x64x64_o4_0_0_S1x64x64 k q

theorem wslice5 (W : FVec Ideal S7x64x64 .f32) (k q : Fin 64) :
    shapeCast S64x64 (extractStridedSlice S1x64x64 ![5, 0, 0] W Facts₀.slices_S7x64x64_o5_0_0_S1x64x64) Facts₀.shapeCasts_S1x64x64_S64x64 (ix2 k q)
      = W (ix3 (5 : Fin 7) k q) :=
  wslice_apply W 5 5 rfl Facts₀.slices_S7x64x64_o5_0_0_S1x64x64 k q

theorem wslice6 (W : FVec Ideal S7x64x64 .f32) (k q : Fin 64) :
    shapeCast S64x64 (extractStridedSlice S1x64x64 ![6, 0, 0] W Facts₀.slices_S7x64x64_o6_0_0_S1x64x64) Facts₀.shapeCasts_S1x64x64_S64x64 (ix2 k q)
      = W (ix3 (6 : Fin 7) k q) :=
  wslice_apply W 6 6 rfl Facts₀.slices_S7x64x64_o6_0_0_S1x64x64 k q

/-- A one-row array spread over the block's 2000 rows reads its one row. -/
theorem spread_apply (v : FVec Ideal S1x64 .f32) (p : Fin 2000) (q : Fin 64) :
    broadcastTo S2000x64 v Facts₀.broadcasts_S1x64_S2000x64 (ix2 p q) = v (ix2 (0 : Fin 1) q) :=
  broadcastTo_1b_ab_apply v Facts₀.broadcasts_S1x64_S2000x64 p q

theorem logistic_apply {s : Shape} (x : FVec Ideal s .f32) (i : s.Idx) : logistic x i = Ideal.logistic (x i) := rfl
theorem tanh_apply {s : Shape} (x : FVec Ideal s .f32) (i : s.Idx) : tanh x i = Ideal.tanh (x i) := rfl

/-! ## The graph convolution's output X -/

/-- The first four terms of X. -/
theorem pay4_apply (x0 x1 x2 x3 : FVec Ideal S2000x64 .f32) (W : FVec Ideal S7x64x64 .f32) (p : Fin 2000) (q : Fin 64) :
    k0_pay4 (F := Ideal) x0 x1 x2 x3 W (ix2 p q)
      = rowStack (rowOf x0 p) W 0 q + rowStack (rowOf x1 p) W 1 q + rowStack (rowOf x2 p) W 2 q + rowStack (rowOf x3 p) W 3 q := by
  unfold k0_pay4
  simp only [addf_apply, mm_apply, truncf_apply, shapeCast_self, wslice0, wslice1, wslice2, wslice3]
  rfl

/-- X itself: the remaining three terms and the bias row. -/
theorem pay6_apply (x0 x1 x2 x3 x4 x5 x6 : FVec Ideal S2000x64 .f32) (W : FVec Ideal S7x64x64 .f32) (b : FVec Ideal S1x64 .f32)
    (p : Fin 2000) (q : Fin 64) :
    k0_pay6 (F := Ideal) (k0_pay2 x5) (k0_pay3 x6) W (k0_pay4 x0 x1 x2 x3 W) (k0_pay5 x4) b (ix2 p q)
      = chebArr x0 x1 x2 x3 x4 x5 x6 W (fun k => b (ix2 (0 : Fin 1) k)) p q := by
  unfold k0_pay6 k0_pay2 k0_pay3 k0_pay5
  simp only [addf_apply, mm_apply, truncf_apply, shapeCast_self, wslice4, wslice5, wslice6, spread_apply, pay4_apply]
  rfl

/-! ## The gates, over any left factor whose row p is known -/

/-- The input gate (the body's first sigmoid). -/
theorem pay7_apply (v10 v12 : FVec Ideal S2000x64 .f32) (v13 : FVec Ideal S7x64x64 .f32) (v36 : FVec Ideal S2000x64 .f32)
    (v37 : FVec Ideal S2000x64 .bf16) (v55 : FVec Ideal S1x64 .f32) (v59 v60 : FVec Ideal S2000x64 .f32)
    (v62 v66 : FVec Ideal S64x64 .f32) (v70 v74 : FVec Ideal S1x64 .f32) (X : Fin 64 → EReal) (p : Fin 2000)
    (hX : ∀ k : Fin 64, k0_pay6 (F := Ideal) v10 v12 v13 v36 v37 v55 (ix2 p k) = X k) (q : Fin 64) :
    k0_pay7 (F := Ideal) v10 v12 v13 v36 v37 v55 v59 v60 v62 v66 v70 v74 (ix2 p q)
      = sigGate X (rowOf v59 p) (rowOf v60 p) v62 v66 v70 v74 q := by
  unfold k0_pay7
  simp only [logistic_apply, addf_apply, mulf_apply, mm_apply, truncf_apply, spread_apply, hX]
  rfl

/-- The new cell state (forget gate, candidate, and their combination with the input gate). -/
theorem pay9_apply (v58 : FVec Ideal S2000x64 .f32) (v59 v60 : FVec Ideal S2000x64 .f32) (v77 : FVec Ideal S2000x64 .f32)
    (v78 : FVec Ideal S2000x64 .bf16) (v79 v83 : FVec Ideal S64x64 .f32) (v87 v91 : FVec Ideal S1x64 .f32)
    (v96 v100 : FVec Ideal S64x64 .f32) (v104 : FVec Ideal S1x64 .f32) (X : Fin 64 → EReal) (Ig : EReal) (p : Fin 2000) (q : Fin 64)
    (hX : ∀ k : Fin 64, v58 (ix2 p k) = X k) (hX' : ∀ k : Fin 64, v78 (ix2 p k) = X k) (hI : v77 (ix2 p q) = Ig) :
    k0_pay9 (F := Ideal) v58 v59 v60 v77 v78 v79 v83 v87 v91 v96 v100 v104 (ix2 p q)
      = sigGate X (rowOf v59 p) (rowOf v60 p) v79 v83 v87 v91 q * v60 (ix2 p q)
          + Ig * tanhGate X (rowOf v59 p) v96 v100 v104 q := by
  unfold k0_pay9
  simp only [logistic_apply, tanh_apply, addf_apply, mulf_apply, mm_apply, truncf_apply, spread_apply, hX, hX', hI]
  rfl

/-- The product of X with the output gate's weight matrix. -/
theorem pay10_apply (v58 : FVec Ideal S2000x64 .f32) (v112 : FVec Ideal S64x64 .f32) (X : Fin 64 → EReal) (p : Fin 2000) (q : Fin 64)
    (hX : ∀ k : Fin 64, v58 (ix2 p k) = X k) :
    k0_pay10 (F := Ideal) v58 v112 (ix2 p q) = rowMat X v112 q := by
  unfold k0_pay10
  simp only [mm_apply, truncf_apply, hX]
  rfl

/-- The new hidden state: the output gate over the NEW cell state, times its tanh. -/
theorem pay1_apply (v110 v114 : FVec Ideal S2000x64 .f32) (v115 : FVec Ideal S2000x64 .bf16) (v116 : FVec Ideal S64x64 .f32)
    (v120 v124 : FVec Ideal S1x64 .f32) (X Hr C' : Fin 64 → EReal) (wxo : Mat) (p : Fin 2000) (q : Fin 64)
    (h114 : v114 (ix2 p q) = rowMat X wxo q) (hH : ∀ k : Fin 64, v115 (ix2 p k) = Hr k) (hC : v110 (ix2 p q) = C' q) :
    k0_pay1 (F := Ideal) v110 v114 v115 v116 v120 v124 (ix2 p q) = hiddenRow X Hr C' wxo v116 v120 v124 q := by
  unfold k0_pay1
  simp only [logistic_apply, tanh_apply, addf_apply, mulf_apply, mm_apply, truncf_apply, spread_apply, h114, hH, hC]
  rfl

/-! ## The two stored values, from the blocks -/

/-- The value stored to the cell-state output: entry (p, q) is the new cell row of rows p of the blocks. -/
theorem cellTerm_apply (x0 x1 x2 x3 x4 x5 x6 : FVec Ideal S2000x64 .f32) (x7 : FVec Ideal S7x64x64 .f32) (x8 : FVec Ideal S1x64 .f32) (x9 x10 : FVec Ideal S2000x64 .f32) (x11 x12 : FVec Ideal S64x64 .f32) (x13 x14 : FVec Ideal S1x64 .f32) (x15 x16 : FVec Ideal S64x64 .f32) (x17 x18 : FVec Ideal S1x64 .f32) (x19 x20 : FVec Ideal S64x64 .f32) (x21 : FVec Ideal S1x64 .f32) (p : Fin 2000) (q : Fin 64) :
    (k0_pay9 (F := Ideal) (k0_pay6 (F := Ideal) (k0_pay2 x5) (k0_pay3 x6) x7 (k0_pay4 x0 x1 x2 x3 x7) (k0_pay5 x4) x8) x9 x10 (k0_pay7 (F := Ideal) (k0_pay2 x5) (k0_pay3 x6) x7 (k0_pay4 x0 x1 x2 x3 x7) (k0_pay5 x4) x8 x9 x10 x11 x12 x13 x14) (k0_pay8 (F := Ideal) (k0_pay2 x5) (k0_pay3 x6) x7 (k0_pay4 x0 x1 x2 x3 x7) (k0_pay5 x4) x8) x15 x16 x17 x18 x19 x20 x21) (ix2 p q) = cellArr x0 x1 x2 x3 x4 x5 x6 x7 (fun k => x8 (ix2 (0 : Fin 1) k)) x9 x10 x11 x12 x13 x14 x15 x16 x17 x18 x19 x20 x21 p q := by
  refine (pay9_apply (k0_pay6 (F := Ideal) (k0_pay2 x5) (k0_pay3 x6) x7 (k0_pay4 x0 x1 x2 x3 x7) (k0_pay5 x4) x8) x9 x10 (k0_pay7 (F := Ideal) (k0_pay2 x5) (k0_pay3 x6) x7 (k0_pay4 x0 x1 x2 x3 x7) (k0_pay5 x4) x8 x9 x10 x11 x12 x13 x14) (k0_pay8 (F := Ideal) (k0_pay2 x5) (k0_pay3 x6) x7 (k0_pay4 x0 x1 x2 x3 x7) (k0_pay5 x4) x8) x15 x16 x17 x18 x19 x20 x21 (chebArr x0 x1 x2 x3 x4 x5 x6 x7 (fun k => x8 (ix2 (0 : Fin 1) k)) p)
    (sigGate (chebArr x0 x1 x2 x3 x4 x5 x6 x7 (fun k => x8 (ix2 (0 : Fin 1) k)) p) (rowOf x9 p) (rowOf x10 p) x11 x12 x13 x14 q) p q
    (fun k => pay6_apply x0 x1 x2 x3 x4 x5 x6 x7 x8 p k)
    (fun k => pay6_apply x0 x1 x2 x3 x4 x5 x6 x7 x8 p k)
    (pay7_apply (k0_pay2 x5) (k0_pay3 x6) x7 (k0_pay4 x0 x1 x2 x3 x7) (k0_pay5 x4) x8 x9 x10 x11 x12 x13 x14 (chebArr x0 x1 x2 x3 x4 x5 x6 x7 (fun k => x8 (ix2 (0 : Fin 1) k)) p) p
      (fun k => pay6_apply x0 x1 x2 x3 x4 x5 x6 x7 x8 p k) q)).trans ?_
  rfl

/-- The value stored to the hidden-state output: entry (p, q) is the new hidden row of rows p of the blocks. -/
theorem hiddenTerm_apply (x0 x1 x2 x3 x4 x5 x6 : FVec Ideal S2000x64 .f32) (x7 : FVec Ideal S7x64x64 .f32) (x8 : FVec Ideal S1x64 .f32) (x9 x10 : FVec Ideal S2000x64 .f32) (x11 x12 : FVec Ideal S64x64 .f32) (x13 x14 : FVec Ideal S1x64 .f32) (x15 x16 : FVec Ideal S64x64 .f32) (x17 x18 : FVec Ideal S1x64 .f32) (x19 x20 : FVec Ideal S64x64 .f32) (x21 : FVec Ideal S1x64 .f32) (x22 x23 : FVec Ideal S64x64 .f32) (x24 x25 : FVec Ideal S1x64 .f32) (p : Fin 2000) (q : Fin 64) :
    (k0_pay1 (F := Ideal) (k0_pay9 (F := Ideal) (k0_pay6 (F := Ideal) (k0_pay2 x5) (k0_pay3 x6) x7 (k0_pay4 x0 x1 x2 x3 x7) (k0_pay5 x4) x8) x9 x10 (k0_pay7 (F := Ideal) (k0_pay2 x5) (k0_pay3 x6) x7 (k0_pay4 x0 x1 x2 x3 x7) (k0_pay5 x4) x8 x9 x10 x11 x12 x13 x14) (k0_pay8 (F := Ideal) (k0_pay2 x5) (k0_pay3 x6) x7 (k0_pay4 x0 x1 x2 x3 x7) (k0_pay5 x4) x8) x15 x16 x17 x18 x19 x20 x21) (k0_pay10 (F := Ideal) (k0_pay6 (F := Ideal) (k0_pay2 x5) (k0_pay3 x6) x7 (k0_pay4 x0 x1 x2 x3 x7) (k0_pay5 x4) x8) x22) (k0_pay11 (F := Ideal) x9) x23 x24 x25) (ix2 p q) = hiddenArr x0 x1 x2 x3 x4 x5 x6 x7 (fun k => x8 (ix2 (0 : Fin 1) k)) x9 x10 x11 x12 x13 x14 x15 x16 x17 x18 x19 x20 x21 x22 x23 x24 x25 p q := by
  refine (pay1_apply (k0_pay9 (F := Ideal) (k0_pay6 (F := Ideal) (k0_pay2 x5) (k0_pay3 x6) x7 (k0_pay4 x0 x1 x2 x3 x7) (k0_pay5 x4) x8) x9 x10 (k0_pay7 (F := Ideal) (k0_pay2 x5) (k0_pay3 x6) x7 (k0_pay4 x0 x1 x2 x3 x7) (k0_pay5 x4) x8 x9 x10 x11 x12 x13 x14) (k0_pay8 (F := Ideal) (k0_pay2 x5) (k0_pay3 x6) x7 (k0_pay4 x0 x1 x2 x3 x7) (k0_pay5 x4) x8) x15 x16 x17 x18 x19 x20 x21) (k0_pay10 (F := Ideal) (k0_pay6 (F := Ideal) (k0_pay2 x5) (k0_pay3 x6) x7 (k0_pay4 x0 x1 x2 x3 x7) (k0_pay5 x4) x8) x22) (k0_pay11 (F := Ideal) x9) x23 x24 x25 (chebArr x0 x1 x2 x3 x4 x5 x6 x7 (fun k => x8 (ix2 (0 : Fin 1) k)) p) (rowOf x9 p)
    (cellArr x0 x1 x2 x3 x4 x5 x6 x7 (fun k => x8 (ix2 (0 : Fin 1) k)) x9 x10 x11 x12 x13 x14 x15 x16 x17 x18 x19 x20 x21 p) x22 p q
    (pay10_apply (k0_pay6 (F := Ideal) (k0_pay2 x5) (k0_pay3 x6) x7 (k0_pay4 x0 x1 x2 x3 x7) (k0_pay5 x4) x8) x22 (chebArr x0 x1 x2 x3 x4 x5 x6 x7 (fun k => x8 (ix2 (0 : Fin 1) k)) p) p q (fun k => pay6_apply x0 x1 x2 x3 x4 x5 x6 x7 x8 p k))
    (fun k => rfl)
    (cellTerm_apply x0 x1 x2 x3 x4 x5 x6 x7 x8 x9 x10 x11 x12 x13 x14 x15 x16 x17 x18 x19 x20 x21 p q)).trans ?_
  rfl

end Cert.KernelIdeal.Rows

end
-- ==== Proof.KernelBlock.lean ====
/-
  What the body leaves in each output block, entry by entry.

  Each output block is written by ONE store covering the whole block, and every operand is read by a load of its whole
  block; so the block the body leaves is the stored value itself, a function of the input blocks as they are. Entry
  (p, q) of the cell-state block is the new cell row, and of the hidden-state block the new hidden row, of rows p of the
  input blocks.
-/
import proofs.«158475_j43903155699857_1_alg».proof.Proof.Gen.KernelIdeal.Frame
import proofs.«158475_j43903155699857_1_alg».proof.Proof.KernelRows

noncomputable section

namespace Cert.KernelIdeal.Rows

open Cert.KernelIdeal Cert.KernelIdeal.Gen
open Idealize.ShloMosaic Idealize.ShloMosaic.ValueIdx Cert.GateRows

/-- The zero offset of a whole-block access, at rank 2 and at rank 3. -/
theorem zero_off2 : (![0, 0] : Fin 2 → Nat) = fun _ => 0 := funext fun a => by fin_cases a <;> rfl
theorem zero_off3 : (![0, 0, 0] : Fin 3 → Nat) = fun _ => 0 := funext fun a => by fin_cases a <;> rfl

/-- The cell-state output block after the body. -/
theorem out27_apply (x0 x1 x2 x3 x4 x5 x6 : FVec Ideal S2000x64 .f32) (x7 : FVec Ideal S7x64x64 .f32) (x8 : FVec Ideal S1x64 .f32) (x9 x10 : FVec Ideal S2000x64 .f32) (x11 x12 : FVec Ideal S64x64 .f32) (x13 x14 : FVec Ideal S1x64 .f32) (x15 x16 : FVec Ideal S64x64 .f32) (x17 x18 : FVec Ideal S1x64 .f32) (x19 x20 : FVec Ideal S64x64 .f32) (x21 : FVec Ideal S1x64 .f32) (x22 x23 : FVec Ideal S64x64 .f32) (x24 x25 : FVec Ideal S1x64 .f32) (p : Fin 2000) (q : Fin 64) :
    out0_27 (F := Ideal) x0 x1 x2 x3 x4 x5 x6 x7 x8 x9 x10 x11 x12 x13 x14 x15 x16 x17 x18 x19 x20 x21 x22 x23 x24 x25 (ix2 p q) = cellArr x0 x1 x2 x3 x4 x5 x6 x7 (fun k => x8 (ix2 (0 : Fin 1) k)) x9 x10 x11 x12 x13 x14 x15 x16 x17 x18 x19 x20 x21 p q := by
  unfold out0_27
  rw [View.canon_unit_zero zero_off2]
  simp only [View.ld_unit_zero (S := S2000x64) zero_off2, View.ld_unit_zero (S := S7x64x64) zero_off3,
    View.ld_unit_zero (S := S1x64) zero_off2, View.ld_unit_zero (S := S64x64) zero_off2]
  exact cellTerm_apply x0 x1 x2 x3 x4 x5 x6 x7 x8 x9 x10 x11 x12 x13 x14 x15 x16 x17 x18 x19 x20 x21 p q

/-- The hidden-state output block after the body. -/
theorem out26_apply (x0 x1 x2 x3 x4 x5 x6 : FVec Ideal S2000x64 .f32) (x7 : FVec Ideal S7x64x64 .f32) (x8 : FVec Ideal S1x64 .f32) (x9 x10 : FVec Ideal S2000x64 .f32) (x11 x12 : FVec Ideal S64x64 .f32) (x13 x14 : FVec Ideal S1x64 .f32) (x15 x16 : FVec Ideal S64x64 .f32) (x17 x18 : FVec Ideal S1x64 .f32) (x19 x20 : FVec Ideal S64x64 .f32) (x21 : FVec Ideal S1x64 .f32) (x22 x23 : FVec Ideal S64x64 .f32) (x24 x25 : FVec Ideal S1x64 .f32) (p : Fin 2000) (q : Fin 64) :
    out0_26 (F := Ideal) x0 x1 x2 x3 x4 x5 x6 x7 x8 x9 x10 x11 x12 x13 x14 x15 x16 x17 x18 x19 x20 x21 x22 x23 x24 x25 (ix2 p q) = hiddenArr x0 x1 x2 x3 x4 x5 x6 x7 (fun k => x8 (ix2 (0 : Fin 1) k)) x9 x10 x11 x12 x13 x14 x15 x16 x17 x18 x19 x20 x21 x22 x23 x24 x25 p q := by
  unfold out0_26
  rw [View.canon_unit_zero zero_off2]
  simp only [View.ld_unit_zero (S := S2000x64) zero_off2, View.ld_unit_zero (S := S7x64x64) zero_off3,
    View.ld_unit_zero (S := S1x64) zero_off2, View.ld_unit_zero (S := S64x64) zero_off2]
  exact hiddenTerm_apply x0 x1 x2 x3 x4 x5 x6 x7 x8 x9 x10 x11 x12 x13 x14 x15 x16 x17 x18 x19 x20 x21 x22 x23 x24 x25 p q

end Cert.KernelIdeal.Rows

end
-- ==== Proof.KernelArray.lean ====
/-
  From blocks to arrays: what the kernel's two result arrays hold after the run.

  The region runs on a grid of 50 points. At point t every row-tiled operand (the seven propagated arrays, H and C) and
  both results are staged as the block of rows 2000·t … 2000·t + 1999 and all 64 columns, and every weight operand as
  its whole array. So row p of a tiled operand's block at point t is row 2000·t + p of its array, the block written
  back at point t is, entry by entry, the new cell row (or hidden row) of those rows of the arrays, and since the 50
  blocks tile the 100000 rows (row r lies in block r / 2000) each result array ends holding the row function of the
  operand arrays at every index.
-/
import proofs.«158475_j43903155699857_1_alg».proof.Proof.Gen.KernelIdeal.Value
import proofs.«158475_j43903155699857_1_alg».proof.Proof.KernelBlock

set_option maxRecDepth 16384

noncomputable section

namespace Cert.KernelIdeal.Arrays

open Cert.KernelIdeal Cert.KernelIdeal.Gen
open Idealize.ShloMosaic Idealize.ShloMosaic.TcCoe Idealize.ShloMosaic.ValueIdx Idealize.SL.Sem Cert.GateRows
open Idealize.ShloMosaic.Pipeline (Dat)

variable (m : (ℓ : Loc nD τ sig) → Buf (Elt Ideal) ℓ)

/-! ## The printed index maps, decided over the grid -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem idx10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem idx26 : ∀ t : Fin cfg0.N, win0_26.index t (0 : Fin 2) = t.val ∧ win0_26.index t (1 : Fin 2) = 0 :=
  (by decide +kernel : ∀ t : Fin grid0.N, win0_26.index t (0 : Fin 2) = t.val ∧ win0_26.index t (1 : Fin 2) = 0)
theorem idx27 : ∀ t : Fin cfg0.N, win0_27.index t (0 : Fin 2) = t.val ∧ win0_27.index t (1 : Fin 2) = 0 :=
  (by decide +kernel : ∀ t : Fin grid0.N, win0_27.index t (0 : Fin 2) = t.val ∧ win0_27.index t (1 : Fin 2) = 0)
theorem idx7 : ∀ t : Fin cfg0.N, win0_7.index t (0 : Fin 3) = 0 ∧ win0_7.index t (1 : Fin 3) = 0 ∧ win0_7.index t (2 : Fin 3) = 0 :=
  (by decide +kernel : ∀ t : Fin grid0.N, win0_7.index t (0 : Fin 3) = 0 ∧ win0_7.index t (1 : Fin 3) = 0 ∧ win0_7.index t (2 : Fin 3) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
theorem idx14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)
theorem idx15 : ∀ t : Fin cfg0.N, win0_15.index t (0 : Fin 2) = 0 ∧ win0_15.index t (1 : Fin 2) = 0 :=
  (by decide +kernel : ∀ t : Fin grid0.N, win0_15.index t (0 : Fin 2) = 0 ∧ win0_15.index t (1 : Fin 2) = 0)
theorem idx16 : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)
theorem idx17 : ∀ t : Fin cfg0.N, win0_17.index t (0 : Fin 2) = 0 ∧ win0_17.index t (1 : Fin 2) = 0 :=
  (by decide +kernel : ∀ t : Fin grid0.N, win0_17.index t (0 : Fin 2) = 0 ∧ win0_17.index t (1 : Fin 2) = 0)
theorem idx18 : ∀ t : Fin cfg0.N, win0_18.index t (0 : Fin 2) = 0 ∧ win0_18.index t (1 : Fin 2) = 0 :=
  (by decide +kernel : ∀ t : Fin grid0.N, win0_18.index t (0 : Fin 2) = 0 ∧ win0_18.index t (1 : Fin 2) = 0)
theorem idx19 : ∀ t : Fin cfg0.N, win0_19.index t (0 : Fin 2) = 0 ∧ win0_19.index t (1 : Fin 2) = 0 :=
  (by decide +kernel : ∀ t : Fin grid0.N, win0_19.index t (0 : Fin 2) = 0 ∧ win0_19.index t (1 : Fin 2) = 0)
theorem idx20 : ∀ t : Fin cfg0.N, win0_20.index t (0 : Fin 2) = 0 ∧ win0_20.index t (1 : Fin 2) = 0 :=
  (by decide +kernel : ∀ t : Fin grid0.N, win0_20.index t (0 : Fin 2) = 0 ∧ win0_20.index t (1 : Fin 2) = 0)
theorem idx21 : ∀ t : Fin cfg0.N, win0_21.index t (0 : Fin 2) = 0 ∧ win0_21.index t (1 : Fin 2) = 0 :=
  (by decide +kernel : ∀ t : Fin grid0.N, win0_21.index t (0 : Fin 2) = 0 ∧ win0_21.index t (1 : Fin 2) = 0)
theorem idx22 : ∀ t : Fin cfg0.N, win0_22.index t (0 : Fin 2) = 0 ∧ win0_22.index t (1 : Fin 2) = 0 :=
  (by decide +kernel : ∀ t : Fin grid0.N, win0_22.index t (0 : Fin 2) = 0 ∧ win0_22.index t (1 : Fin 2) = 0)
theorem idx23 : ∀ t : Fin cfg0.N, win0_23.index t (0 : Fin 2) = 0 ∧ win0_23.index t (1 : Fin 2) = 0 :=
  (by decide +kernel : ∀ t : Fin grid0.N, win0_23.index t (0 : Fin 2) = 0 ∧ win0_23.index t (1 : Fin 2) = 0)
theorem idx24 : ∀ t : Fin cfg0.N, win0_24.index t (0 : Fin 2) = 0 ∧ win0_24.index t (1 : Fin 2) = 0 :=
  (by decide +kernel : ∀ t : Fin grid0.N, win0_24.index t (0 : Fin 2) = 0 ∧ win0_24.index t (1 : Fin 2) = 0)
theorem idx25 : ∀ t : Fin cfg0.N, win0_25.index t (0 : Fin 2) = 0 ∧ win0_25.index t (1 : Fin 2) = 0 :=
  (by decide +kernel : ∀ t : Fin grid0.N, win0_25.index t (0 : Fin 2) = 0 ∧ win0_25.index t (1 : Fin 2) = 0)

/-- Every block row-index is some point's. -/
theorem idx_onto : ∀ b : Fin 50, ∃ t : Fin cfg0.N, t.val = b.val :=
  (by decide +kernel : ∀ b : Fin 50, ∃ t : Fin grid0.N, t.val = b.val)

/-! ## Reading the staged blocks off the arrays -/

/-! The reading lemmas are stated for an ARBITRARY family of buffer contents `Vf` (one array per buffer): which entry of
    its array a block's entry is depends on the window's index map only, not on what the arrays hold. -/

section Generic
variable (c : Dev nD) (Vf : (b : Ref sig .tc) → Buf (Elt Ideal) ((c : Thread nD τ).loc b))

/-- Row p of window 0's block at point t is row 2000·t + p of its array. -/
theorem row0_of (t : Fin cfg0.N) (p : Fin 2000) (r : Fin 100000) (hr : r.val = t.val * 2000 + p.val) :
    rowOf (n := 2000) (((cfg0.win 0).blk t).view.read (Elt Ideal) (Vf (Pipeline.arrRef spec0 0))) p = rowOf (n := 100000) (Vf main_arg0) r := by
  funext k
  show Vf main_arg0 (((cfg0.win 0).blk t).view.emb (ix2 p k)) = Vf main_arg0 (ix2 r k)
  refine congrArg _ (funext fun a => Fin.ext ?_)
  obtain ⟨e0, e1⟩ := idx0 t
  match a with
  | ⟨0, _⟩ => show win0_0.index t (0 : Fin 2) * 2000 + 1 * p.val = r.val; omega
  | ⟨1, _⟩ => show win0_0.index t (1 : Fin 2) * 64 + 1 * k.val = k.val; omega

/-- Row p of window 1's block at point t is row 2000·t + p of its array. -/
theorem row1_of (t : Fin cfg0.N) (p : Fin 2000) (r : Fin 100000) (hr : r.val = t.val * 2000 + p.val) :
    rowOf (n := 2000) (((cfg0.win 1).blk t).view.read (Elt Ideal) (Vf (Pipeline.arrRef spec0 1))) p = rowOf (n := 100000) (Vf main_v44) r := by
  funext k
  show Vf main_v44 (((cfg0.win 1).blk t).view.emb (ix2 p k)) = Vf main_v44 (ix2 r k)
  refine congrArg _ (funext fun a => Fin.ext ?_)
  obtain ⟨e0, e1⟩ := idx1 t
  match a with
  | ⟨0, _⟩ => show win0_1.index t (0 : Fin 2) * 2000 + 1 * p.val = r.val; omega
  | ⟨1, _⟩ => show win0_1.index t (1 : Fin 2) * 64 + 1 * k.val = k.val; omega

/-- Row p of window 2's block at point t is row 2000·t + p of its array. -/
theorem row2_of (t : Fin cfg0.N) (p : Fin 2000) (r : Fin 100000) (hr : r.val = t.val * 2000 + p.val) :
    rowOf (n := 2000) (((cfg0.win 2).blk t).view.read (Elt Ideal) (Vf (Pipeline.arrRef spec0 2))) p = rowOf (n := 100000) (Vf main_v60) r := by
  funext k
  show Vf main_v60 (((cfg0.win 2).blk t).view.emb (ix2 p k)) = Vf main_v60 (ix2 r k)
  refine congrArg _ (funext fun a => Fin.ext ?_)
  obtain ⟨e0, e1⟩ := idx2 t
  match a with
  | ⟨0, _⟩ => show win0_2.index t (0 : Fin 2) * 2000 + 1 * p.val = r.val; omega
  | ⟨1, _⟩ => show win0_2.index t (1 : Fin 2) * 64 + 1 * k.val = k.val; omega

/-- Row p of window 3's block at point t is row 2000·t + p of its array. -/
theorem row3_of (t : Fin cfg0.N) (p : Fin 2000) (r : Fin 100000) (hr : r.val = t.val * 2000 + p.val) :
    rowOf (n := 2000) (((cfg0.win 3).blk t).view.read (Elt Ideal) (Vf (Pipeline.arrRef spec0 3))) p = rowOf (n := 100000) (Vf main_v76) r := by
  funext k
  show Vf main_v76 (((cfg0.win 3).blk t).view.emb (ix2 p k)) = Vf main_v76 (ix2 r k)
  refine congrArg _ (funext fun a => Fin.ext ?_)
  obtain ⟨e0, e1⟩ := idx3 t
  match a with
  | ⟨0, _⟩ => show win0_3.index t (0 : Fin 2) * 2000 + 1 * p.val = r.val; omega
  | ⟨1, _⟩ => show win0_3.index t (1 : Fin 2) * 64 + 1 * k.val = k.val; omega

/-- Row p of window 4's block at point t is row 2000·t + p of its array. -/
theorem row4_of (t : Fin cfg0.N) (p : Fin 2000) (r : Fin 100000) (hr : r.val = t.val * 2000 + p.val) :
    rowOf (n := 2000) (((cfg0.win 4).blk t).view.read (Elt Ideal) (Vf (Pipeline.arrRef spec0 4))) p = rowOf (n := 100000) (Vf main_v92) r := by
  funext k
  show Vf main_v92 (((cfg0.win 4).blk t).view.emb (ix2 p k)) = Vf main_v92 (ix2 r k)
  refine congrArg _ (funext fun a => Fin.ext ?_)
  obtain ⟨e0, e1⟩ := idx4 t
  match a with
  | ⟨0, _⟩ => show win0_4.index t (0 : Fin 2) * 2000 + 1 * p.val = r.val; omega
  | ⟨1, _⟩ => show win0_4.index t (1 : Fin 2) * 64 + 1 * k.val = k.val; omega

/-- Row p of window 5's block at point t is row 2000·t + p of its array. -/
theorem row5_of (t : Fin cfg0.N) (p : Fin 2000) (r : Fin 100000) (hr : r.val = t.val * 2000 + p.val) :
    rowOf (n := 2000) (((cfg0.win 5).blk t).view.read (Elt Ideal) (Vf (Pipeline.arrRef spec0 5))) p = rowOf (n := 100000) (Vf main_v108) r := by
  funext k
  show Vf main_v108 (((cfg0.win 5).blk t).view.emb (ix2 p k)) = Vf main_v108 (ix2 r k)
  refine congrArg _ (funext fun a => Fin.ext ?_)
  obtain ⟨e0, e1⟩ := idx5 t
  match a with
  | ⟨0, _⟩ => show win0_5.index t (0 : Fin 2) * 2000 + 1 * p.val = r.val; omega
  | ⟨1, _⟩ => show win0_5.index t (1 : Fin 2) * 64 + 1 * k.val = k.val; omega

/-- Row p of window 6's block at point t is row 2000·t + p of its array. -/
theorem row6_of (t : Fin cfg0.N) (p : Fin 2000) (r : Fin 100000) (hr : r.val = t.val * 2000 + p.val) :
    rowOf (n := 2000) (((cfg0.win 6).blk t).view.read (Elt Ideal) (Vf (Pipeline.arrRef spec0 6))) p = rowOf (n := 100000) (Vf main_v124) r := by
  funext k
  show Vf main_v124 (((cfg0.win 6).blk t).view.emb (ix2 p k)) = Vf main_v124 (ix2 r k)
  refine congrArg _ (funext fun a => Fin.ext ?_)
  obtain ⟨e0, e1⟩ := idx6 t
  match a with
  | ⟨0, _⟩ => show win0_6.index t (0 : Fin 2) * 2000 + 1 * p.val = r.val; omega
  | ⟨1, _⟩ => show win0_6.index t (1 : Fin 2) * 64 + 1 * k.val = k.val; omega

/-- Row p of window 9's block at point t is row 2000·t + p of its array. -/
theorem row9_of (t : Fin cfg0.N) (p : Fin 2000) (r : Fin 100000) (hr : r.val = t.val * 2000 + p.val) :
    rowOf (n := 2000) (((cfg0.win 9).blk t).view.read (Elt Ideal) (Vf (Pipeline.arrRef spec0 9))) p = rowOf (n := 100000) (Vf main_arg3) r := by
  funext k
  show Vf main_arg3 (((cfg0.win 9).blk t).view.emb (ix2 p k)) = Vf main_arg3 (ix2 r k)
  refine congrArg _ (funext fun a => Fin.ext ?_)
  obtain ⟨e0, e1⟩ := idx9 t
  match a with
  | ⟨0, _⟩ => show win0_9.index t (0 : Fin 2) * 2000 + 1 * p.val = r.val; omega
  | ⟨1, _⟩ => show win0_9.index t (1 : Fin 2) * 64 + 1 * k.val = k.val; omega

/-- Row p of window 10's block at point t is row 2000·t + p of its array. -/
theorem row10_of (t : Fin cfg0.N) (p : Fin 2000) (r : Fin 100000) (hr : r.val = t.val * 2000 + p.val) :
    rowOf (n := 2000) (((cfg0.win 10).blk t).view.read (Elt Ideal) (Vf (Pipeline.arrRef spec0 10))) p = rowOf (n := 100000) (Vf main_arg4) r := by
  funext k
  show Vf main_arg4 (((cfg0.win 10).blk t).view.emb (ix2 p k)) = Vf main_arg4 (ix2 r k)
  refine congrArg _ (funext fun a => Fin.ext ?_)
  obtain ⟨e0, e1⟩ := idx10 t
  match a with
  | ⟨0, _⟩ => show win0_10.index t (0 : Fin 2) * 2000 + 1 * p.val = r.val; omega
  | ⟨1, _⟩ => show win0_10.index t (1 : Fin 2) * 64 + 1 * k.val = k.val; omega

/-- Window 7's block at any point is its whole array. -/
theorem whole7_of (t : Fin cfg0.N) :
    (((cfg0.win 7).blk t).view.read (Elt Ideal) (Vf (Pipeline.arrRef spec0 7)) : FVec Ideal S7x64x64 .f32) = (Vf main_arg5 : FVec Ideal S7x64x64 .f32) := by
  funext y
  show Vf main_arg5 (((cfg0.win 7).blk t).view.emb y) = Vf main_arg5 y
  refine congrArg _ (funext fun a => Fin.ext ?_)
  obtain ⟨e0, e1, e2⟩ := idx7 t
  match a with
  | ⟨0, _⟩ => show win0_7.index t (0 : Fin 3) * 7 + 1 * (y 0).val = (y 0).val; omega
  | ⟨1, _⟩ => show win0_7.index t (1 : Fin 3) * 64 + 1 * (y 1).val = (y 1).val; omega
  | ⟨2, _⟩ => show win0_7.index t (2 : Fin 3) * 64 + 1 * (y 2).val = (y 2).val; omega

/-- Window 8's block at any point is its whole array. -/
theorem whole8_of (t : Fin cfg0.N) :
    (((cfg0.win 8).blk t).view.read (Elt Ideal) (Vf (Pipeline.arrRef spec0 8)) : FVec Ideal S1x64 .f32) = (Vf main_v125 : FVec Ideal S1x64 .f32) := by
  funext y
  show Vf main_v125 (((cfg0.win 8).blk t).view.emb y) = Vf main_v125 y
  refine congrArg _ (funext fun a => Fin.ext ?_)
  obtain ⟨e0, e1⟩ := idx8 t
  match a with
  | ⟨0, _⟩ => show win0_8.index t (0 : Fin 2) * 1 + 1 * (y 0).val = (y 0).val; omega
  | ⟨1, _⟩ => show win0_8.index t (1 : Fin 2) * 64 + 1 * (y 1).val = (y 1).val; omega

/-- Window 11's block at any point is its whole array. -/
theorem whole11_of (t : Fin cfg0.N) :
    (((cfg0.win 11).blk t).view.read (Elt Ideal) (Vf (Pipeline.arrRef spec0 11)) : FVec Ideal S64x64 .f32) = (Vf main_arg7 : FVec Ideal S64x64 .f32) := by
  funext y
  show Vf main_arg7 (((cfg0.win 11).blk t).view.emb y) = Vf main_arg7 y
  refine congrArg _ (funext fun a => Fin.ext ?_)
  obtain ⟨e0, e1⟩ := idx11 t
  match a with
  | ⟨0, _⟩ => show win0_11.index t (0 : Fin 2) * 64 + 1 * (y 0).val = (y 0).val; omega
  | ⟨1, _⟩ => show win0_11.index t (1 : Fin 2) * 64 + 1 * (y 1).val = (y 1).val; omega

/-- Window 12's block at any point is its whole array. -/
theorem whole12_of (t : Fin cfg0.N) :
    (((cfg0.win 12).blk t).view.read (Elt Ideal) (Vf (Pipeline.arrRef spec0 12)) : FVec Ideal S64x64 .f32) = (Vf main_arg8 : FVec Ideal S64x64 .f32) := by
  funext y
  show Vf main_arg8 (((cfg0.win 12).blk t).view.emb y) = Vf main_arg8 y
  refine congrArg _ (funext fun a => Fin.ext ?_)
  obtain ⟨e0, e1⟩ := idx12 t
  match a with
  | ⟨0, _⟩ => show win0_12.index t (0 : Fin 2) * 64 + 1 * (y 0).val = (y 0).val; omega
  | ⟨1, _⟩ => show win0_12.index t (1 : Fin 2) * 64 + 1 * (y 1).val = (y 1).val; omega

/-- Window 13's block at any point is its whole array. -/
theorem whole13_of (t : Fin cfg0.N) :
    (((cfg0.win 13).blk t).view.read (Elt Ideal) (Vf (Pipeline.arrRef spec0 13)) : FVec Ideal S1x64 .f32) = (Vf main_arg9 : FVec Ideal S1x64 .f32) := by
  funext y
  show Vf main_arg9 (((cfg0.win 13).blk t).view.emb y) = Vf main_arg9 y
  refine congrArg _ (funext fun a => Fin.ext ?_)
  obtain ⟨e0, e1⟩ := idx13 t
  match a with
  | ⟨0, _⟩ => show win0_13.index t (0 : Fin 2) * 1 + 1 * (y 0).val = (y 0).val; omega
  | ⟨1, _⟩ => show win0_13.index t (1 : Fin 2) * 64 + 1 * (y 1).val = (y 1).val; omega

/-- Window 14's block at any point is its whole array. -/
theorem whole14_of (t : Fin cfg0.N) :
    (((cfg0.win 14).blk t).view.read (Elt Ideal) (Vf (Pipeline.arrRef spec0 14)) : FVec Ideal S1x64 .f32) = (Vf main_arg10 : FVec Ideal S1x64 .f32) := by
  funext y
  show Vf main_arg10 (((cfg0.win 14).blk t).view.emb y) = Vf main_arg10 y
  refine congrArg _ (funext fun a => Fin.ext ?_)
  obtain ⟨e0, e1⟩ := idx14 t
  match a with
  | ⟨0, _⟩ => show win0_14.index t (0 : Fin 2) * 1 + 1 * (y 0).val = (y 0).val; omega
  | ⟨1, _⟩ => show win0_14.index t (1 : Fin 2) * 64 + 1 * (y 1).val = (y 1).val; omega

/-- Window 15's block at any point is its whole array. -/
theorem whole15_of (t : Fin cfg0.N) :
    (((cfg0.win 15).blk t).view.read (Elt Ideal) (Vf (Pipeline.arrRef spec0 15)) : FVec Ideal S64x64 .f32) = (Vf main_arg11 : FVec Ideal S64x64 .f32) := by
  funext y
  show Vf main_arg11 (((cfg0.win 15).blk t).view.emb y) = Vf main_arg11 y
  refine congrArg _ (funext fun a => Fin.ext ?_)
  obtain ⟨e0, e1⟩ := idx15 t
  match a with
  | ⟨0, _⟩ => show win0_15.index t (0 : Fin 2) * 64 + 1 * (y 0).val = (y 0).val; omega
  | ⟨1, _⟩ => show win0_15.index t (1 : Fin 2) * 64 + 1 * (y 1).val = (y 1).val; omega

/-- Window 16's block at any point is its whole array. -/
theorem whole16_of (t : Fin cfg0.N) :
    (((cfg0.win 16).blk t).view.read (Elt Ideal) (Vf (Pipeline.arrRef spec0 16)) : FVec Ideal S64x64 .f32) = (Vf main_arg12 : FVec Ideal S64x64 .f32) := by
  funext y
  show Vf main_arg12 (((cfg0.win 16).blk t).view.emb y) = Vf main_arg12 y
  refine congrArg _ (funext fun a => Fin.ext ?_)
  obtain ⟨e0, e1⟩ := idx16 t
  match a with
  | ⟨0, _⟩ => show win0_16.index t (0 : Fin 2) * 64 + 1 * (y 0).val = (y 0).val; omega
  | ⟨1, _⟩ => show win0_16.index t (1 : Fin 2) * 64 + 1 * (y 1).val = (y 1).val; omega

/-- Window 17's block at any point is its whole array. -/
theorem whole17_of (t : Fin cfg0.N) :
    (((cfg0.win 17).blk t).view.read (Elt Ideal) (Vf (Pipeline.arrRef spec0 17)) : FVec Ideal S1x64 .f32) = (Vf main_arg13 : FVec Ideal S1x64 .f32) := by
  funext y
  show Vf main_arg13 (((cfg0.win 17).blk t).view.emb y) = Vf main_arg13 y
  refine congrArg _ (funext fun a => Fin.ext ?_)
  obtain ⟨e0, e1⟩ := idx17 t
  match a with
  | ⟨0, _⟩ => show win0_17.index t (0 : Fin 2) * 1 + 1 * (y 0).val = (y 0).val; omega
  | ⟨1, _⟩ => show win0_17.index t (1 : Fin 2) * 64 + 1 * (y 1).val = (y 1).val; omega

/-- Window 18's block at any point is its whole array. -/
theorem whole18_of (t : Fin cfg0.N) :
    (((cfg0.win 18).blk t).view.read (Elt Ideal) (Vf (Pipeline.arrRef spec0 18)) : FVec Ideal S1x64 .f32) = (Vf main_arg14 : FVec Ideal S1x64 .f32) := by
  funext y
  show Vf main_arg14 (((cfg0.win 18).blk t).view.emb y) = Vf main_arg14 y
  refine congrArg _ (funext fun a => Fin.ext ?_)
  obtain ⟨e0, e1⟩ := idx18 t
  match a with
  | ⟨0, _⟩ => show win0_18.index t (0 : Fin 2) * 1 + 1 * (y 0).val = (y 0).val; omega
  | ⟨1, _⟩ => show win0_18.index t (1 : Fin 2) * 64 + 1 * (y 1).val = (y 1).val; omega

/-- Window 19's block at any point is its whole array. -/
theorem whole19_of (t : Fin cfg0.N) :
    (((cfg0.win 19).blk t).view.read (Elt Ideal) (Vf (Pipeline.arrRef spec0 19)) : FVec Ideal S64x64 .f32) = (Vf main_arg15 : FVec Ideal S64x64 .f32) := by
  funext y
  show Vf main_arg15 (((cfg0.win 19).blk t).view.emb y) = Vf main_arg15 y
  refine congrArg _ (funext fun a => Fin.ext ?_)
  obtain ⟨e0, e1⟩ := idx19 t
  match a with
  | ⟨0, _⟩ => show win0_19.index t (0 : Fin 2) * 64 + 1 * (y 0).val = (y 0).val; omega
  | ⟨1, _⟩ => show win0_19.index t (1 : Fin 2) * 64 + 1 * (y 1).val = (y 1).val; omega

/-- Window 20's block at any point is its whole array. -/
theorem whole20_of (t : Fin cfg0.N) :
    (((cfg0.win 20).blk t).view.read (Elt Ideal) (Vf (Pipeline.arrRef spec0 20)) : FVec Ideal S64x64 .f32) = (Vf main_arg16 : FVec Ideal S64x64 .f32) := by
  funext y
  show Vf main_arg16 (((cfg0.win 20).blk t).view.emb y) = Vf main_arg16 y
  refine congrArg _ (funext fun a => Fin.ext ?_)
  obtain ⟨e0, e1⟩ := idx20 t
  match a with
  | ⟨0, _⟩ => show win0_20.index t (0 : Fin 2) * 64 + 1 * (y 0).val = (y 0).val; omega
  | ⟨1, _⟩ => show win0_20.index t (1 : Fin 2) * 64 + 1 * (y 1).val = (y 1).val; omega

/-- Window 21's block at any point is its whole array. -/
theorem whole21_of (t : Fin cfg0.N) :
    (((cfg0.win 21).blk t).view.read (Elt Ideal) (Vf (Pipeline.arrRef spec0 21)) : FVec Ideal S1x64 .f32) = (Vf main_arg17 : FVec Ideal S1x64 .f32) := by
  funext y
  show Vf main_arg17 (((cfg0.win 21).blk t).view.emb y) = Vf main_arg17 y
  refine congrArg _ (funext fun a => Fin.ext ?_)
  obtain ⟨e0, e1⟩ := idx21 t
  match a with
  | ⟨0, _⟩ => show win0_21.index t (0 : Fin 2) * 1 + 1 * (y 0).val = (y 0).val; omega
  | ⟨1, _⟩ => show win0_21.index t (1 : Fin 2) * 64 + 1 * (y 1).val = (y 1).val; omega

/-- Window 22's block at any point is its whole array. -/
theorem whole22_of (t : Fin cfg0.N) :
    (((cfg0.win 22).blk t).view.read (Elt Ideal) (Vf (Pipeline.arrRef spec0 22)) : FVec Ideal S64x64 .f32) = (Vf main_arg18 : FVec Ideal S64x64 .f32) := by
  funext y
  show Vf main_arg18 (((cfg0.win 22).blk t).view.emb y) = Vf main_arg18 y
  refine congrArg _ (funext fun a => Fin.ext ?_)
  obtain ⟨e0, e1⟩ := idx22 t
  match a with
  | ⟨0, _⟩ => show win0_22.index t (0 : Fin 2) * 64 + 1 * (y 0).val = (y 0).val; omega
  | ⟨1, _⟩ => show win0_22.index t (1 : Fin 2) * 64 + 1 * (y 1).val = (y 1).val; omega

/-- Window 23's block at any point is its whole array. -/
theorem whole23_of (t : Fin cfg0.N) :
    (((cfg0.win 23).blk t).view.read (Elt Ideal) (Vf (Pipeline.arrRef spec0 23)) : FVec Ideal S64x64 .f32) = (Vf main_arg19 : FVec Ideal S64x64 .f32) := by
  funext y
  show Vf main_arg19 (((cfg0.win 23).blk t).view.emb y) = Vf main_arg19 y
  refine congrArg _ (funext fun a => Fin.ext ?_)
  obtain ⟨e0, e1⟩ := idx23 t
  match a with
  | ⟨0, _⟩ => show win0_23.index t (0 : Fin 2) * 64 + 1 * (y 0).val = (y 0).val; omega
  | ⟨1, _⟩ => show win0_23.index t (1 : Fin 2) * 64 + 1 * (y 1).val = (y 1).val; omega

/-- Window 24's block at any point is its whole array. -/
theorem whole24_of (t : Fin cfg0.N) :
    (((cfg0.win 24).blk t).view.read (Elt Ideal) (Vf (Pipeline.arrRef spec0 24)) : FVec Ideal S1x64 .f32) = (Vf main_arg20 : FVec Ideal S1x64 .f32) := by
  funext y
  show Vf main_arg20 (((cfg0.win 24).blk t).view.emb y) = Vf main_arg20 y
  refine congrArg _ (funext fun a => Fin.ext ?_)
  obtain ⟨e0, e1⟩ := idx24 t
  match a with
  | ⟨0, _⟩ => show win0_24.index t (0 : Fin 2) * 1 + 1 * (y 0).val = (y 0).val; omega
  | ⟨1, _⟩ => show win0_24.index t (1 : Fin 2) * 64 + 1 * (y 1).val = (y 1).val; omega

/-- Window 25's block at any point is its whole array. -/
theorem whole25_of (t : Fin cfg0.N) :
    (((cfg0.win 25).blk t).view.read (Elt Ideal) (Vf (Pipeline.arrRef spec0 25)) : FVec Ideal S1x64 .f32) = (Vf main_arg21 : FVec Ideal S1x64 .f32) := by
  funext y
  show Vf main_arg21 (((cfg0.win 25).blk t).view.emb y) = Vf main_arg21 y
  refine congrArg _ (funext fun a => Fin.ext ?_)
  obtain ⟨e0, e1⟩ := idx25 t
  match a with
  | ⟨0, _⟩ => show win0_25.index t (0 : Fin 2) * 1 + 1 * (y 0).val = (y 0).val; omega
  | ⟨1, _⟩ => show win0_25.index t (1 : Fin 2) * 64 + 1 * (y 1).val = (y 1).val; omega

end Generic

/-! At the arrays the region finds. -/

theorem row0 (c : Dev nD) (t : Fin cfg0.N) (p : Fin 2000) (r : Fin 100000) (hr : r.val = t.val * 2000 + p.val) :
    rowOf (n := 2000) (iblk m c 0 t) p = rowOf (n := 100000) (V m c main_arg0) r :=
  row0_of c (V m c) t p r hr

theorem row1 (c : Dev nD) (t : Fin cfg0.N) (p : Fin 2000) (r : Fin 100000) (hr : r.val = t.val * 2000 + p.val) :
    rowOf (n := 2000) (iblk m c 1 t) p = rowOf (n := 100000) (V m c main_v44) r :=
  row1_of c (V m c) t p r hr

theorem row2 (c : Dev nD) (t : Fin cfg0.N) (p : Fin 2000) (r : Fin 100000) (hr : r.val = t.val * 2000 + p.val) :
    rowOf (n := 2000) (iblk m c 2 t) p = rowOf (n := 100000) (V m c main_v60) r :=
  row2_of c (V m c) t p r hr

theorem row3 (c : Dev nD) (t : Fin cfg0.N) (p : Fin 2000) (r : Fin 100000) (hr : r.val = t.val * 2000 + p.val) :
    rowOf (n := 2000) (iblk m c 3 t) p = rowOf (n := 100000) (V m c main_v76) r :=
  row3_of c (V m c) t p r hr

theorem row4 (c : Dev nD) (t : Fin cfg0.N) (p : Fin 2000) (r : Fin 100000) (hr : r.val = t.val * 2000 + p.val) :
    rowOf (n := 2000) (iblk m c 4 t) p = rowOf (n := 100000) (V m c main_v92) r :=
  row4_of c (V m c) t p r hr

theorem row5 (c : Dev nD) (t : Fin cfg0.N) (p : Fin 2000) (r : Fin 100000) (hr : r.val = t.val * 2000 + p.val) :
    rowOf (n := 2000) (iblk m c 5 t) p = rowOf (n := 100000) (V m c main_v108) r :=
  row5_of c (V m c) t p r hr

theorem row6 (c : Dev nD) (t : Fin cfg0.N) (p : Fin 2000) (r : Fin 100000) (hr : r.val = t.val * 2000 + p.val) :
    rowOf (n := 2000) (iblk m c 6 t) p = rowOf (n := 100000) (V m c main_v124) r :=
  row6_of c (V m c) t p r hr

theorem row9 (c : Dev nD) (t : Fin cfg0.N) (p : Fin 2000) (r : Fin 100000) (hr : r.val = t.val * 2000 + p.val) :
    rowOf (n := 2000) (iblk m c 9 t) p = rowOf (n := 100000) (V m c main_arg3) r :=
  row9_of c (V m c) t p r hr

theorem row10 (c : Dev nD) (t : Fin cfg0.N) (p : Fin 2000) (r : Fin 100000) (hr : r.val = t.val * 2000 + p.val) :
    rowOf (n := 2000) (iblk m c 10 t) p = rowOf (n := 100000) (V m c main_arg4) r :=
  row10_of c (V m c) t p r hr

theorem whole7 (c : Dev nD) (t : Fin cfg0.N) : (iblk m c 7 t : FVec Ideal S7x64x64 .f32) = (V m c main_arg5 : FVec Ideal S7x64x64 .f32) :=
  whole7_of c (V m c) t

theorem whole8 (c : Dev nD) (t : Fin cfg0.N) : (iblk m c 8 t : FVec Ideal S1x64 .f32) = (V m c main_v125 : FVec Ideal S1x64 .f32) :=
  whole8_of c (V m c) t

theorem whole11 (c : Dev nD) (t : Fin cfg0.N) : (iblk m c 11 t : FVec Ideal S64x64 .f32) = (V m c main_arg7 : FVec Ideal S64x64 .f32) :=
  whole11_of c (V m c) t

theorem whole12 (c : Dev nD) (t : Fin cfg0.N) : (iblk m c 12 t : FVec Ideal S64x64 .f32) = (V m c main_arg8 : FVec Ideal S64x64 .f32) :=
  whole12_of c (V m c) t

theorem whole13 (c : Dev nD) (t : Fin cfg0.N) : (iblk m c 13 t : FVec Ideal S1x64 .f32) = (V m c main_arg9 : FVec Ideal S1x64 .f32) :=
  whole13_of c (V m c) t

theorem whole14 (c : Dev nD) (t : Fin cfg0.N) : (iblk m c 14 t : FVec Ideal S1x64 .f32) = (V m c main_arg10 : FVec Ideal S1x64 .f32) :=
  whole14_of c (V m c) t

theorem whole15 (c : Dev nD) (t : Fin cfg0.N) : (iblk m c 15 t : FVec Ideal S64x64 .f32) = (V m c main_arg11 : FVec Ideal S64x64 .f32) :=
  whole15_of c (V m c) t

theorem whole16 (c : Dev nD) (t : Fin cfg0.N) : (iblk m c 16 t : FVec Ideal S64x64 .f32) = (V m c main_arg12 : FVec Ideal S64x64 .f32) :=
  whole16_of c (V m c) t

theorem whole17 (c : Dev nD) (t : Fin cfg0.N) : (iblk m c 17 t : FVec Ideal S1x64 .f32) = (V m c main_arg13 : FVec Ideal S1x64 .f32) :=
  whole17_of c (V m c) t

theorem whole18 (c : Dev nD) (t : Fin cfg0.N) : (iblk m c 18 t : FVec Ideal S1x64 .f32) = (V m c main_arg14 : FVec Ideal S1x64 .f32) :=
  whole18_of c (V m c) t

theorem whole19 (c : Dev nD) (t : Fin cfg0.N) : (iblk m c 19 t : FVec Ideal S64x64 .f32) = (V m c main_arg15 : FVec Ideal S64x64 .f32) :=
  whole19_of c (V m c) t

theorem whole20 (c : Dev nD) (t : Fin cfg0.N) : (iblk m c 20 t : FVec Ideal S64x64 .f32) = (V m c main_arg16 : FVec Ideal S64x64 .f32) :=
  whole20_of c (V m c) t

theorem whole21 (c : Dev nD) (t : Fin cfg0.N) : (iblk m c 21 t : FVec Ideal S1x64 .f32) = (V m c main_arg17 : FVec Ideal S1x64 .f32) :=
  whole21_of c (V m c) t

theorem whole22 (c : Dev nD) (t : Fin cfg0.N) : (iblk m c 22 t : FVec Ideal S64x64 .f32) = (V m c main_arg18 : FVec Ideal S64x64 .f32) :=
  whole22_of c (V m c) t

theorem whole23 (c : Dev nD) (t : Fin cfg0.N) : (iblk m c 23 t : FVec Ideal S64x64 .f32) = (V m c main_arg19 : FVec Ideal S64x64 .f32) :=
  whole23_of c (V m c) t

theorem whole24 (c : Dev nD) (t : Fin cfg0.N) : (iblk m c 24 t : FVec Ideal S1x64 .f32) = (V m c main_arg20 : FVec Ideal S1x64 .f32) :=
  whole24_of c (V m c) t

theorem whole25 (c : Dev nD) (t : Fin cfg0.N) : (iblk m c 25 t : FVec Ideal S1x64 .f32) = (V m c main_arg21 : FVec Ideal S1x64 .f32) :=
  whole25_of c (V m c) t

/-! ## The two result arrays -/

/-- The new cell state as a function of the arrays the region finds. -/
def cellG (c : Dev nD) : S100000x64.Idx → EReal := fun i =>
  cellArr (n := 100000) (V m c main_arg0) (V m c main_v44) (V m c main_v60) (V m c main_v76) (V m c main_v92) (V m c main_v108) (V m c main_v124) (V m c main_arg5) (fun k => (V m c main_v125 : FVec Ideal S1x64 .f32) (ix2 (0 : Fin 1) k)) (V m c main_arg3) (V m c main_arg4) (V m c main_arg7) (V m c main_arg8) (V m c main_arg9) (V m c main_arg10) (V m c main_arg11) (V m c main_arg12) (V m c main_arg13) (V m c main_arg14) (V m c main_arg15) (V m c main_arg16) (V m c main_arg17) (i 0) (i 1)

/-- The new hidden state as a function of the arrays the region finds. -/
def hiddenG (c : Dev nD) : S100000x64.Idx → EReal := fun i =>
  hiddenArr (n := 100000) (V m c main_arg0) (V m c main_v44) (V m c main_v60) (V m c main_v76) (V m c main_v92) (V m c main_v108) (V m c main_v124) (V m c main_arg5) (fun k => (V m c main_v125 : FVec Ideal S1x64 .f32) (ix2 (0 : Fin 1) k)) (V m c main_arg3) (V m c main_arg4) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (i 0) (i 1)

/-- The bias row of the staged block is the bias row of its array. -/
theorem bias_row (c : Dev nD) (t : Fin cfg0.N) :
    (fun k : Fin 64 => (iblk m c 8 t : FVec Ideal S1x64 .f32) (ix2 (0 : Fin 1) k))
      = fun k : Fin 64 => (V m c main_v125 : FVec Ideal S1x64 .f32) (ix2 (0 : Fin 1) k) :=
  funext fun k => congrFun (whole8 m c t) (ix2 (0 : Fin 1) k)

/-- Where entry (p, q) of point t's result block lands: row 2000·t + p, column q. -/
theorem emb27_row (t : Fin cfg0.N) (p : Fin 2000) (q : Fin 64) :
    ((((cfg0.win 27).blk t).view.emb (ix2 p q)) 0).val = t.val * 2000 + p.val := by
  obtain ⟨e0, e1⟩ := idx27 t
  show win0_27.index t (0 : Fin 2) * 2000 + 1 * p.val = t.val * 2000 + p.val; omega
theorem emb27_col (t : Fin cfg0.N) (p : Fin 2000) (q : Fin 64) :
    (((cfg0.win 27).blk t).view.emb (ix2 p q)) 1 = q := by
  obtain ⟨e0, e1⟩ := idx27 t
  refine Fin.ext ?_
  show win0_27.index t (1 : Fin 2) * 64 + 1 * q.val = q.val; omega
theorem emb26_row (t : Fin cfg0.N) (p : Fin 2000) (q : Fin 64) :
    ((((cfg0.win 26).blk t).view.emb (ix2 p q)) 0).val = t.val * 2000 + p.val := by
  obtain ⟨e0, e1⟩ := idx26 t
  show win0_26.index t (0 : Fin 2) * 2000 + 1 * p.val = t.val * 2000 + p.val; omega
theorem emb26_col (t : Fin cfg0.N) (p : Fin 2000) (q : Fin 64) :
    (((cfg0.win 26).blk t).view.emb (ix2 p q)) 1 = q := by
  obtain ⟨e0, e1⟩ := idx26 t
  refine Fin.ext ?_
  show win0_26.index t (1 : Fin 2) * 64 + 1 * q.val = q.val; omega

/-- What point t writes back to the cell-state array is block t of `cellG`. -/
theorem flushed27_eq (c : Dev nD) (t : Fin cfg0.N) :
    (dats m 0 c).flushed 27 t = ((cfg0.win 27).blk t).view.read (Elt Ideal) (cellG m c) := by
  rw [Value.flushed27]
  refine funext fun (j : S2000x64.Idx) => ?_
  obtain ⟨p, q, rfl⟩ : ∃ (p : Fin 2000) (q : Fin 64), j = ix2 p q := ⟨j 0, j 1, eq_ix2 j⟩
  show out0_27 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (ix2 p q) = cellG m c (((cfg0.win 27).blk t).view.emb (ix2 p q))
  refine (Rows.out27_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) p q).trans ?_
  have hr := emb27_row t p q
  unfold cellG
  rw [emb27_col t p q]
  exact cellArr_congr (V m c main_arg0) (V m c main_v44) (V m c main_v60) (V m c main_v76) (V m c main_v92) (V m c main_v108) (V m c main_v124) (V m c main_arg3) (V m c main_arg4) (iblk m c 0 t) (iblk m c 1 t) (iblk m c 2 t) (iblk m c 3 t) (iblk m c 4 t) (iblk m c 5 t) (iblk m c 6 t) (iblk m c 9 t) (iblk m c 10 t) (V m c main_arg5) (iblk m c 7 t) (fun k => (V m c main_v125 : FVec Ideal S1x64 .f32) (ix2 (0 : Fin 1) k)) (fun k => (iblk m c 8 t : FVec Ideal S1x64 .f32) (ix2 (0 : Fin 1) k)) (V m c main_arg7) (iblk m c 11 t) (V m c main_arg8) (iblk m c 12 t) (V m c main_arg9) (iblk m c 13 t) (V m c main_arg10) (iblk m c 14 t) (V m c main_arg11) (iblk m c 15 t) (V m c main_arg12) (iblk m c 16 t) (V m c main_arg13) (iblk m c 17 t) (V m c main_arg14) (iblk m c 18 t) (V m c main_arg15) (iblk m c 19 t) (V m c main_arg16) (iblk m c 20 t) (V m c main_arg17) (iblk m c 21 t) _ p q
    (row0 m c t p _ hr) (row1 m c t p _ hr) (row2 m c t p _ hr) (row3 m c t p _ hr) (row4 m c t p _ hr) (row5 m c t p _ hr) (row6 m c t p _ hr) (row9 m c t p _ hr) (row10 m c t p _ hr) (whole7 m c t) (bias_row m c t) (whole11 m c t) (whole12 m c t) (whole13 m c t) (whole14 m c t) (whole15 m c t) (whole16 m c t) (whole17 m c t) (whole18 m c t) (whole19 m c t) (whole20 m c t) (whole21 m c t)

/-- What point t writes back to the hidden-state array is block t of `hiddenG`. -/
theorem flushed26_eq (c : Dev nD) (t : Fin cfg0.N) :
    (dats m 0 c).flushed 26 t = ((cfg0.win 26).blk t).view.read (Elt Ideal) (hiddenG m c) := by
  rw [Value.flushed26]
  refine funext fun (j : S2000x64.Idx) => ?_
  obtain ⟨p, q, rfl⟩ : ∃ (p : Fin 2000) (q : Fin 64), j = ix2 p q := ⟨j 0, j 1, eq_ix2 j⟩
  show out0_26 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (ix2 p q) = hiddenG m c (((cfg0.win 26).blk t).view.emb (ix2 p q))
  refine (Rows.out26_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) p q).trans ?_
  have hr := emb26_row t p q
  unfold hiddenG
  rw [emb26_col t p q]
  exact hiddenArr_congr (V m c main_arg0) (V m c main_v44) (V m c main_v60) (V m c main_v76) (V m c main_v92) (V m c main_v108) (V m c main_v124) (V m c main_arg3) (V m c main_arg4) (iblk m c 0 t) (iblk m c 1 t) (iblk m c 2 t) (iblk m c 3 t) (iblk m c 4 t) (iblk m c 5 t) (iblk m c 6 t) (iblk m c 9 t) (iblk m c 10 t) (V m c main_arg5) (iblk m c 7 t) (fun k => (V m c main_v125 : FVec Ideal S1x64 .f32) (ix2 (0 : Fin 1) k)) (fun k => (iblk m c 8 t : FVec Ideal S1x64 .f32) (ix2 (0 : Fin 1) k)) (V m c main_arg7) (iblk m c 11 t) (V m c main_arg8) (iblk m c 12 t) (V m c main_arg9) (iblk m c 13 t) (V m c main_arg10) (iblk m c 14 t) (V m c main_arg11) (iblk m c 15 t) (V m c main_arg12) (iblk m c 16 t) (V m c main_arg13) (iblk m c 17 t) (V m c main_arg14) (iblk m c 18 t) (V m c main_arg15) (iblk m c 19 t) (V m c main_arg16) (iblk m c 20 t) (V m c main_arg17) (iblk m c 21 t) (V m c main_arg18) (iblk m c 22 t) (V m c main_arg19) (iblk m c 23 t) (V m c main_arg20) (iblk m c 24 t) (V m c main_arg21) (iblk m c 25 t) _ p q
    (row0 m c t p _ hr) (row1 m c t p _ hr) (row2 m c t p _ hr) (row3 m c t p _ hr) (row4 m c t p _ hr) (row5 m c t p _ hr) (row6 m c t p _ hr) (row9 m c t p _ hr) (row10 m c t p _ hr) (whole7 m c t) (bias_row m c t) (whole11 m c t) (whole12 m c t) (whole13 m c t) (whole14 m c t) (whole15 m c t) (whole16 m c t) (whole17 m c t) (whole18 m c t) (whole19 m c t) (whole20 m c t) (whole21 m c t) (whole22 m c t) (whole23 m c t) (whole24 m c t) (whole25 m c t)

/-! ## The blocks tile the rows -/

theorem mem_blk27 (t : Fin cfg0.N) (i : S100000x64.Idx) :
    i ∈ ((cfg0.win 27).blk t).view.set ↔ ∀ a : Fin 2, win0_27.index t a * S2000x64.size a ≤ (i a).val ∧ (i a).val < win0_27.index t a * S2000x64.size a + S2000x64.size a := by
  show i ∈ ((View.whole main_v126_1).slice (win0_27.rect t)).set ↔ _
  rw [View.set_slice_whole, Rect.mem_set_unit]
  exact Iff.rfl

theorem mem_blk26 (t : Fin cfg0.N) (i : S100000x64.Idx) :
    i ∈ ((cfg0.win 26).blk t).view.set ↔ ∀ a : Fin 2, win0_26.index t a * S2000x64.size a ≤ (i a).val ∧ (i a).val < win0_26.index t a * S2000x64.size a + S2000x64.size a := by
  show i ∈ ((View.whole main_v126_0).slice (win0_26.rect t)).set ↔ _
  rw [View.set_slice_whole, Rect.mem_set_unit]
  exact Iff.rfl

/-- Row r is in the block of point r / 2000. -/
theorem cover27 (i : S100000x64.Idx) : ∃ t : Fin cfg0.N, (cfg0.win 27).flush t = true ∧ i ∈ ((cfg0.win 27).blk t).view.set := by
  have hi0 : (i 0).val < 100000 := (i 0).isLt
  have hi1 : (i 1).val < 64 := (i 1).isLt
  obtain ⟨t, ht⟩ := idx_onto ⟨(i 0).val / 2000, by omega⟩
  have ht' : t.val = (i 0).val / 2000 := ht
  obtain ⟨e0, e1⟩ := idx27 t
  refine ⟨t, flush0_27 t, ?_⟩
  rw [mem_blk27]
  intro a
  match a with
  | ⟨0, _⟩ => show win0_27.index t (0 : Fin 2) * 2000 ≤ (i 0).val ∧ (i 0).val < win0_27.index t (0 : Fin 2) * 2000 + 2000; omega
  | ⟨1, _⟩ => show win0_27.index t (1 : Fin 2) * 64 ≤ (i 1).val ∧ (i 1).val < win0_27.index t (1 : Fin 2) * 64 + 64; omega

theorem cover26 (i : S100000x64.Idx) : ∃ t : Fin cfg0.N, (cfg0.win 26).flush t = true ∧ i ∈ ((cfg0.win 26).blk t).view.set := by
  have hi0 : (i 0).val < 100000 := (i 0).isLt
  have hi1 : (i 1).val < 64 := (i 1).isLt
  obtain ⟨t, ht⟩ := idx_onto ⟨(i 0).val / 2000, by omega⟩
  have ht' : t.val = (i 0).val / 2000 := ht
  obtain ⟨e0, e1⟩ := idx26 t
  refine ⟨t, flush0_26 t, ?_⟩
  rw [mem_blk26]
  intro a
  match a with
  | ⟨0, _⟩ => show win0_26.index t (0 : Fin 2) * 2000 ≤ (i 0).val ∧ (i 0).val < win0_26.index t (0 : Fin 2) * 2000 + 2000; omega
  | ⟨1, _⟩ => show win0_26.index t (1 : Fin 2) * 64 ≤ (i 1).val ∧ (i 1).val < win0_26.index t (1 : Fin 2) * 64 + 64; omega

/-- The cell-state array after the run. -/
theorem final27 (c : Dev nD) : (dats m 0 c).arrAt 27 cfg0.N = cellG m c :=
  (dats m 0 c).arrAt_eq_of_cover 27 (cellG m c) (fun t _ => flushed27_eq m c t) (cover27)

/-- The hidden-state array after the run. -/
theorem final26 (c : Dev nD) : (dats m 0 c).arrAt 26 cfg0.N = hiddenG m c :=
  (dats m 0 c).arrAt_eq_of_cover 26 (hiddenG m c) (fun t _ => flushed26_eq m c t) (cover26)

end Cert.KernelIdeal.Arrays

end
-- ==== Proof.RefRows.lean ====
/-
  The reference's two results, read at an index: entry (r, q) of its new cell state and of its new hidden state is the
  row function of GateRows applied to rows r of the reference's own intermediate arrays. The six propagated
  Chebyshev arrays T_1 … T_6 (each a scatter-add of gathered, weighted rows) stay CLOSED: they enter only as the arrays
  whose rows are read; T_0 is the node-feature argument itself.

  The order of the argument: the constant 1.0 and the spelt-out logistic function; a matrix product read at an entry; the
  seven members of the weight stack, the bias and the 1 × 64 weight rows read at an entry; the seven products T_g·W_g and
  their sum X; then the four gates and the two results, each one a pointwise reading of the reference's operations.
-/
import proofs.«158475_j43903155699857_1_alg».proof.Proof.RefStages
import proofs.«158475_j43903155699857_1_alg».proof.Proof.GateRows
import proofs.«158475_j43903155699857_1_alg».proof.Proof.LibMatmulAt

noncomputable section

open scoped BigOperators

namespace Cert.ReferenceIdeal.RefRows

open Cert.ReferenceIdeal Cert.ReferenceIdeal.Read Idealize.ShloMosaic Idealize.ShloMosaic.ValueIdx Cert.GateRows

/-! ## The constant one, and the logistic function as the reference spells it -/

/-- The single-precision word of 1.0 denotes the extended real 1. -/
theorem ofBits_one : Ideal.ofBits .f32 0x3F800000#32 = 1 := by
  simp [Ideal.ofBits, Ideal.ieee, -EReal.coe_mul]; norm_num

/-- 1 / (1 + e^(-z)), with both ones read off their words, is the logistic function of z. -/
theorem logistic_spelt (z : EReal) :
    Ideal.div (Ideal.ofBits .f32 0x3F800000#32) (Ideal.ofBits .f32 0x3F800000#32 + Ideal.exp (-z)) = Ideal.logistic z := by
  rw [ofBits_one]; rfl

/-! ## A matrix product read at an entry -/

/-- Entry (r, q) of the product of an array with 64 columns by a 64 × 64 matrix: the sum over k of A(r, k) · B(k, q). -/
theorem dot_apply (A : FVec Ideal S100000x64 .f32) (B : FVec Ideal S64x64 .f32) (r : Fin 100000) (q : Fin 64) :
    Host.dotGeneral dot_S100000x64_S64x64_S100000x64_1_0_0_1_n_n none A B (ix2 r q) = ∑ k : Fin 64, A (ix2 r k) * B (ix2 k q) :=
  Cert.KernelIdeal.Hand.dotGeneral_plain_apply' (M := 100000) (K := 64) (N := 64) (φ₁ := .f32) (φ₂ := .f32)
    dot_S100000x64_S64x64_S100000x64_1_0_0_1_n_n rfl none A B (ix2 r q)

/-- The same entry as a row of the left operand times the matrix. -/
theorem dot_rowMat (A : FVec Ideal S100000x64 .f32) (B : FVec Ideal S64x64 .f32) (r : Fin 100000) (q : Fin 64) :
    Host.dotGeneral dot_S100000x64_S64x64_S100000x64_1_0_0_1_n_n none A B (ix2 r q) = rowMat (rowOf A r) B q :=
  dot_apply A B r q

/-! ## The weight stack's members, the bias and the weight rows read at an entry -/

/-- Member 0 of the stack (a slice of one member, reshaped to a matrix) at (k, q) is the stack at (0, k, q). -/
theorem stack0_apply (x5 : (⟨S7x64x64, .f32⟩ : BufTy).Contents (Elt Ideal)) (k q : Fin 64) :
    val_main_v33 (F := Ideal) x5 (ix2 k q) = x5 (ix3 (0 : Fin 7) k q) := by
  rw [val_main_v33_apply, val_main_v32_apply]
  refine congrArg x5 (funext fun a => ?_)
  match a with
  | ⟨0, _⟩ => rfl
  | ⟨1, _⟩ => exact Fin.ext (by have hk := k.isLt; have hq := q.isLt; show (k.val * 64 + q.val) / 64 % 64 = k.val; omega)
  | ⟨2, _⟩ => exact Fin.ext (by have hk := k.isLt; have hq := q.isLt; show (k.val * 64 + q.val) % 64 = q.val; omega)

/-- Member 1 of the stack (a slice of one member, reshaped to a matrix) at (k, q) is the stack at (1, k, q). -/
theorem stack1_apply (x5 : (⟨S7x64x64, .f32⟩ : BufTy).Contents (Elt Ideal)) (k q : Fin 64) :
    val_main_v49 (F := Ideal) x5 (ix2 k q) = x5 (ix3 (1 : Fin 7) k q) := by
  rw [val_main_v49_apply, val_main_v48_apply]
  refine congrArg x5 (funext fun a => ?_)
  match a with
  | ⟨0, _⟩ => rfl
  | ⟨1, _⟩ => exact Fin.ext (by have hk := k.isLt; have hq := q.isLt; show (k.val * 64 + q.val) / 64 % 64 = k.val; omega)
  | ⟨2, _⟩ => exact Fin.ext (by have hk := k.isLt; have hq := q.isLt; show (k.val * 64 + q.val) % 64 = q.val; omega)

/-- Member 2 of the stack (a slice of one member, reshaped to a matrix) at (k, q) is the stack at (2, k, q). -/
theorem stack2_apply (x5 : (⟨S7x64x64, .f32⟩ : BufTy).Contents (Elt Ideal)) (k q : Fin 64) :
    val_main_v69 (F := Ideal) x5 (ix2 k q) = x5 (ix3 (2 : Fin 7) k q) := by
  rw [val_main_v69_apply, val_main_v68_apply]
  refine congrArg x5 (funext fun a => ?_)
  match a with
  | ⟨0, _⟩ => rfl
  | ⟨1, _⟩ => exact Fin.ext (by have hk := k.isLt; have hq := q.isLt; show (k.val * 64 + q.val) / 64 % 64 = k.val; omega)
  | ⟨2, _⟩ => exact Fin.ext (by have hk := k.isLt; have hq := q.isLt; show (k.val * 64 + q.val) % 64 = q.val; omega)

/-- Member 3 of the stack (a slice of one member, reshaped to a matrix) at (k, q) is the stack at (3, k, q). -/
theorem stack3_apply (x5 : (⟨S7x64x64, .f32⟩ : BufTy).Contents (Elt Ideal)) (k q : Fin 64) :
    val_main_v89 (F := Ideal) x5 (ix2 k q) = x5 (ix3 (3 : Fin 7) k q) := by
  rw [val_main_v89_apply, val_main_v88_apply]
  refine congrArg x5 (funext fun a => ?_)
  match a with
  | ⟨0, _⟩ => rfl
  | ⟨1, _⟩ => exact Fin.ext (by have hk := k.isLt; have hq := q.isLt; show (k.val * 64 + q.val) / 64 % 64 = k.val; omega)
  | ⟨2, _⟩ => exact Fin.ext (by have hk := k.isLt; have hq := q.isLt; show (k.val * 64 + q.val) % 64 = q.val; omega)

/-- Member 4 of the stack (a slice of one member, reshaped to a matrix) at (k, q) is the stack at (4, k, q). -/
theorem stack4_apply (x5 : (⟨S7x64x64, .f32⟩ : BufTy).Contents (Elt Ideal)) (k q : Fin 64) :
    val_main_v109 (F := Ideal) x5 (ix2 k q) = x5 (ix3 (4 : Fin 7) k q) := by
  rw [val_main_v109_apply, val_main_v108_apply]
  refine congrArg x5 (funext fun a => ?_)
  match a with
  | ⟨0, _⟩ => rfl
  | ⟨1, _⟩ => exact Fin.ext (by have hk := k.isLt; have hq := q.isLt; show (k.val * 64 + q.val) / 64 % 64 = k.val; omega)
  | ⟨2, _⟩ => exact Fin.ext (by have hk := k.isLt; have hq := q.isLt; show (k.val * 64 + q.val) % 64 = q.val; omega)

/-- Member 5 of the stack (a slice of one member, reshaped to a matrix) at (k, q) is the stack at (5, k, q). -/
theorem stack5_apply (x5 : (⟨S7x64x64, .f32⟩ : BufTy).Contents (Elt Ideal)) (k q : Fin 64) :
    val_main_v129 (F := Ideal) x5 (ix2 k q) = x5 (ix3 (5 : Fin 7) k q) := by
  rw [val_main_v129_apply, val_main_v128_apply]
  refine congrArg x5 (funext fun a => ?_)
  match a with
  | ⟨0, _⟩ => rfl
  | ⟨1, _⟩ => exact Fin.ext (by have hk := k.isLt; have hq := q.isLt; show (k.val * 64 + q.val) / 64 % 64 = k.val; omega)
  | ⟨2, _⟩ => exact Fin.ext (by have hk := k.isLt; have hq := q.isLt; show (k.val * 64 + q.val) % 64 = q.val; omega)

/-- Member 6 of the stack (a slice of one member, reshaped to a matrix) at (k, q) is the stack at (6, k, q). -/
theorem stack6_apply (x5 : (⟨S7x64x64, .f32⟩ : BufTy).Contents (Elt Ideal)) (k q : Fin 64) :
    val_main_v149 (F := Ideal) x5 (ix2 k q) = x5 (ix3 (6 : Fin 7) k q) := by
  rw [val_main_v149_apply, val_main_v148_apply]
  refine congrArg x5 (funext fun a => ?_)
  match a with
  | ⟨0, _⟩ => rfl
  | ⟨1, _⟩ => exact Fin.ext (by have hk := k.isLt; have hq := q.isLt; show (k.val * 64 + q.val) / 64 % 64 = k.val; omega)
  | ⟨2, _⟩ => exact Fin.ext (by have hk := k.isLt; have hq := q.isLt; show (k.val * 64 + q.val) % 64 = q.val; omega)

/-- The bias, broadcast to every row, at (r, q) is the bias at q. -/
theorem bias_apply (x6 : (⟨S64, .f32⟩ : BufTy).Contents (Elt Ideal)) (r : Fin 100000) (q : Fin 64) :
    val_main_v153 (F := Ideal) x6 (ix2 r q) = x6 (ix1 q) := by
  rw [val_main_v153_apply, val_main_v152_apply]
  refine congrArg x6 (funext fun a => ?_)
  match a with
  | ⟨0, _⟩ => rfl

/-- A 1 × 64 weight row, broadcast to every row, at (r, q) is the row at (0, q). -/
theorem row158_apply (x9 : (⟨S1x64, .f32⟩ : BufTy).Contents (Elt Ideal)) (r : Fin 100000) (q : Fin 64) :
    val_main_v158 (F := Ideal) x9 (ix2 r q) = x9 (ix2 (0 : Fin 1) q) := by
  rw [val_main_v158_apply]
  refine congrArg x9 (funext fun a => ?_)
  match a with
  | ⟨0, _⟩ => rfl
  | ⟨1, _⟩ => rfl

/-- A 1 × 64 weight row, broadcast to every row, at (r, q) is the row at (0, q). -/
theorem row161_apply (x10 : (⟨S1x64, .f32⟩ : BufTy).Contents (Elt Ideal)) (r : Fin 100000) (q : Fin 64) :
    val_main_v161 (F := Ideal) x10 (ix2 r q) = x10 (ix2 (0 : Fin 1) q) := by
  rw [val_main_v161_apply]
  refine congrArg x10 (funext fun a => ?_)
  match a with
  | ⟨0, _⟩ => rfl
  | ⟨1, _⟩ => rfl

/-- A 1 × 64 weight row, broadcast to every row, at (r, q) is the row at (0, q). -/
theorem row172_apply (x13 : (⟨S1x64, .f32⟩ : BufTy).Contents (Elt Ideal)) (r : Fin 100000) (q : Fin 64) :
    val_main_v172 (F := Ideal) x13 (ix2 r q) = x13 (ix2 (0 : Fin 1) q) := by
  rw [val_main_v172_apply]
  refine congrArg x13 (funext fun a => ?_)
  match a with
  | ⟨0, _⟩ => rfl
  | ⟨1, _⟩ => rfl

/-- A 1 × 64 weight row, broadcast to every row, at (r, q) is the row at (0, q). -/
theorem row175_apply (x14 : (⟨S1x64, .f32⟩ : BufTy).Contents (Elt Ideal)) (r : Fin 100000) (q : Fin 64) :
    val_main_v175 (F := Ideal) x14 (ix2 r q) = x14 (ix2 (0 : Fin 1) q) := by
  rw [val_main_v175_apply]
  refine congrArg x14 (funext fun a => ?_)
  match a with
  | ⟨0, _⟩ => rfl
  | ⟨1, _⟩ => rfl

/-- A 1 × 64 weight row, broadcast to every row, at (r, q) is the row at (0, q). -/
theorem row186_apply (x17 : (⟨S1x64, .f32⟩ : BufTy).Contents (Elt Ideal)) (r : Fin 100000) (q : Fin 64) :
    val_main_v186 (F := Ideal) x17 (ix2 r q) = x17 (ix2 (0 : Fin 1) q) := by
  rw [val_main_v186_apply]
  refine congrArg x17 (funext fun a => ?_)
  match a with
  | ⟨0, _⟩ => rfl
  | ⟨1, _⟩ => rfl

/-- A 1 × 64 weight row, broadcast to every row, at (r, q) is the row at (0, q). -/
theorem row195_apply (x20 : (⟨S1x64, .f32⟩ : BufTy).Contents (Elt Ideal)) (r : Fin 100000) (q : Fin 64) :
    val_main_v195 (F := Ideal) x20 (ix2 r q) = x20 (ix2 (0 : Fin 1) q) := by
  rw [val_main_v195_apply]
  refine congrArg x20 (funext fun a => ?_)
  match a with
  | ⟨0, _⟩ => rfl
  | ⟨1, _⟩ => rfl

/-- A 1 × 64 weight row, broadcast to every row, at (r, q) is the row at (0, q). -/
theorem row198_apply (x21 : (⟨S1x64, .f32⟩ : BufTy).Contents (Elt Ideal)) (r : Fin 100000) (q : Fin 64) :
    val_main_v198 (F := Ideal) x21 (ix2 r q) = x21 (ix2 (0 : Fin 1) q) := by
  rw [val_main_v198_apply]
  refine congrArg x21 (funext fun a => ?_)
  match a with
  | ⟨0, _⟩ => rfl
  | ⟨1, _⟩ => rfl

/-! ## The seven products T_g · W_g and the convolution's output X -/

/-- T_0 · W_0 at (r, q): T_0 is the node-feature array itself. -/
theorem prod0_apply (x0 : (⟨S100000x64, .f32⟩ : BufTy).Contents (Elt Ideal)) (x5 : (⟨S7x64x64, .f32⟩ : BufTy).Contents (Elt Ideal)) (r : Fin 100000) (q : Fin 64) :
    val_main_v34 (F := Ideal) x0 x5 (ix2 r q) = rowStack (rowOf x0 r) x5 0 q := by
  unfold val_main_v34
  exact (dot_apply x0 _ r q).trans (Finset.sum_congr rfl fun k _ => congrArg (fun z => x0 (ix2 r k) * z) (stack0_apply x5 k q))

/-- T_1 · W_1 at (r, q); T_1 enters as a closed array whose row r is read. -/
theorem prod1_apply (x0 : (⟨S100000x64, .f32⟩ : BufTy).Contents (Elt Ideal)) (x1 : (⟨S2x1250000, .i32⟩ : BufTy).Contents (Elt Ideal)) (x2 : (⟨S1250000, .f32⟩ : BufTy).Contents (Elt Ideal)) (x5 : (⟨S7x64x64, .f32⟩ : BufTy).Contents (Elt Ideal)) (r : Fin 100000) (q : Fin 64) :
    val_main_v50 (F := Ideal) x0 x1 x2 x5 (ix2 r q) = rowStack (rowOf (val_main_v47 (F := Ideal) x0 x1 x2) r) x5 1 q := by
  unfold val_main_v50
  generalize val_main_v47 (F := Ideal) x0 x1 x2 = t
  exact (dot_apply t _ r q).trans (Finset.sum_congr rfl fun k _ => congrArg (fun z => t (ix2 r k) * z) (stack1_apply x5 k q))

/-- T_2 · W_2 at (r, q); T_2 enters as a closed array whose row r is read. -/
theorem prod2_apply (x0 : (⟨S100000x64, .f32⟩ : BufTy).Contents (Elt Ideal)) (x1 : (⟨S2x1250000, .i32⟩ : BufTy).Contents (Elt Ideal)) (x2 : (⟨S1250000, .f32⟩ : BufTy).Contents (Elt Ideal)) (x5 : (⟨S7x64x64, .f32⟩ : BufTy).Contents (Elt Ideal)) (r : Fin 100000) (q : Fin 64) :
    val_main_v70 (F := Ideal) x0 x1 x2 x5 (ix2 r q) = rowStack (rowOf (val_main_v67 (F := Ideal) x0 x1 x2) r) x5 2 q := by
  unfold val_main_v70
  generalize val_main_v67 (F := Ideal) x0 x1 x2 = t
  exact (dot_apply t _ r q).trans (Finset.sum_congr rfl fun k _ => congrArg (fun z => t (ix2 r k) * z) (stack2_apply x5 k q))

/-- T_3 · W_3 at (r, q); T_3 enters as a closed array whose row r is read. -/
theorem prod3_apply (x0 : (⟨S100000x64, .f32⟩ : BufTy).Contents (Elt Ideal)) (x1 : (⟨S2x1250000, .i32⟩ : BufTy).Contents (Elt Ideal)) (x2 : (⟨S1250000, .f32⟩ : BufTy).Contents (Elt Ideal)) (x5 : (⟨S7x64x64, .f32⟩ : BufTy).Contents (Elt Ideal)) (r : Fin 100000) (q : Fin 64) :
    val_main_v90 (F := Ideal) x0 x1 x2 x5 (ix2 r q) = rowStack (rowOf (val_main_v87 (F := Ideal) x0 x1 x2) r) x5 3 q := by
  unfold val_main_v90
  generalize val_main_v87 (F := Ideal) x0 x1 x2 = t
  exact (dot_apply t _ r q).trans (Finset.sum_congr rfl fun k _ => congrArg (fun z => t (ix2 r k) * z) (stack3_apply x5 k q))

/-- T_4 · W_4 at (r, q); T_4 enters as a closed array whose row r is read. -/
theorem prod4_apply (x0 : (⟨S100000x64, .f32⟩ : BufTy).Contents (Elt Ideal)) (x1 : (⟨S2x1250000, .i32⟩ : BufTy).Contents (Elt Ideal)) (x2 : (⟨S1250000, .f32⟩ : BufTy).Contents (Elt Ideal)) (x5 : (⟨S7x64x64, .f32⟩ : BufTy).Contents (Elt Ideal)) (r : Fin 100000) (q : Fin 64) :
    val_main_v110 (F := Ideal) x0 x1 x2 x5 (ix2 r q) = rowStack (rowOf (val_main_v107 (F := Ideal) x0 x1 x2) r) x5 4 q := by
  unfold val_main_v110
  generalize val_main_v107 (F := Ideal) x0 x1 x2 = t
  exact (dot_apply t _ r q).trans (Finset.sum_congr rfl fun k _ => congrArg (fun z => t (ix2 r k) * z) (stack4_apply x5 k q))

/-- T_5 · W_5 at (r, q); T_5 enters as a closed array whose row r is read. -/
theorem prod5_apply (x0 : (⟨S100000x64, .f32⟩ : BufTy).Contents (Elt Ideal)) (x1 : (⟨S2x1250000, .i32⟩ : BufTy).Contents (Elt Ideal)) (x2 : (⟨S1250000, .f32⟩ : BufTy).Contents (Elt Ideal)) (x5 : (⟨S7x64x64, .f32⟩ : BufTy).Contents (Elt Ideal)) (r : Fin 100000) (q : Fin 64) :
    val_main_v130 (F := Ideal) x0 x1 x2 x5 (ix2 r q) = rowStack (rowOf (val_main_v127 (F := Ideal) x0 x1 x2) r) x5 5 q := by
  unfold val_main_v130
  generalize val_main_v127 (F := Ideal) x0 x1 x2 = t
  exact (dot_apply t _ r q).trans (Finset.sum_congr rfl fun k _ => congrArg (fun z => t (ix2 r k) * z) (stack5_apply x5 k q))

/-- T_6 · W_6 at (r, q); T_6 enters as a closed array whose row r is read. -/
theorem prod6_apply (x0 : (⟨S100000x64, .f32⟩ : BufTy).Contents (Elt Ideal)) (x1 : (⟨S2x1250000, .i32⟩ : BufTy).Contents (Elt Ideal)) (x2 : (⟨S1250000, .f32⟩ : BufTy).Contents (Elt Ideal)) (x5 : (⟨S7x64x64, .f32⟩ : BufTy).Contents (Elt Ideal)) (r : Fin 100000) (q : Fin 64) :
    val_main_v150 (F := Ideal) x0 x1 x2 x5 (ix2 r q) = rowStack (rowOf (val_main_v147 (F := Ideal) x0 x1 x2) r) x5 6 q := by
  unfold val_main_v150
  generalize val_main_v147 (F := Ideal) x0 x1 x2 = t
  exact (dot_apply t _ r q).trans (Finset.sum_congr rfl fun k _ => congrArg (fun z => t (ix2 r k) * z) (stack6_apply x5 k q))

/-- X at (r, q): the seven products summed from the left, plus the bias. -/
theorem conv_apply (x0 : (⟨S100000x64, .f32⟩ : BufTy).Contents (Elt Ideal)) (x1 : (⟨S2x1250000, .i32⟩ : BufTy).Contents (Elt Ideal)) (x2 : (⟨S1250000, .f32⟩ : BufTy).Contents (Elt Ideal)) (x5 : (⟨S7x64x64, .f32⟩ : BufTy).Contents (Elt Ideal)) (x6 : (⟨S64, .f32⟩ : BufTy).Contents (Elt Ideal)) (r : Fin 100000) (q : Fin 64) :
    val_main_v154 (F := Ideal) x0 x1 x2 x5 x6 (ix2 r q) = chebArr (n := 100000) x0 (val_main_v47 (F := Ideal) x0 x1 x2) (val_main_v67 (F := Ideal) x0 x1 x2) (val_main_v87 (F := Ideal) x0 x1 x2) (val_main_v107 (F := Ideal) x0 x1 x2) (val_main_v127 (F := Ideal) x0 x1 x2) (val_main_v147 (F := Ideal) x0 x1 x2) x5 (fun k => x6 (ix1 k)) r q := by
  rw [val_main_v154_apply, val_main_v151_apply, val_main_v131_apply, val_main_v111_apply, val_main_v91_apply, val_main_v71_apply, val_main_v51_apply,
    prod0_apply, prod1_apply, prod2_apply, prod3_apply, prod4_apply, prod5_apply, prod6_apply, bias_apply]
  simp only [Ideal.addf_def]
  generalize val_main_v47 (F := Ideal) x0 x1 x2 = t1
  generalize val_main_v67 (F := Ideal) x0 x1 x2 = t2
  generalize val_main_v87 (F := Ideal) x0 x1 x2 = t3
  generalize val_main_v107 (F := Ideal) x0 x1 x2 = t4
  generalize val_main_v127 (F := Ideal) x0 x1 x2 = t5
  generalize val_main_v147 (F := Ideal) x0 x1 x2 = t6
  rfl

/-- X · w at (r, q), for a 64 × 64 matrix w: row r of X times w. -/
theorem convMat_apply (x0 : (⟨S100000x64, .f32⟩ : BufTy).Contents (Elt Ideal)) (x1 : (⟨S2x1250000, .i32⟩ : BufTy).Contents (Elt Ideal)) (x2 : (⟨S1250000, .f32⟩ : BufTy).Contents (Elt Ideal)) (x5 : (⟨S7x64x64, .f32⟩ : BufTy).Contents (Elt Ideal)) (x6 : (⟨S64, .f32⟩ : BufTy).Contents (Elt Ideal)) (w : (⟨S64x64, .f32⟩ : BufTy).Contents (Elt Ideal)) (r : Fin 100000) (q : Fin 64) :
    Host.dotGeneral (F := Ideal) (φ₁ := .f32) (φ₂ := .f32) dot_S100000x64_S64x64_S100000x64_1_0_0_1_n_n none (val_main_v154 (F := Ideal) x0 x1 x2 x5 x6) w (ix2 r q)
      = rowMat (chebArr (n := 100000) x0 (val_main_v47 (F := Ideal) x0 x1 x2) (val_main_v67 (F := Ideal) x0 x1 x2) (val_main_v87 (F := Ideal) x0 x1 x2) (val_main_v107 (F := Ideal) x0 x1 x2) (val_main_v127 (F := Ideal) x0 x1 x2) (val_main_v147 (F := Ideal) x0 x1 x2) x5 (fun k => x6 (ix1 k)) r) w q :=
  (dot_apply _ w r q).trans (Finset.sum_congr rfl fun k _ => congrArg (fun z => z * w (ix2 k q)) (conv_apply x0 x1 x2 x5 x6 r k))

/-! ## The gates -/

/-- The input gate at (r, q). -/
theorem gateI_apply (x0 : (⟨S100000x64, .f32⟩ : BufTy).Contents (Elt Ideal)) (x1 : (⟨S2x1250000, .i32⟩ : BufTy).Contents (Elt Ideal)) (x2 : (⟨S1250000, .f32⟩ : BufTy).Contents (Elt Ideal)) (x3 x4 : (⟨S100000x64, .f32⟩ : BufTy).Contents (Elt Ideal)) (x5 : (⟨S7x64x64, .f32⟩ : BufTy).Contents (Elt Ideal)) (x6 : (⟨S64, .f32⟩ : BufTy).Contents (Elt Ideal)) (x7 x8 : (⟨S64x64, .f32⟩ : BufTy).Contents (Elt Ideal)) (x9 x10 : (⟨S1x64, .f32⟩ : BufTy).Contents (Elt Ideal)) (r : Fin 100000) (q : Fin 64) :
    val_main_v168 (F := Ideal) x0 x1 x2 x3 x4 x5 x6 x7 x8 x9 x10 (ix2 r q) = sigGate (chebArr (n := 100000) x0 (val_main_v47 (F := Ideal) x0 x1 x2) (val_main_v67 (F := Ideal) x0 x1 x2) (val_main_v87 (F := Ideal) x0 x1 x2) (val_main_v107 (F := Ideal) x0 x1 x2) (val_main_v127 (F := Ideal) x0 x1 x2) (val_main_v147 (F := Ideal) x0 x1 x2) x5 (fun k => x6 (ix1 k)) r) (rowOf x3 r) (rowOf x4 r) x7 x8 x9 x10 q := by
  rw [val_main_v168_apply, val_main_v167_apply, val_main_cst_31_apply, val_main_v166_apply, val_main_v165_apply, val_main_cst_30_apply, val_main_v164_apply, val_main_v163_apply, val_main_v162_apply, val_main_v160_apply, val_main_v157_apply, val_main_v159_apply, row158_apply, row161_apply]
  unfold val_main_v155 val_main_v156
  rw [convMat_apply, dot_rowMat]
  simp only [Ideal.hostDivf_def, Ideal.ofBits_def, Ideal.addf_def, Ideal.mulf_def, Ideal.hostUnary_exp_def, Ideal.hostNegf_def, Ideal.negf_def]
  rw [logistic_spelt]
  generalize val_main_v47 (F := Ideal) x0 x1 x2 = t1
  generalize val_main_v67 (F := Ideal) x0 x1 x2 = t2
  generalize val_main_v87 (F := Ideal) x0 x1 x2 = t3
  generalize val_main_v107 (F := Ideal) x0 x1 x2 = t4
  generalize val_main_v127 (F := Ideal) x0 x1 x2 = t5
  generalize val_main_v147 (F := Ideal) x0 x1 x2 = t6
  rfl

/-- The forget gate at (r, q). -/
theorem gateF_apply (x0 : (⟨S100000x64, .f32⟩ : BufTy).Contents (Elt Ideal)) (x1 : (⟨S2x1250000, .i32⟩ : BufTy).Contents (Elt Ideal)) (x2 : (⟨S1250000, .f32⟩ : BufTy).Contents (Elt Ideal)) (x3 x4 : (⟨S100000x64, .f32⟩ : BufTy).Contents (Elt Ideal)) (x5 : (⟨S7x64x64, .f32⟩ : BufTy).Contents (Elt Ideal)) (x6 : (⟨S64, .f32⟩ : BufTy).Contents (Elt Ideal)) (x11 x12 : (⟨S64x64, .f32⟩ : BufTy).Contents (Elt Ideal)) (x13 x14 : (⟨S1x64, .f32⟩ : BufTy).Contents (Elt Ideal)) (r : Fin 100000) (q : Fin 64) :
    val_main_v182 (F := Ideal) x0 x1 x2 x3 x4 x5 x6 x11 x12 x13 x14 (ix2 r q) = sigGate (chebArr (n := 100000) x0 (val_main_v47 (F := Ideal) x0 x1 x2) (val_main_v67 (F := Ideal) x0 x1 x2) (val_main_v87 (F := Ideal) x0 x1 x2) (val_main_v107 (F := Ideal) x0 x1 x2) (val_main_v127 (F := Ideal) x0 x1 x2) (val_main_v147 (F := Ideal) x0 x1 x2) x5 (fun k => x6 (ix1 k)) r) (rowOf x3 r) (rowOf x4 r) x11 x12 x13 x14 q := by
  rw [val_main_v182_apply, val_main_v181_apply, val_main_cst_33_apply, val_main_v180_apply, val_main_v179_apply, val_main_cst_32_apply, val_main_v178_apply, val_main_v177_apply, val_main_v176_apply, val_main_v174_apply, val_main_v171_apply, val_main_v173_apply, row172_apply, row175_apply]
  unfold val_main_v169 val_main_v170
  rw [convMat_apply, dot_rowMat]
  simp only [Ideal.hostDivf_def, Ideal.ofBits_def, Ideal.addf_def, Ideal.mulf_def, Ideal.hostUnary_exp_def, Ideal.hostNegf_def, Ideal.negf_def]
  rw [logistic_spelt]
  generalize val_main_v47 (F := Ideal) x0 x1 x2 = t1
  generalize val_main_v67 (F := Ideal) x0 x1 x2 = t2
  generalize val_main_v87 (F := Ideal) x0 x1 x2 = t3
  generalize val_main_v107 (F := Ideal) x0 x1 x2 = t4
  generalize val_main_v127 (F := Ideal) x0 x1 x2 = t5
  generalize val_main_v147 (F := Ideal) x0 x1 x2 = t6
  rfl

/-- The candidate at (r, q). -/
theorem gateT_apply (x0 : (⟨S100000x64, .f32⟩ : BufTy).Contents (Elt Ideal)) (x1 : (⟨S2x1250000, .i32⟩ : BufTy).Contents (Elt Ideal)) (x2 : (⟨S1250000, .f32⟩ : BufTy).Contents (Elt Ideal)) (x3 : (⟨S100000x64, .f32⟩ : BufTy).Contents (Elt Ideal)) (x5 : (⟨S7x64x64, .f32⟩ : BufTy).Contents (Elt Ideal)) (x6 : (⟨S64, .f32⟩ : BufTy).Contents (Elt Ideal)) (x15 x16 : (⟨S64x64, .f32⟩ : BufTy).Contents (Elt Ideal)) (x17 : (⟨S1x64, .f32⟩ : BufTy).Contents (Elt Ideal)) (r : Fin 100000) (q : Fin 64) :
    val_main_v188 (F := Ideal) x0 x1 x2 x3 x5 x6 x15 x16 x17 (ix2 r q) = tanhGate (chebArr (n := 100000) x0 (val_main_v47 (F := Ideal) x0 x1 x2) (val_main_v67 (F := Ideal) x0 x1 x2) (val_main_v87 (F := Ideal) x0 x1 x2) (val_main_v107 (F := Ideal) x0 x1 x2) (val_main_v127 (F := Ideal) x0 x1 x2) (val_main_v147 (F := Ideal) x0 x1 x2) x5 (fun k => x6 (ix1 k)) r) (rowOf x3 r) x15 x16 x17 q := by
  rw [val_main_v188_apply, val_main_v187_apply, val_main_v185_apply, row186_apply]
  unfold val_main_v183 val_main_v184
  rw [convMat_apply, dot_rowMat]
  simp only [Ideal.hostUnary_tanh_def, Ideal.addf_def]
  generalize val_main_v47 (F := Ideal) x0 x1 x2 = t1
  generalize val_main_v67 (F := Ideal) x0 x1 x2 = t2
  generalize val_main_v87 (F := Ideal) x0 x1 x2 = t3
  generalize val_main_v107 (F := Ideal) x0 x1 x2 = t4
  generalize val_main_v127 (F := Ideal) x0 x1 x2 = t5
  generalize val_main_v147 (F := Ideal) x0 x1 x2 = t6
  rfl

/-! ## The two results -/

/-- Entry (r, q) of the reference's new cell state. -/
theorem cell_apply (x0 : (⟨S100000x64, .f32⟩ : BufTy).Contents (Elt Ideal)) (x1 : (⟨S2x1250000, .i32⟩ : BufTy).Contents (Elt Ideal)) (x2 : (⟨S1250000, .f32⟩ : BufTy).Contents (Elt Ideal)) (x3 x4 : (⟨S100000x64, .f32⟩ : BufTy).Contents (Elt Ideal)) (x5 : (⟨S7x64x64, .f32⟩ : BufTy).Contents (Elt Ideal)) (x6 : (⟨S64, .f32⟩ : BufTy).Contents (Elt Ideal)) (x7 x8 : (⟨S64x64, .f32⟩ : BufTy).Contents (Elt Ideal)) (x9 x10 : (⟨S1x64, .f32⟩ : BufTy).Contents (Elt Ideal)) (x11 x12 : (⟨S64x64, .f32⟩ : BufTy).Contents (Elt Ideal)) (x13 x14 : (⟨S1x64, .f32⟩ : BufTy).Contents (Elt Ideal)) (x15 x16 : (⟨S64x64, .f32⟩ : BufTy).Contents (Elt Ideal)) (x17 : (⟨S1x64, .f32⟩ : BufTy).Contents (Elt Ideal)) (r : Fin 100000) (q : Fin 64) :
    val_main_v191 (F := Ideal) x0 x1 x2 x3 x4 x5 x6 x7 x8 x9 x10 x11 x12 x13 x14 x15 x16 x17 (ix2 r q)
      = cellArr (n := 100000) x0 (val_main_v47 (F := Ideal) x0 x1 x2) (val_main_v67 (F := Ideal) x0 x1 x2) (val_main_v87 (F := Ideal) x0 x1 x2) (val_main_v107 (F := Ideal) x0 x1 x2) (val_main_v127 (F := Ideal) x0 x1 x2) (val_main_v147 (F := Ideal) x0 x1 x2) x5 (fun k => x6 (ix1 k)) x3 x4 x7 x8 x9 x10 x11 x12 x13 x14 x15 x16 x17 r q := by
  rw [val_main_v191_apply, val_main_v189_apply, val_main_v190_apply, gateF_apply, gateI_apply, gateT_apply]
  simp only [Ideal.addf_def, Ideal.mulf_def]
  generalize val_main_v47 (F := Ideal) x0 x1 x2 = t1
  generalize val_main_v67 (F := Ideal) x0 x1 x2 = t2
  generalize val_main_v87 (F := Ideal) x0 x1 x2 = t3
  generalize val_main_v107 (F := Ideal) x0 x1 x2 = t4
  generalize val_main_v127 (F := Ideal) x0 x1 x2 = t5
  generalize val_main_v147 (F := Ideal) x0 x1 x2 = t6
  rfl

/-- The output gate at (r, q): its peephole term reads the NEW cell state. -/
theorem gateO_apply (x0 : (⟨S100000x64, .f32⟩ : BufTy).Contents (Elt Ideal)) (x1 : (⟨S2x1250000, .i32⟩ : BufTy).Contents (Elt Ideal)) (x2 : (⟨S1250000, .f32⟩ : BufTy).Contents (Elt Ideal)) (x3 x4 : (⟨S100000x64, .f32⟩ : BufTy).Contents (Elt Ideal)) (x5 : (⟨S7x64x64, .f32⟩ : BufTy).Contents (Elt Ideal)) (x6 : (⟨S64, .f32⟩ : BufTy).Contents (Elt Ideal)) (x7 x8 : (⟨S64x64, .f32⟩ : BufTy).Contents (Elt Ideal)) (x9 x10 : (⟨S1x64, .f32⟩ : BufTy).Contents (Elt Ideal)) (x11 x12 : (⟨S64x64, .f32⟩ : BufTy).Contents (Elt Ideal)) (x13 x14 : (⟨S1x64, .f32⟩ : BufTy).Contents (Elt Ideal)) (x15 x16 : (⟨S64x64, .f32⟩ : BufTy).Contents (Elt Ideal)) (x17 : (⟨S1x64, .f32⟩ : BufTy).Contents (Elt Ideal)) (x18 x19 : (⟨S64x64, .f32⟩ : BufTy).Contents (Elt Ideal)) (x20 x21 : (⟨S1x64, .f32⟩ : BufTy).Contents (Elt Ideal)) (r : Fin 100000) (q : Fin 64) :
    val_main_v205 (F := Ideal) x0 x1 x2 x3 x4 x5 x6 x7 x8 x9 x10 x11 x12 x13 x14 x15 x16 x17 x18 x19 x20 x21 (ix2 r q) = sigGate (chebArr (n := 100000) x0 (val_main_v47 (F := Ideal) x0 x1 x2) (val_main_v67 (F := Ideal) x0 x1 x2) (val_main_v87 (F := Ideal) x0 x1 x2) (val_main_v107 (F := Ideal) x0 x1 x2) (val_main_v127 (F := Ideal) x0 x1 x2) (val_main_v147 (F := Ideal) x0 x1 x2) x5 (fun k => x6 (ix1 k)) r) (rowOf x3 r) (cellArr (n := 100000) x0 (val_main_v47 (F := Ideal) x0 x1 x2) (val_main_v67 (F := Ideal) x0 x1 x2) (val_main_v87 (F := Ideal) x0 x1 x2) (val_main_v107 (F := Ideal) x0 x1 x2) (val_main_v127 (F := Ideal) x0 x1 x2) (val_main_v147 (F := Ideal) x0 x1 x2) x5 (fun k => x6 (ix1 k)) x3 x4 x7 x8 x9 x10 x11 x12 x13 x14 x15 x16 x17 r) x18 x19 x20 x21 q := by
  rw [val_main_v205_apply, val_main_v204_apply, val_main_cst_35_apply, val_main_v203_apply, val_main_v202_apply, val_main_cst_34_apply, val_main_v201_apply, val_main_v200_apply, val_main_v199_apply, val_main_v197_apply, val_main_v194_apply, val_main_v196_apply, row195_apply, row198_apply, cell_apply]
  unfold val_main_v192 val_main_v193
  rw [convMat_apply, dot_rowMat]
  simp only [Ideal.hostDivf_def, Ideal.ofBits_def, Ideal.addf_def, Ideal.mulf_def, Ideal.hostUnary_exp_def, Ideal.hostNegf_def, Ideal.negf_def]
  rw [logistic_spelt]
  generalize val_main_v47 (F := Ideal) x0 x1 x2 = t1
  generalize val_main_v67 (F := Ideal) x0 x1 x2 = t2
  generalize val_main_v87 (F := Ideal) x0 x1 x2 = t3
  generalize val_main_v107 (F := Ideal) x0 x1 x2 = t4
  generalize val_main_v127 (F := Ideal) x0 x1 x2 = t5
  generalize val_main_v147 (F := Ideal) x0 x1 x2 = t6
  rfl

/-- Entry (r, q) of the reference's new hidden state. -/
theorem hidden_apply (x0 : (⟨S100000x64, .f32⟩ : BufTy).Contents (Elt Ideal)) (x1 : (⟨S2x1250000, .i32⟩ : BufTy).Contents (Elt Ideal)) (x2 : (⟨S1250000, .f32⟩ : BufTy).Contents (Elt Ideal)) (x3 x4 : (⟨S100000x64, .f32⟩ : BufTy).Contents (Elt Ideal)) (x5 : (⟨S7x64x64, .f32⟩ : BufTy).Contents (Elt Ideal)) (x6 : (⟨S64, .f32⟩ : BufTy).Contents (Elt Ideal)) (x7 x8 : (⟨S64x64, .f32⟩ : BufTy).Contents (Elt Ideal)) (x9 x10 : (⟨S1x64, .f32⟩ : BufTy).Contents (Elt Ideal)) (x11 x12 : (⟨S64x64, .f32⟩ : BufTy).Contents (Elt Ideal)) (x13 x14 : (⟨S1x64, .f32⟩ : BufTy).Contents (Elt Ideal)) (x15 x16 : (⟨S64x64, .f32⟩ : BufTy).Contents (Elt Ideal)) (x17 : (⟨S1x64, .f32⟩ : BufTy).Contents (Elt Ideal)) (x18 x19 : (⟨S64x64, .f32⟩ : BufTy).Contents (Elt Ideal)) (x20 x21 : (⟨S1x64, .f32⟩ : BufTy).Contents (Elt Ideal)) (r : Fin 100000) (q : Fin 64) :
    val_main_v207 (F := Ideal) x0 x1 x2 x3 x4 x5 x6 x7 x8 x9 x10 x11 x12 x13 x14 x15 x16 x17 x18 x19 x20 x21 (ix2 r q)
      = hiddenArr (n := 100000) x0 (val_main_v47 (F := Ideal) x0 x1 x2) (val_main_v67 (F := Ideal) x0 x1 x2) (val_main_v87 (F := Ideal) x0 x1 x2) (val_main_v107 (F := Ideal) x0 x1 x2) (val_main_v127 (F := Ideal) x0 x1 x2) (val_main_v147 (F := Ideal) x0 x1 x2) x5 (fun k => x6 (ix1 k)) x3 x4 x7 x8 x9 x10 x11 x12 x13 x14 x15 x16 x17 x18 x19 x20 x21 r q := by
  rw [val_main_v207_apply, val_main_v206_apply, gateO_apply, cell_apply]
  simp only [Ideal.mulf_def, Ideal.hostUnary_tanh_def]
  generalize val_main_v47 (F := Ideal) x0 x1 x2 = t1
  generalize val_main_v67 (F := Ideal) x0 x1 x2 = t2
  generalize val_main_v87 (F := Ideal) x0 x1 x2 = t3
  generalize val_main_v107 (F := Ideal) x0 x1 x2 = t4
  generalize val_main_v127 (F := Ideal) x0 x1 x2 = t5
  generalize val_main_v147 (F := Ideal) x0 x1 x2 = t6
  rfl

end Cert.ReferenceIdeal.RefRows

end
-- ==== Proof.HostChain.lean ====
/-
  The arrays the kernel's region finds, as values. Before its one region the kernel's program computes the six
  propagated Chebyshev arrays T_1 … T_6 with the same chain of host operations the reference uses (the self-loop mask,
  the degree sums, the symmetric normalisation, then per step a gather of rows, a weighting and a scatter-add, and the
  recursion T_k = 2·L̂T_{k-1} − T_{k-2}); each of those arrays is therefore the SAME function of the node features, the
  edge list and the edge weights as the reference's own intermediate array, and the convolution's bias row is the bias
  vector laid out as one row.
-/
import proofs.«158475_j43903155699857_1_alg».proof.Proof.Gen.KernelIdeal.Frame
import proofs.«158475_j43903155699857_1_alg».proof.Proof.RefStages

noncomputable section

namespace Cert.KernelIdeal.HostChain

open Cert.KernelIdeal Cert.KernelIdeal.Gen Idealize.ShloMosaic Idealize.ShloMosaic.TcCoe Idealize.ShloMosaic.ValueIdx Idealize.SL.Sem

/-! ## The shared steps, as functions of the arrays they read

Both programs build the six arrays with the same few steps: an index vector with its negative entries wrapped (laid out as
a column), the normalised edge weights, one propagation (rows gathered at an edge's column end, weighted, summed at its
row end), and the three-term recursion. Each step is named once here, over the kernel's own dimension records; a step of
the kernel's program is then read over the arrays of its EARLIER steps only, and the same step is what the reference's own
stage is over its earlier stages, so no gather or scatter-add is ever opened. -/

/-- An edge-index vector with negative entries moved up by the number of nodes, as a column of start indices. -/
def wrapCol (v : (⟨S1250000, .i32⟩ : BufTy).Contents (Elt Ideal)) : (⟨S1250000x1, .i32⟩ : BufTy).Contents (Elt Ideal) :=
  broadcastInDim S1250000x1 ![0] bcast_S1250000_S1250000x1_0
    (select (cmpi .slt v (broadcastInDim S1250000 ![] bcast_S_S1250000 (constantI S_ 32 0#32)))
      (addi v (broadcastInDim S1250000 ![] bcast_S_S1250000 (constantI S_ 32 100000#32))) v)

/-- The normalised edge weight: minus the inverse root degree at the row end, times the masked weight, times the inverse
    root degree at the column end. -/
def normOf (d : (⟨S100000, .f32⟩ : BufTy).Contents (Elt Ideal)) (w : (⟨S1250000, .f32⟩ : BufTy).Contents (Elt Ideal)) (row col : (⟨S1250000, .i32⟩ : BufTy).Contents (Elt Ideal)) : (⟨S1250000, .f32⟩ : BufTy).Contents (Elt Ideal) :=
  mulf (F := Ideal) (φ := .f32) (mulf (F := Ideal) (φ := .f32) (Host.negf (F := Ideal) (φ := .f32) (Host.gather gather_S100000_S1250000x1_S1250000_n_0_n_n_0_1_1 d (wrapCol row))) w)
    (Host.gather gather_S100000_S1250000x1_S1250000_n_0_n_n_0_1_1 d (wrapCol col))

/-- One propagation L̂·t: rows of `t` gathered at the wrapped column indices, weighted by `nrm`, scatter-added at the row indices. -/
def prop (nrm : FVec Ideal S1250000 .f32) (row col : IVec S1250000 32) (t : FVec Ideal S100000x64 .f32) :
    FVec Ideal S100000x64 .f32 :=
  Host.scatterAdd (F := Ideal) scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 row)
    (mulf (F := Ideal) (broadcastInDim S1250000x64 ![0, 1] bcast_S1250000x1_S1250000x64_0_1 (broadcastInDim S1250000x1 ![0] bcast_S1250000_S1250000x1_0 nrm))
      (Host.gather gather_S100000x64_S1250000x1_S1250000x64_1_0_n_n_0_1_164 t
        (broadcastInDim S1250000x1 ![0] bcast_S1250000_S1250000x1_0
          (select (cmpi .slt col (broadcastInDim S1250000 ![] bcast_S_S1250000 (constantI S_ 32 0#32)))
            (addi col (broadcastInDim S1250000 ![] bcast_S_S1250000 (constantI S_ 32 100000#32))) col))))

/-- One step of the recursion: 2·L̂·t − tprev. -/
def step (nrm : FVec Ideal S1250000 .f32) (row col : IVec S1250000 32) (t tprev : FVec Ideal S100000x64 .f32) :
    FVec Ideal S100000x64 .f32 :=
  subf (F := Ideal) (mulf (F := Ideal) (broadcastInDim S100000x64 ![] bcast_S_S100000x64 (constant (F := Ideal) S_ .f32 0x40000000#32)) (prop nrm row col t)) tprev

variable (m : (ℓ : Loc nD τ sig) → Buf (Elt Ideal) ℓ)

/-- The reference's normalised edge weights are that product over its own inverse root degrees, masked weights and edge ends. -/
theorem ref_norm (x1 : (⟨S2x1250000, .i32⟩ : BufTy).Contents (Elt Ideal)) (x2 : (⟨S1250000, .f32⟩ : BufTy).Contents (Elt Ideal)) :
    Cert.ReferenceIdeal.Read.val_main_v31 (F := Ideal) x1 x2 = normOf (Cert.ReferenceIdeal.Read.val_main_v14 (F := Ideal) x1 x2) (Cert.ReferenceIdeal.Read.val_main_v5 (F := Ideal) x1 x2) (Cert.ReferenceIdeal.Read.val_main_v1 (F := Ideal) x1) (Cert.ReferenceIdeal.Read.val_main_v3 (F := Ideal) x1) := rfl

/-! ## The edge ends, the masked weights and the inverse root degrees -/

set_option maxRecDepth 16384 in
set_option maxHeartbeats 40000000 in
/-- The edges' row ends as the region finds them are the reference's. -/
theorem V_row (c : Dev nD) : (V m c main_v1 : S1250000.Idx → BitVec 32) = Cert.ReferenceIdeal.Read.val_main_v1 (F := Ideal) (m ((c : Thread nD τ).loc main_arg1)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

set_option maxRecDepth 16384 in
set_option maxHeartbeats 40000000 in
/-- The edges' column ends. -/
theorem V_col (c : Dev nD) : (V m c main_v3 : S1250000.Idx → BitVec 32) = Cert.ReferenceIdeal.Read.val_main_v3 (F := Ideal) (m ((c : Thread nD τ).loc main_arg1)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

set_option maxRecDepth 16384 in
set_option maxHeartbeats 40000000 in
/-- The edge weights with the self-loops' weights set to zero. -/
theorem V_masked (c : Dev nD) : (V m c main_v5 : (⟨S1250000, .f32⟩ : BufTy).Contents (Elt Ideal)) = Cert.ReferenceIdeal.Read.val_main_v5 (F := Ideal) (m ((c : Thread nD τ).loc main_arg1)) (m ((c : Thread nD τ).loc main_arg2)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

set_option maxRecDepth 16384 in
set_option maxHeartbeats 40000000 in
/-- Where the degree sum is positive. -/
theorem V_degPos (c : Dev nD) : (V m c main_v10 : (⟨S100000, .i1⟩ : BufTy).Contents (Elt Ideal)) = Cert.ReferenceIdeal.Read.val_main_v10 (F := Ideal) (m ((c : Thread nD τ).loc main_arg1)) (m ((c : Thread nD τ).loc main_arg2)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

set_option maxRecDepth 16384 in
set_option maxHeartbeats 40000000 in
/-- One over the root of the degree sum. -/
theorem V_invRoot (c : Dev nD) : (V m c main_v13 : (⟨S100000, .f32⟩ : BufTy).Contents (Elt Ideal)) = Cert.ReferenceIdeal.Read.val_main_v13 (F := Ideal) (m ((c : Thread nD τ).loc main_arg1)) (m ((c : Thread nD τ).loc main_arg2)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

set_option maxRecDepth 16384 in
set_option maxHeartbeats 40000000 in
/-- The zeros the selection falls back on. -/
theorem V_zeros (c : Dev nD) : (V m c main_call1_v1 : (⟨S100000, .f32⟩ : BufTy).Contents (Elt Ideal)) = Cert.ReferenceIdeal.Read.val_main_call1_v1 (F := Ideal)  := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

/-- The selection inside the outlined function `_where_0`: its operands and its result pass through the function's typed
    references, which change nothing. -/
theorem select_typed (A : (⟨S100000, .i1⟩ : BufTy).Contents (Elt Ideal)) (B C : (⟨S100000, .f32⟩ : BufTy).Contents (Elt Ideal)) :
    (StableHlo.TRef.toBuf (.of main_v14 : StableHlo.TRef sig ⟨S100000, .f32⟩)
      (select (StableHlo.TRef.ofBuf (.of main_v10 : StableHlo.TRef sig ⟨S100000, .i1⟩) A)
        (StableHlo.TRef.ofBuf (.of main_v13 : StableHlo.TRef sig ⟨S100000, .f32⟩) B)
        (StableHlo.TRef.ofBuf (.of main_call1_v1 : StableHlo.TRef sig ⟨S100000, .f32⟩) C)) : (⟨S100000, .f32⟩ : BufTy).Contents (Elt Ideal))
    = select A B C := rfl

set_option maxRecDepth 16384 in
set_option maxHeartbeats 40000000 in
/-- The inverse root degrees as the region finds them are the selection of the three arrays above as the region finds them. -/
theorem ker_invRootDeg (c : Dev nD) : (V m c main_v14 : (⟨S100000, .f32⟩ : BufTy).Contents (Elt Ideal))
    = select (V m c main_v10 : (⟨S100000, .i1⟩ : BufTy).Contents (Elt Ideal)) (V m c main_v13 : (⟨S100000, .f32⟩ : BufTy).Contents (Elt Ideal)) (V m c main_call1_v1 : (⟨S100000, .f32⟩ : BufTy).Contents (Elt Ideal)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  exact select_typed _ _ _

set_option maxRecDepth 16384 in
set_option maxHeartbeats 40000000 in
/-- The inverse root degrees (zero where the degree sum is not positive). -/
theorem V_invRootDeg (c : Dev nD) : (V m c main_v14 : (⟨S100000, .f32⟩ : BufTy).Contents (Elt Ideal)) = Cert.ReferenceIdeal.Read.val_main_v14 (F := Ideal) (m ((c : Thread nD τ).loc main_arg1)) (m ((c : Thread nD τ).loc main_arg2)) := by
  rw [ker_invRootDeg m c, V_degPos m c, V_invRoot m c, V_zeros m c]
  rfl

set_option maxRecDepth 16384 in
set_option maxHeartbeats 40000000 in
/-- The normalised edge weights as the region finds them, over the inverse root degrees, the masked weights and the edge ends as the region finds them. -/
theorem ker_nrm (c : Dev nD) : (V m c main_v31 : (⟨S1250000, .f32⟩ : BufTy).Contents (Elt Ideal))
    = normOf (V m c main_v14 : (⟨S100000, .f32⟩ : BufTy).Contents (Elt Ideal)) (V m c main_v5 : (⟨S1250000, .f32⟩ : BufTy).Contents (Elt Ideal)) (V m c main_v1 : (⟨S1250000, .i32⟩ : BufTy).Contents (Elt Ideal)) (V m c main_v3 : (⟨S1250000, .i32⟩ : BufTy).Contents (Elt Ideal)) := by
  unfold normOf wrapCol
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp

set_option maxRecDepth 16384 in
set_option maxHeartbeats 40000000 in
/-- The normalised edge weights as the region finds them are the reference's. -/
theorem V_nrm (c : Dev nD) : (V m c main_v31 : S1250000.Idx → EReal) = Cert.ReferenceIdeal.Read.val_main_v31 (F := Ideal) (m ((c : Thread nD τ).loc main_arg1)) (m ((c : Thread nD τ).loc main_arg2)) := by
  rw [ker_nrm m c, V_invRootDeg m c, V_masked m c, V_row m c, V_col m c]
  exact (ref_norm _ _).symm

/-! ## T_1 = L̂·T_0 -/

/-- The reference's T_1 is one propagation of the node features. -/
theorem ref_prop1 (x0 : (⟨Cert.ReferenceIdeal.S100000x64, .f32⟩ : BufTy).Contents (Elt Ideal)) (x1 : (⟨Cert.ReferenceIdeal.S2x1250000, .i32⟩ : BufTy).Contents (Elt Ideal)) (x2 : (⟨Cert.ReferenceIdeal.S1250000, .f32⟩ : BufTy).Contents (Elt Ideal)) :
    Cert.ReferenceIdeal.Read.val_main_v47 (F := Ideal) x0 x1 x2 = prop (Cert.ReferenceIdeal.Read.val_main_v31 (F := Ideal) x1 x2) (Cert.ReferenceIdeal.Read.val_main_v1 (F := Ideal) x1) (Cert.ReferenceIdeal.Read.val_main_v3 (F := Ideal) x1) x0 := by
  unfold Cert.ReferenceIdeal.Read.val_main_v47 Cert.ReferenceIdeal.Read.val_main_v45 Cert.ReferenceIdeal.Read.val_main_cst_9 Cert.ReferenceIdeal.Read.val_main_v46 Cert.ReferenceIdeal.Read.val_main_v44 Cert.ReferenceIdeal.Read.val_main_v43 Cert.ReferenceIdeal.Read.val_main_v35 Cert.ReferenceIdeal.Read.val_main_v42 Cert.ReferenceIdeal.Read.val_main_v41 Cert.ReferenceIdeal.Read.val_main_v40 Cert.ReferenceIdeal.Read.val_main_v37 Cert.ReferenceIdeal.Read.val_main_v36 Cert.ReferenceIdeal.Read.val_main_c_7 Cert.ReferenceIdeal.Read.val_main_v39 Cert.ReferenceIdeal.Read.val_main_v38 Cert.ReferenceIdeal.Read.val_main_c_8
  generalize Cert.ReferenceIdeal.Read.val_main_v31 (F := Ideal) x1 x2 = nrm
  generalize Cert.ReferenceIdeal.Read.val_main_v1 (F := Ideal) x1 = row
  generalize Cert.ReferenceIdeal.Read.val_main_v3 (F := Ideal) x1 = col
  rfl

set_option maxRecDepth 16384 in
set_option maxHeartbeats 4000000 in
/-- T_1 as the region finds it, over the node features and the shared vectors as the region finds them. -/
theorem V_prop1 (c : Dev nD) : (V m c main_v44 : S100000x64.Idx → EReal)
    = prop (V m c main_v31) (V m c main_v1) (V m c main_v3) (V m c main_arg0) := by
  dsimp only [V]
  simp only [List.flatten_cons, List.flatten_nil, List.append_nil]
  rw [← List.take_append_drop 21 (hostOps0_4 (F := Ideal))]
  simp only [StableHlo.after_append]
  generalize StableHlo.after (List.take 21 (hostOps0_4 (F := Ideal))) _ = W
  simp only [hostOps0_4, List.drop_succ_cons, List.drop_zero]
  after_results_simp
  rfl

/-- T_1 as the region finds it is the reference's T_1 of the same arguments. -/
theorem V_tx1 (c : Dev nD) : (V m c main_v44 : S100000x64.Idx → EReal)
    = Cert.ReferenceIdeal.Read.val_main_v47 (F := Ideal) (m ((c : Thread nD τ).loc main_arg0)) (m ((c : Thread nD τ).loc main_arg1)) (m ((c : Thread nD τ).loc main_arg2)) := by
  rw [V_prop1 m c, V_nrm m c, V_row m c, V_col m c, V_main_arg0 m c]
  exact (ref_prop1 _ _ _).symm

/-! ## T_2 = 2·L̂·T_1 − T_0 -/

/-- The reference's T_2 is the same step over its own T_1, T_0 and shared vectors. -/
theorem ref_step2 (x0 : (⟨Cert.ReferenceIdeal.S100000x64, .f32⟩ : BufTy).Contents (Elt Ideal)) (x1 : (⟨Cert.ReferenceIdeal.S2x1250000, .i32⟩ : BufTy).Contents (Elt Ideal)) (x2 : (⟨Cert.ReferenceIdeal.S1250000, .f32⟩ : BufTy).Contents (Elt Ideal)) :
    Cert.ReferenceIdeal.Read.val_main_v67 (F := Ideal) x0 x1 x2
      = step (Cert.ReferenceIdeal.Read.val_main_v31 (F := Ideal) x1 x2) (Cert.ReferenceIdeal.Read.val_main_v1 (F := Ideal) x1) (Cert.ReferenceIdeal.Read.val_main_v3 (F := Ideal) x1) (Cert.ReferenceIdeal.Read.val_main_v47 (F := Ideal) x0 x1 x2) x0 := by
  unfold Cert.ReferenceIdeal.Read.val_main_v67 Cert.ReferenceIdeal.Read.val_main_v66 Cert.ReferenceIdeal.Read.val_main_v65 Cert.ReferenceIdeal.Read.val_main_cst_13 Cert.ReferenceIdeal.Read.val_main_v64 Cert.ReferenceIdeal.Read.val_main_v62 Cert.ReferenceIdeal.Read.val_main_cst_12 Cert.ReferenceIdeal.Read.val_main_v63 Cert.ReferenceIdeal.Read.val_main_v61 Cert.ReferenceIdeal.Read.val_main_v60 Cert.ReferenceIdeal.Read.val_main_v52 Cert.ReferenceIdeal.Read.val_main_v59 Cert.ReferenceIdeal.Read.val_main_v58 Cert.ReferenceIdeal.Read.val_main_v57 Cert.ReferenceIdeal.Read.val_main_v54 Cert.ReferenceIdeal.Read.val_main_v53 Cert.ReferenceIdeal.Read.val_main_c_10 Cert.ReferenceIdeal.Read.val_main_v56 Cert.ReferenceIdeal.Read.val_main_v55 Cert.ReferenceIdeal.Read.val_main_c_11
  generalize Cert.ReferenceIdeal.Read.val_main_v47 (F := Ideal) x0 x1 x2 = t
  generalize Cert.ReferenceIdeal.Read.val_main_v31 (F := Ideal) x1 x2 = nrm
  generalize Cert.ReferenceIdeal.Read.val_main_v1 (F := Ideal) x1 = row
  generalize Cert.ReferenceIdeal.Read.val_main_v3 (F := Ideal) x1 = col
  rfl

set_option maxRecDepth 16384 in
set_option maxHeartbeats 4000000 in
/-- T_2 as the region finds it, over T_1, T_0 and the shared vectors as the region finds them. -/
theorem V_step2 (c : Dev nD) : (V m c main_v60 : S100000x64.Idx → EReal)
    = step (V m c main_v31) (V m c main_v1) (V m c main_v3) (V m c main_v44) (V m c main_arg0) := by
  dsimp only [V]
  simp only [List.flatten_cons, List.flatten_nil, List.append_nil]
  rw [← List.take_append_drop 37 (hostOps0_4 (F := Ideal))]
  simp only [StableHlo.after_append]
  generalize StableHlo.after (List.take 37 (hostOps0_4 (F := Ideal))) _ = W
  simp only [hostOps0_4, List.drop_succ_cons, List.drop_zero]
  after_results_simp
  rfl

/-- T_2. -/
theorem V_tx2 (c : Dev nD) : (V m c main_v60 : S100000x64.Idx → EReal)
    = Cert.ReferenceIdeal.Read.val_main_v67 (F := Ideal) (m ((c : Thread nD τ).loc main_arg0)) (m ((c : Thread nD τ).loc main_arg1)) (m ((c : Thread nD τ).loc main_arg2)) := by
  rw [V_step2 m c, V_tx1 m c, V_main_arg0 m c, V_nrm m c, V_row m c, V_col m c]
  exact (ref_step2 _ _ _).symm

/-! ## T_3 = 2·L̂·T_2 − T_1 -/

/-- The reference's T_3 is the same step over its own T_2, T_1 and shared vectors. -/
theorem ref_step3 (x0 : (⟨Cert.ReferenceIdeal.S100000x64, .f32⟩ : BufTy).Contents (Elt Ideal)) (x1 : (⟨Cert.ReferenceIdeal.S2x1250000, .i32⟩ : BufTy).Contents (Elt Ideal)) (x2 : (⟨Cert.ReferenceIdeal.S1250000, .f32⟩ : BufTy).Contents (Elt Ideal)) :
    Cert.ReferenceIdeal.Read.val_main_v87 (F := Ideal) x0 x1 x2
      = step (Cert.ReferenceIdeal.Read.val_main_v31 (F := Ideal) x1 x2) (Cert.ReferenceIdeal.Read.val_main_v1 (F := Ideal) x1) (Cert.ReferenceIdeal.Read.val_main_v3 (F := Ideal) x1) (Cert.ReferenceIdeal.Read.val_main_v67 (F := Ideal) x0 x1 x2) (Cert.ReferenceIdeal.Read.val_main_v47 (F := Ideal) x0 x1 x2) := by
  unfold Cert.ReferenceIdeal.Read.val_main_v87 Cert.ReferenceIdeal.Read.val_main_v86 Cert.ReferenceIdeal.Read.val_main_v85 Cert.ReferenceIdeal.Read.val_main_cst_17 Cert.ReferenceIdeal.Read.val_main_v84 Cert.ReferenceIdeal.Read.val_main_v82 Cert.ReferenceIdeal.Read.val_main_cst_16 Cert.ReferenceIdeal.Read.val_main_v83 Cert.ReferenceIdeal.Read.val_main_v81 Cert.ReferenceIdeal.Read.val_main_v80 Cert.ReferenceIdeal.Read.val_main_v72 Cert.ReferenceIdeal.Read.val_main_v79 Cert.ReferenceIdeal.Read.val_main_v78 Cert.ReferenceIdeal.Read.val_main_v77 Cert.ReferenceIdeal.Read.val_main_v74 Cert.ReferenceIdeal.Read.val_main_v73 Cert.ReferenceIdeal.Read.val_main_c_14 Cert.ReferenceIdeal.Read.val_main_v76 Cert.ReferenceIdeal.Read.val_main_v75 Cert.ReferenceIdeal.Read.val_main_c_15
  generalize Cert.ReferenceIdeal.Read.val_main_v67 (F := Ideal) x0 x1 x2 = t
  generalize Cert.ReferenceIdeal.Read.val_main_v47 (F := Ideal) x0 x1 x2 = tp
  generalize Cert.ReferenceIdeal.Read.val_main_v31 (F := Ideal) x1 x2 = nrm
  generalize Cert.ReferenceIdeal.Read.val_main_v1 (F := Ideal) x1 = row
  generalize Cert.ReferenceIdeal.Read.val_main_v3 (F := Ideal) x1 = col
  rfl

set_option maxRecDepth 16384 in
set_option maxHeartbeats 4000000 in
/-- T_3 as the region finds it, over T_2, T_1 and the shared vectors as the region finds them. -/
theorem V_step3 (c : Dev nD) : (V m c main_v76 : S100000x64.Idx → EReal)
    = step (V m c main_v31) (V m c main_v1) (V m c main_v3) (V m c main_v60) (V m c main_v44) := by
  dsimp only [V]
  simp only [List.flatten_cons, List.flatten_nil, List.append_nil]
  rw [← List.take_append_drop 57 (hostOps0_4 (F := Ideal))]
  simp only [StableHlo.after_append]
  generalize StableHlo.after (List.take 57 (hostOps0_4 (F := Ideal))) _ = W
  simp only [hostOps0_4, List.drop_succ_cons, List.drop_zero]
  after_results_simp
  rfl

/-- T_3. -/
theorem V_tx3 (c : Dev nD) : (V m c main_v76 : S100000x64.Idx → EReal)
    = Cert.ReferenceIdeal.Read.val_main_v87 (F := Ideal) (m ((c : Thread nD τ).loc main_arg0)) (m ((c : Thread nD τ).loc main_arg1)) (m ((c : Thread nD τ).loc main_arg2)) := by
  rw [V_step3 m c, V_tx2 m c, V_tx1 m c, V_nrm m c, V_row m c, V_col m c]
  exact (ref_step3 _ _ _).symm

/-! ## T_4 = 2·L̂·T_3 − T_2 -/

/-- The reference's T_4 is the same step over its own T_3, T_2 and shared vectors. -/
theorem ref_step4 (x0 : (⟨Cert.ReferenceIdeal.S100000x64, .f32⟩ : BufTy).Contents (Elt Ideal)) (x1 : (⟨Cert.ReferenceIdeal.S2x1250000, .i32⟩ : BufTy).Contents (Elt Ideal)) (x2 : (⟨Cert.ReferenceIdeal.S1250000, .f32⟩ : BufTy).Contents (Elt Ideal)) :
    Cert.ReferenceIdeal.Read.val_main_v107 (F := Ideal) x0 x1 x2
      = step (Cert.ReferenceIdeal.Read.val_main_v31 (F := Ideal) x1 x2) (Cert.ReferenceIdeal.Read.val_main_v1 (F := Ideal) x1) (Cert.ReferenceIdeal.Read.val_main_v3 (F := Ideal) x1) (Cert.ReferenceIdeal.Read.val_main_v87 (F := Ideal) x0 x1 x2) (Cert.ReferenceIdeal.Read.val_main_v67 (F := Ideal) x0 x1 x2) := by
  unfold Cert.ReferenceIdeal.Read.val_main_v107 Cert.ReferenceIdeal.Read.val_main_v106 Cert.ReferenceIdeal.Read.val_main_v105 Cert.ReferenceIdeal.Read.val_main_cst_21 Cert.ReferenceIdeal.Read.val_main_v104 Cert.ReferenceIdeal.Read.val_main_v102 Cert.ReferenceIdeal.Read.val_main_cst_20 Cert.ReferenceIdeal.Read.val_main_v103 Cert.ReferenceIdeal.Read.val_main_v101 Cert.ReferenceIdeal.Read.val_main_v100 Cert.ReferenceIdeal.Read.val_main_v92 Cert.ReferenceIdeal.Read.val_main_v99 Cert.ReferenceIdeal.Read.val_main_v98 Cert.ReferenceIdeal.Read.val_main_v97 Cert.ReferenceIdeal.Read.val_main_v94 Cert.ReferenceIdeal.Read.val_main_v93 Cert.ReferenceIdeal.Read.val_main_c_18 Cert.ReferenceIdeal.Read.val_main_v96 Cert.ReferenceIdeal.Read.val_main_v95 Cert.ReferenceIdeal.Read.val_main_c_19
  generalize Cert.ReferenceIdeal.Read.val_main_v87 (F := Ideal) x0 x1 x2 = t
  generalize Cert.ReferenceIdeal.Read.val_main_v67 (F := Ideal) x0 x1 x2 = tp
  generalize Cert.ReferenceIdeal.Read.val_main_v31 (F := Ideal) x1 x2 = nrm
  generalize Cert.ReferenceIdeal.Read.val_main_v1 (F := Ideal) x1 = row
  generalize Cert.ReferenceIdeal.Read.val_main_v3 (F := Ideal) x1 = col
  rfl

set_option maxRecDepth 16384 in
set_option maxHeartbeats 4000000 in
/-- T_4 as the region finds it, over T_3, T_2 and the shared vectors as the region finds them. -/
theorem V_step4 (c : Dev nD) : (V m c main_v92 : S100000x64.Idx → EReal)
    = step (V m c main_v31) (V m c main_v1) (V m c main_v3) (V m c main_v76) (V m c main_v60) := by
  dsimp only [V]
  simp only [List.flatten_cons, List.flatten_nil, List.append_nil]
  rw [← List.take_append_drop 77 (hostOps0_4 (F := Ideal))]
  simp only [StableHlo.after_append]
  generalize StableHlo.after (List.take 77 (hostOps0_4 (F := Ideal))) _ = W
  simp only [hostOps0_4, List.drop_succ_cons, List.drop_zero]
  after_results_simp
  rfl

/-- T_4. -/
theorem V_tx4 (c : Dev nD) : (V m c main_v92 : S100000x64.Idx → EReal)
    = Cert.ReferenceIdeal.Read.val_main_v107 (F := Ideal) (m ((c : Thread nD τ).loc main_arg0)) (m ((c : Thread nD τ).loc main_arg1)) (m ((c : Thread nD τ).loc main_arg2)) := by
  rw [V_step4 m c, V_tx3 m c, V_tx2 m c, V_nrm m c, V_row m c, V_col m c]
  exact (ref_step4 _ _ _).symm

/-! ## T_5 = 2·L̂·T_4 − T_3 -/

/-- The reference's T_5 is the same step over its own T_4, T_3 and shared vectors. -/
theorem ref_step5 (x0 : (⟨Cert.ReferenceIdeal.S100000x64, .f32⟩ : BufTy).Contents (Elt Ideal)) (x1 : (⟨Cert.ReferenceIdeal.S2x1250000, .i32⟩ : BufTy).Contents (Elt Ideal)) (x2 : (⟨Cert.ReferenceIdeal.S1250000, .f32⟩ : BufTy).Contents (Elt Ideal)) :
    Cert.ReferenceIdeal.Read.val_main_v127 (F := Ideal) x0 x1 x2
      = step (Cert.ReferenceIdeal.Read.val_main_v31 (F := Ideal) x1 x2) (Cert.ReferenceIdeal.Read.val_main_v1 (F := Ideal) x1) (Cert.ReferenceIdeal.Read.val_main_v3 (F := Ideal) x1) (Cert.ReferenceIdeal.Read.val_main_v107 (F := Ideal) x0 x1 x2) (Cert.ReferenceIdeal.Read.val_main_v87 (F := Ideal) x0 x1 x2) := by
  unfold Cert.ReferenceIdeal.Read.val_main_v127 Cert.ReferenceIdeal.Read.val_main_v126 Cert.ReferenceIdeal.Read.val_main_v125 Cert.ReferenceIdeal.Read.val_main_cst_25 Cert.ReferenceIdeal.Read.val_main_v124 Cert.ReferenceIdeal.Read.val_main_v122 Cert.ReferenceIdeal.Read.val_main_cst_24 Cert.ReferenceIdeal.Read.val_main_v123 Cert.ReferenceIdeal.Read.val_main_v121 Cert.ReferenceIdeal.Read.val_main_v120 Cert.ReferenceIdeal.Read.val_main_v112 Cert.ReferenceIdeal.Read.val_main_v119 Cert.ReferenceIdeal.Read.val_main_v118 Cert.ReferenceIdeal.Read.val_main_v117 Cert.ReferenceIdeal.Read.val_main_v114 Cert.ReferenceIdeal.Read.val_main_v113 Cert.ReferenceIdeal.Read.val_main_c_22 Cert.ReferenceIdeal.Read.val_main_v116 Cert.ReferenceIdeal.Read.val_main_v115 Cert.ReferenceIdeal.Read.val_main_c_23
  generalize Cert.ReferenceIdeal.Read.val_main_v107 (F := Ideal) x0 x1 x2 = t
  generalize Cert.ReferenceIdeal.Read.val_main_v87 (F := Ideal) x0 x1 x2 = tp
  generalize Cert.ReferenceIdeal.Read.val_main_v31 (F := Ideal) x1 x2 = nrm
  generalize Cert.ReferenceIdeal.Read.val_main_v1 (F := Ideal) x1 = row
  generalize Cert.ReferenceIdeal.Read.val_main_v3 (F := Ideal) x1 = col
  rfl

set_option maxRecDepth 16384 in
set_option maxHeartbeats 4000000 in
/-- T_5 as the region finds it, over T_4, T_3 and the shared vectors as the region finds them. -/
theorem V_step5 (c : Dev nD) : (V m c main_v108 : S100000x64.Idx → EReal)
    = step (V m c main_v31) (V m c main_v1) (V m c main_v3) (V m c main_v92) (V m c main_v76) := by
  dsimp only [V]
  simp only [List.flatten_cons, List.flatten_nil, List.append_nil]
  rw [← List.take_append_drop 97 (hostOps0_4 (F := Ideal))]
  simp only [StableHlo.after_append]
  generalize StableHlo.after (List.take 97 (hostOps0_4 (F := Ideal))) _ = W
  simp only [hostOps0_4, List.drop_succ_cons, List.drop_zero]
  after_results_simp
  rfl

/-- T_5. -/
theorem V_tx5 (c : Dev nD) : (V m c main_v108 : S100000x64.Idx → EReal)
    = Cert.ReferenceIdeal.Read.val_main_v127 (F := Ideal) (m ((c : Thread nD τ).loc main_arg0)) (m ((c : Thread nD τ).loc main_arg1)) (m ((c : Thread nD τ).loc main_arg2)) := by
  rw [V_step5 m c, V_tx4 m c, V_tx3 m c, V_nrm m c, V_row m c, V_col m c]
  exact (ref_step5 _ _ _).symm

/-! ## T_6 = 2·L̂·T_5 − T_4 -/

/-- The reference's T_6 is the same step over its own T_5, T_4 and shared vectors. -/
theorem ref_step6 (x0 : (⟨Cert.ReferenceIdeal.S100000x64, .f32⟩ : BufTy).Contents (Elt Ideal)) (x1 : (⟨Cert.ReferenceIdeal.S2x1250000, .i32⟩ : BufTy).Contents (Elt Ideal)) (x2 : (⟨Cert.ReferenceIdeal.S1250000, .f32⟩ : BufTy).Contents (Elt Ideal)) :
    Cert.ReferenceIdeal.Read.val_main_v147 (F := Ideal) x0 x1 x2
      = step (Cert.ReferenceIdeal.Read.val_main_v31 (F := Ideal) x1 x2) (Cert.ReferenceIdeal.Read.val_main_v1 (F := Ideal) x1) (Cert.ReferenceIdeal.Read.val_main_v3 (F := Ideal) x1) (Cert.ReferenceIdeal.Read.val_main_v127 (F := Ideal) x0 x1 x2) (Cert.ReferenceIdeal.Read.val_main_v107 (F := Ideal) x0 x1 x2) := by
  unfold Cert.ReferenceIdeal.Read.val_main_v147 Cert.ReferenceIdeal.Read.val_main_v146 Cert.ReferenceIdeal.Read.val_main_v145 Cert.ReferenceIdeal.Read.val_main_cst_29 Cert.ReferenceIdeal.Read.val_main_v144 Cert.ReferenceIdeal.Read.val_main_v142 Cert.ReferenceIdeal.Read.val_main_cst_28 Cert.ReferenceIdeal.Read.val_main_v143 Cert.ReferenceIdeal.Read.val_main_v141 Cert.ReferenceIdeal.Read.val_main_v140 Cert.ReferenceIdeal.Read.val_main_v132 Cert.ReferenceIdeal.Read.val_main_v139 Cert.ReferenceIdeal.Read.val_main_v138 Cert.ReferenceIdeal.Read.val_main_v137 Cert.ReferenceIdeal.Read.val_main_v134 Cert.ReferenceIdeal.Read.val_main_v133 Cert.ReferenceIdeal.Read.val_main_c_26 Cert.ReferenceIdeal.Read.val_main_v136 Cert.ReferenceIdeal.Read.val_main_v135 Cert.ReferenceIdeal.Read.val_main_c_27
  generalize Cert.ReferenceIdeal.Read.val_main_v127 (F := Ideal) x0 x1 x2 = t
  generalize Cert.ReferenceIdeal.Read.val_main_v107 (F := Ideal) x0 x1 x2 = tp
  generalize Cert.ReferenceIdeal.Read.val_main_v31 (F := Ideal) x1 x2 = nrm
  generalize Cert.ReferenceIdeal.Read.val_main_v1 (F := Ideal) x1 = row
  generalize Cert.ReferenceIdeal.Read.val_main_v3 (F := Ideal) x1 = col
  rfl

set_option maxRecDepth 16384 in
set_option maxHeartbeats 4000000 in
/-- T_6 as the region finds it, over T_5, T_4 and the shared vectors as the region finds them. -/
theorem V_step6 (c : Dev nD) : (V m c main_v124 : S100000x64.Idx → EReal)
    = step (V m c main_v31) (V m c main_v1) (V m c main_v3) (V m c main_v108) (V m c main_v92) := by
  dsimp only [V]
  simp only [List.flatten_cons, List.flatten_nil, List.append_nil]
  rw [← List.take_append_drop 117 (hostOps0_4 (F := Ideal))]
  simp only [StableHlo.after_append]
  generalize StableHlo.after (List.take 117 (hostOps0_4 (F := Ideal))) _ = W
  simp only [hostOps0_4, List.drop_succ_cons, List.drop_zero]
  after_results_simp
  rfl

/-- T_6. -/
theorem V_tx6 (c : Dev nD) : (V m c main_v124 : S100000x64.Idx → EReal)
    = Cert.ReferenceIdeal.Read.val_main_v147 (F := Ideal) (m ((c : Thread nD τ).loc main_arg0)) (m ((c : Thread nD τ).loc main_arg1)) (m ((c : Thread nD τ).loc main_arg2)) := by
  rw [V_step6 m c, V_tx5 m c, V_tx4 m c, V_nrm m c, V_row m c, V_col m c]
  exact (ref_step6 _ _ _).symm

/-! ## The bias row -/

set_option maxRecDepth 16384 in
set_option maxHeartbeats 4000000 in
/-- The bias row the region finds is the bias vector laid out as one row. -/
theorem V_bias_row (c : Dev nD) :
    (V m c main_v125 : S1x64.Idx → EReal) = shapeCast S1x64 ((m ((c : Thread nD τ).loc main_arg6)) : S64.Idx → EReal) shapeCasts_S64_S1x64 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

/-- The bias row the region finds: entry (0, k) is entry k of the bias vector (row-major position 0·64 + k on both sides). -/
theorem V_bias (c : Dev nD) (k : Fin 64) :
    (V m c main_v125 : S1x64.Idx → EReal) (ix2 0 k) = ((m ((c : Thread nD τ).loc main_arg6)) : S64.Idx → EReal) (ix1 k) := by
  rw [V_bias_row]
  exact shapeCast_apply _ _ (ix2 (0 : Fin 1) k) (ix1 k) (by
    rw [Shape.rowMajor_val_two, Shape.rowMajor_val_one]
    show k.val = 0 * 64 + k.val
    rw [Nat.zero_mul, Nat.zero_add])

end Cert.KernelIdeal.HostChain

end
-- ==== Proof.Agreement.lean ====
/-
  The two programs' results are one function of the arguments.

  The kernel's result arrays are the row function of GateRows applied to the arrays its region finds: its arguments,
  and the six propagated arrays and the bias row its own host operations computed. Those six arrays are the reference's
  own six intermediate arrays of the same arguments, and the bias row is the bias vector; and the reference's two
  results are the same row function of its intermediate arrays. So, index by index, the kernel's new cell state and new
  hidden state are the reference's.
-/
import proofs.«158475_j43903155699857_1_alg».proof.Proof.KernelArray
import proofs.«158475_j43903155699857_1_alg».proof.Proof.RefRows
import proofs.«158475_j43903155699857_1_alg».proof.Proof.HostChain

noncomputable section

namespace Cert.KernelIdeal.Agreement

open Cert.KernelIdeal Cert.KernelIdeal.Gen Cert.KernelIdeal.Arrays
open Idealize.ShloMosaic Idealize.ShloMosaic.TcCoe Idealize.ShloMosaic.ValueIdx Idealize.SL.Sem Cert.GateRows

variable (m : (ℓ : Loc nD τ sig) → Buf (Elt Ideal) ℓ)

/-- The bias row the region finds, as a function of the column, is the bias vector. -/
theorem bias_eq (c : Dev nD) :
    (fun k : Fin 64 => (V m c main_v125 : FVec Ideal S1x64 .f32) (ix2 (0 : Fin 1) k))
      = fun k : Fin 64 => ((m ((c : Thread nD τ).loc main_arg6)) : S64.Idx → EReal) (ix1 k) :=
  funext fun k => HostChain.V_bias m c k

/-- The kernel's new cell state is the reference's, as functions of the kernel's arguments. -/
theorem cell_eq (c : Dev nD) :
    cellG m c = Cert.ReferenceIdeal.Read.val_main_v191 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  funext i
  obtain ⟨r, q, rfl⟩ : ∃ (r : Fin 100000) (q : Fin 64), i = ix2 r q := ⟨i 0, i 1, eq_ix2 i⟩
  rw [Cert.ReferenceIdeal.RefRows.cell_apply]
  show cellArr (n := 100000) _ _ _ _ _ _ _ _ _ _ _ _ _ _ _ _ _ _ _ _ _ _ r q = _
  rw [bias_eq m c, HostChain.V_tx1 m c, HostChain.V_tx2 m c, HostChain.V_tx3 m c, HostChain.V_tx4 m c, HostChain.V_tx5 m c,
    HostChain.V_tx6 m c, V_main_arg0 m c, V_main_arg3 m c, V_main_arg4 m c, V_main_arg5 m c, V_main_arg7 m c, V_main_arg8 m c, V_main_arg9 m c, V_main_arg10 m c, V_main_arg11 m c, V_main_arg12 m c, V_main_arg13 m c, V_main_arg14 m c, V_main_arg15 m c, V_main_arg16 m c, V_main_arg17 m c]

/-- The kernel's new hidden state is the reference's, as functions of the kernel's arguments. -/
theorem hidden_eq (c : Dev nD) :
    hiddenG m c = Cert.ReferenceIdeal.Read.val_main_v207 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  funext i
  obtain ⟨r, q, rfl⟩ : ∃ (r : Fin 100000) (q : Fin 64), i = ix2 r q := ⟨i 0, i 1, eq_ix2 i⟩
  rw [Cert.ReferenceIdeal.RefRows.hidden_apply]
  show hiddenArr (n := 100000) _ _ _ _ _ _ _ _ _ _ _ _ _ _ _ _ _ _ _ _ _ _ _ _ _ _ r q = _
  rw [bias_eq m c, HostChain.V_tx1 m c, HostChain.V_tx2 m c, HostChain.V_tx3 m c, HostChain.V_tx4 m c, HostChain.V_tx5 m c,
    HostChain.V_tx6 m c, V_main_arg0 m c, V_main_arg3 m c, V_main_arg4 m c, V_main_arg5 m c, V_main_arg7 m c, V_main_arg8 m c, V_main_arg9 m c, V_main_arg10 m c, V_main_arg11 m c, V_main_arg12 m c, V_main_arg13 m c, V_main_arg14 m c, V_main_arg15 m c, V_main_arg16 m c, V_main_arg17 m c, V_main_arg18 m c, V_main_arg19 m c, V_main_arg20 m c, V_main_arg21 m c]

end Cert.KernelIdeal.Agreement

end
-- ==== Proof.lean ====
/-
  The certificate's claims.

  Both programs compute, from the node features, the edge list and the edge weights, the seven Chebyshev-propagated
  feature arrays by the same host operations; the kernel then applies the seven convolution weights and the four
  gates to blocks of 2000 rows on a grid of 50 points, where the reference applies them to the whole arrays. On the
  extended reals a matrix product into a zero accumulator is the host's matrix product, the narrowing casts are the
  identity, and the kernel's logistic is the reference's 1 / (1 + exp(−x)); every entry of either result depends only on
  its own row of the operand arrays, so block by block the kernel writes exactly the reference's entries. The frames
  are the generated ones (the reference's is its generated run with the results dropped); the idealization changed
  nothing of the kernel's text, so nothing is to be preserved.
-/
import proofs.«158475_j43903155699857_1_alg».proof.Defs
import proofs.«158475_j43903155699857_1_alg».proof.Proof.Gen.Kernel
import proofs.«158475_j43903155699857_1_alg».proof.Proof.Gen.Kernel.Frame
import proofs.«158475_j43903155699857_1_alg».proof.Proof.Gen.KernelIdeal
import proofs.«158475_j43903155699857_1_alg».proof.Proof.Gen.KernelIdeal.Frame
import proofs.«158475_j43903155699857_1_alg».proof.Proof.Gen.KernelIdeal.Value
import proofs.«158475_j43903155699857_1_alg».proof.Proof.Gen.ReferenceIdeal
import proofs.«158475_j43903155699857_1_alg».proof.Proof.RefRun
import proofs.«158475_j43903155699857_1_alg».proof.Proof.Gen.Pre_finite_inputs
import proofs.«158475_j43903155699857_1_alg».proof.Proof.Agreement
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the same new hidden state and the same new cell
    state: the kernel's arrays are the row function of what its region finds, which is the reference's stage of the
    same arguments. -/
theorem algebraic : Cert.algebraic_KernelIdeal_ReferenceIdeal := by
  intro m ρ m' ρ' _ hagree
  refine ⟨fun c => Cert.KernelIdeal.Arrays.hiddenG m c, fun c => Cert.KernelIdeal.Arrays.cellG m c, ?_, ?_⟩
  · exact (θ_run Cert.KernelIdeal.defs _ _).mono
      (fun r h c => ⟨(h c).1.trans (Cert.KernelIdeal.Arrays.final26 m c), (h c).2.1.trans (Cert.KernelIdeal.Arrays.final27 m c), (h c).2.2⟩)
      (Cert.KernelIdeal.Value.run_blocks m ρ)
  · refine (θ_run Cert.ReferenceIdeal.defs _ _).mono (fun r h c => ⟨(h c).1.trans ?_, (h c).2.1.trans ?_, (h c).2.2⟩)
      (Cert.ReferenceIdeal.Value.run (F := Ideal) m' ρ')
    · unfold Cert.ReferenceIdeal.Value.res_main_v207
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2]
      exact (Cert.KernelIdeal.Agreement.hidden_eq m c).symm
    · unfold Cert.ReferenceIdeal.Value.res_main_v191
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1]
      exact (Cert.KernelIdeal.Agreement.cell_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
